-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S300000x64 : Shape := ⟨2, ![300000, 64]⟩
abbrev S1000000 : Shape := ⟨1, ![1000000]⟩
abbrev S_ : Shape := ⟨0, ![]⟩

class Facts : Prop where
  bcast_S_S300000x64 : S_.BroadcastsInDim S300000x64 (![] : Fin 0 → Fin S300000x64.rank)
  reducesTo_S300000x64_S_d0_1 : S300000x64.ReducesTo [0, 1] S_
  h_S_ : 0 < S_.numel

variable [Facts]

def fn {F : FTy → Type} [FloatOps F] (main_arg0 : FVec F S300000x64 .f32) (main_arg1 : IVec S1000000 32) (main_arg2 : IVec S1000000 32) : IVec S_ 1 :=
  let main_v0 : FVec F S300000x64 .f32 := Host.absf main_arg0
  let main_cst : FVec F S_ .f32 := constant S_ .f32 0x7F800000#32
  let main_v1 : FVec F S300000x64 .f32 := broadcastInDim S300000x64 ![] bcast_S_S300000x64 main_cst
  let main_v2 : IVec S300000x64 1 := cmpf .olt main_v0 main_v1
  let main_c : IVec S_ 1 := constantI S_ 1 1#1
  let main_v3 : IVec S_ 1 := (fun x v => Host.reduce IntOp.andi x v reducesTo_S300000x64_S_d0_1 h_S_) main_v2 main_c
  main_v3
-- ==== Kernel.lean ====
abbrev S300000x64 : Shape := ⟨2, ![300000, 64]⟩
abbrev S1000000 : Shape := ⟨1, ![1000000]⟩
abbrev S_ : Shape := ⟨0, ![]⟩
abbrev S300000 : Shape := ⟨1, ![300000]⟩
abbrev S2300000 : Shape := ⟨1, ![2300000]⟩
abbrev S2300000x1 : Shape := ⟨2, ![2300000, 1]⟩
abbrev S1952 : Shape := ⟨1, ![1952]⟩
abbrev S2301952 : Shape := ⟨1, ![2301952]⟩
abbrev S2301952x1 : Shape := ⟨2, ![2301952, 1]⟩
abbrev S2301952x64 : Shape := ⟨2, ![2301952, 64]⟩
abbrev S8192x64 : Shape := ⟨2, ![8192, 64]⟩
abbrev S8192x1 : Shape := ⟨2, ![8192, 1]⟩
abbrev S2000x64 : Shape := ⟨2, ![2000, 64]⟩

abbrev nBuf : Space → Nat
  | .hbm => 108
  | .vmem => 48
  | .smem => 0
  | _ => 0

abbrev bufTy : (tb : Table) → Fin (tcTables nBuf tb) → BufTy
  | .hbm, ⟨0, _⟩ => ⟨S300000x64, .f32⟩
  | .hbm, ⟨1, _⟩ => ⟨S1000000, .i32⟩
  | .hbm, ⟨2, _⟩ => ⟨S1000000, .i32⟩
  | .hbm, ⟨3, _⟩ => ⟨S_, .i32⟩
  | .hbm, ⟨4, _⟩ => ⟨S1000000, .i32⟩
  | .hbm, ⟨5, _⟩ => ⟨S1000000, .i32⟩
  | .hbm, ⟨6, _⟩ => ⟨S300000, .i32⟩
  | .hbm, ⟨7, _⟩ => ⟨S2300000, .i32⟩
  | .hbm, ⟨8, _⟩ => ⟨S2300000, .i32⟩
  | .hbm, ⟨9, _⟩ => ⟨S_, .f32⟩
  | .hbm, ⟨10, _⟩ => ⟨S2300000, .f32⟩
  | .hbm, ⟨11, _⟩ => ⟨S_, .f32⟩
  | .hbm, ⟨12, _⟩ => ⟨S300000, .f32⟩
  | .hbm, ⟨13, _⟩ => ⟨S2300000x1, .i32⟩
  | .hbm, ⟨14, _⟩ => ⟨S300000, .f32⟩
  | .hbm, ⟨15, _⟩ => ⟨S_, .f32⟩
  | .hbm, ⟨16, _⟩ => ⟨S300000, .f32⟩
  | .hbm, ⟨17, _⟩ => ⟨S300000, .f32⟩
  | .hbm, ⟨18, _⟩ => ⟨S_, .i32⟩
  | .hbm, ⟨19, _⟩ => ⟨S2300000, .i32⟩
  | .hbm, ⟨20, _⟩ => ⟨S2300000, .i1⟩
  | .hbm, ⟨21, _⟩ => ⟨S_, .i32⟩
  | .hbm, ⟨22, _⟩ => ⟨S2300000, .i32⟩
  | .hbm, ⟨23, _⟩ => ⟨S2300000, .i32⟩
  | .hbm, ⟨24, _⟩ => ⟨S2300000, .i32⟩
  | .hbm, ⟨25, _⟩ => ⟨S2300000x1, .i32⟩
  | .hbm, ⟨26, _⟩ => ⟨S2300000, .f32⟩
  | .hbm, ⟨27, _⟩ => ⟨S_, .i32⟩
  | .hbm, ⟨28, _⟩ => ⟨S2300000, .i32⟩
  | .hbm, ⟨29, _⟩ => ⟨S2300000, .i1⟩
  | .hbm, ⟨30, _⟩ => ⟨S_, .i32⟩
  | .hbm, ⟨31, _⟩ => ⟨S2300000, .i32⟩
  | .hbm, ⟨32, _⟩ => ⟨S2300000, .i32⟩
  | .hbm, ⟨33, _⟩ => ⟨S2300000, .i32⟩
  | .hbm, ⟨34, _⟩ => ⟨S2300000x1, .i32⟩
  | .hbm, ⟨35, _⟩ => ⟨S2300000, .f32⟩
  | .hbm, ⟨36, _⟩ => ⟨S2300000, .f32⟩
  | .hbm, ⟨37, _⟩ => ⟨S_, .i32⟩
  | .hbm, ⟨38, _⟩ => ⟨S1952, .i32⟩
  | .hbm, ⟨39, _⟩ => ⟨S_, .f32⟩
  | .hbm, ⟨40, _⟩ => ⟨S1952, .f32⟩
  | .hbm, ⟨41, _⟩ => ⟨S2301952, .i32⟩
  | .hbm, ⟨42, _⟩ => ⟨S2301952, .i32⟩
  | .hbm, ⟨43, _⟩ => ⟨S2301952, .f32⟩
  | .hbm, ⟨44, _⟩ => ⟨S2301952x1, .f32⟩
  | .hbm, ⟨45, _⟩ => ⟨S_, .i32⟩
  | .hbm, ⟨46, _⟩ => ⟨S2301952, .i32⟩
  | .hbm, ⟨47, _⟩ => ⟨S2301952, .i1⟩
  | .hbm, ⟨48, _⟩ => ⟨S_, .i32⟩
  | .hbm, ⟨49, _⟩ => ⟨S2301952, .i32⟩
  | .hbm, ⟨50, _⟩ => ⟨S2301952, .i32⟩
  | .hbm, ⟨51, _⟩ => ⟨S2301952, .i32⟩
  | .hbm, ⟨52, _⟩ => ⟨S2301952x1, .i32⟩
  | .hbm, ⟨53, _⟩ => ⟨S2301952x64, .f32⟩
  | .hbm, ⟨54, _⟩ => ⟨S2301952x64, .f32⟩
  | .hbm, ⟨55, _⟩ => ⟨S_, .f32⟩
  | .hbm, ⟨56, _⟩ => ⟨S300000x64, .f32⟩
  | .hbm, ⟨57, _⟩ => ⟨S2301952x1, .i32⟩
  | .hbm, ⟨58, _⟩ => ⟨S300000x64, .f32⟩
  | .hbm, ⟨59, _⟩ => ⟨S300000x64, .f32⟩
  | .hbm, ⟨60, _⟩ => ⟨S_, .i32⟩
  | .hbm, ⟨61, _⟩ => ⟨S2301952, .i32⟩
  | .hbm, ⟨62, _⟩ => ⟨S2301952, .i1⟩
  | .hbm, ⟨63, _⟩ => ⟨S_, .i32⟩
  | .hbm, ⟨64, _⟩ => ⟨S2301952, .i32⟩
  | .hbm, ⟨65, _⟩ => ⟨S2301952, .i32⟩
  | .hbm, ⟨66, _⟩ => ⟨S2301952, .i32⟩
  | .hbm, ⟨67, _⟩ => ⟨S2301952x1, .i32⟩
  | .hbm, ⟨68, _⟩ => ⟨S2301952x64, .f32⟩
  | .hbm, ⟨69, _⟩ => ⟨S2301952x64, .f32⟩
  | .hbm, ⟨70, _⟩ => ⟨S_, .f32⟩
  | .hbm, ⟨71, _⟩ => ⟨S300000x64, .f32⟩
  | .hbm, ⟨72, _⟩ => ⟨S2301952x1, .i32⟩
  | .hbm, ⟨73, _⟩ => ⟨S300000x64, .f32⟩
  | .hbm, ⟨74, _⟩ => ⟨S300000x64, .f32⟩
  | .hbm, ⟨75, _⟩ => ⟨S_, .i32⟩
  | .hbm, ⟨76, _⟩ => ⟨S2301952, .i32⟩
  | .hbm, ⟨77, _⟩ => ⟨S2301952, .i1⟩
  | .hbm, ⟨78, _⟩ => ⟨S_, .i32⟩
  | .hbm, ⟨79, _⟩ => ⟨S2301952, .i32⟩
  | .hbm, ⟨80, _⟩ => ⟨S2301952, .i32⟩
  | .hbm, ⟨81, _⟩ => ⟨S2301952, .i32⟩
  | .hbm, ⟨82, _⟩ => ⟨S2301952x1, .i32⟩
  | .hbm, ⟨83, _⟩ => ⟨S2301952x64, .f32⟩
  | .hbm, ⟨84, _⟩ => ⟨S2301952x64, .f32⟩
  | .hbm, ⟨85, _⟩ => ⟨S_, .f32⟩
  | .hbm, ⟨86, _⟩ => ⟨S300000x64, .f32⟩
  | .hbm, ⟨87, _⟩ => ⟨S2301952x1, .i32⟩
  | .hbm, ⟨88, _⟩ => ⟨S300000x64, .f32⟩
  | .hbm, ⟨89, _⟩ => ⟨S300000x64, .f32⟩
  | .hbm, ⟨90, _⟩ => ⟨S_, .i32⟩
  | .hbm, ⟨91, _⟩ => ⟨S2301952, .i32⟩
  | .hbm, ⟨92, _⟩ => ⟨S2301952, .i1⟩
  | .hbm, ⟨93, _⟩ => ⟨S_, .i32⟩
  | .hbm, ⟨94, _⟩ => ⟨S2301952, .i32⟩
  | .hbm, ⟨95, _⟩ => ⟨S2301952, .i32⟩
  | .hbm, ⟨96, _⟩ => ⟨S2301952, .i32⟩
  | .hbm, ⟨97, _⟩ => ⟨S2301952x1, .i32⟩
  | .hbm, ⟨98, _⟩ => ⟨S2301952x64, .f32⟩
  | .hbm, ⟨99, _⟩ => ⟨S2301952x64, .f32⟩
  | .hbm, ⟨100, _⟩ => ⟨S_, .f32⟩
  | .hbm, ⟨101, _⟩ => ⟨S300000x64, .f32⟩
  | .hbm, ⟨102, _⟩ => ⟨S2301952x1, .i32⟩
  | .hbm, ⟨103, _⟩ => ⟨S300000x64, .f32⟩
  | .hbm, ⟨104, _⟩ => ⟨S300000x64, .f32⟩
  | .hbm, ⟨105, _⟩ => ⟨S_, .f32⟩
  | .hbm, ⟨106, _⟩ => ⟨S300000x64, .f32⟩
  | .hbm, ⟨107, _⟩ => ⟨S300000x64, .f32⟩
  | .local _ .vmem, ⟨0, _⟩ => ⟨S8192x64, .f32⟩
  | .local _ .vmem, ⟨1, _⟩ => ⟨S8192x64, .f32⟩
  | .local _ .vmem, ⟨2, _⟩ => ⟨S8192x1, .f32⟩
  | .local _ .vmem, ⟨3, _⟩ => ⟨S8192x1, .f32⟩
  | .local _ .vmem, ⟨4, _⟩ => ⟨S8192x64, .f32⟩
  | .local _ .vmem, ⟨5, _⟩ => ⟨S8192x64, .f32⟩
  | .local _ .vmem, ⟨6, _⟩ => ⟨S2000x64, .f32⟩
  | .local _ .vmem, ⟨7, _⟩ => ⟨S2000x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S8192x64, .f32⟩
  | .local _ .vmem, ⟨13, _⟩ => ⟨S8192x64, .f32⟩
  | .local _ .vmem, ⟨14, _⟩ => ⟨S8192x1, .f32⟩
  | .local _ .vmem, ⟨15, _⟩ => ⟨S8192x1, .f32⟩
  | .local _ .vmem, ⟨16, _⟩ => ⟨S8192x64, .f32⟩
  | .local _ .vmem, ⟨17, _⟩ => ⟨S8192x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S2000x64, .f32⟩
  | .local _ .vmem, ⟨23, _⟩ => ⟨S2000x64, .f32⟩
  | .local _ .vmem, ⟨24, _⟩ => ⟨S8192x64, .f32⟩
  | .local _ .vmem, ⟨25, _⟩ => ⟨S8192x64, .f32⟩
  | .local _ .vmem, ⟨26, _⟩ => ⟨S8192x1, .f32⟩
  | .local _ .vmem, ⟨27, _⟩ => ⟨S8192x1, .f32⟩
  | .local _ .vmem, ⟨28, _⟩ => ⟨S8192x64, .f32⟩
  | .local _ .vmem, ⟨29, _⟩ => ⟨S8192x64, .f32⟩
  | .local _ .vmem, ⟨30, _⟩ => ⟨S2000x64, .f32⟩
  | .local _ .vmem, ⟨31, _⟩ => ⟨S2000x64, .f32⟩
  | .local _ .vmem, ⟨32, _⟩ => ⟨S2000x64, .f32⟩
  | .local _ .vmem, ⟨33, _⟩ => ⟨S2000x64, .f32⟩
  | .local _ .vmem, ⟨34, _⟩ => ⟨S2000x64, .f32⟩
  | .local _ .vmem, ⟨35, _⟩ => ⟨S2000x64, .f32⟩
  | .local _ .vmem, ⟨36, _⟩ => ⟨S8192x64, .f32⟩
  | .local _ .vmem, ⟨37, _⟩ => ⟨S8192x64, .f32⟩
  | .local _ .vmem, ⟨38, _⟩ => ⟨S8192x1, .f32⟩
  | .local _ .vmem, ⟨39, _⟩ => ⟨S8192x1, .f32⟩
  | .local _ .vmem, ⟨40, _⟩ => ⟨S8192x64, .f32⟩
  | .local _ .vmem, ⟨41, _⟩ => ⟨S8192x64, .f32⟩
  | .local _ .vmem, ⟨42, _⟩ => ⟨S2000x64, .f32⟩
  | .local _ .vmem, ⟨43, _⟩ => ⟨S2000x64, .f32⟩
  | .local _ .vmem, ⟨44, _⟩ => ⟨S2000x64, .f32⟩
  | .local _ .vmem, ⟨45, _⟩ => ⟨S2000x64, .f32⟩
  | .local _ .vmem, ⟨46, _⟩ => ⟨S2000x64, .f32⟩
  | .local _ .vmem, ⟨47, _⟩ => ⟨S2000x64, .f32⟩
  | _, _ => ⟨S300000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_c_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_4 : Ref sig .tc := ⟨.hbm, 27, rfl⟩
abbrev main_v18 : Ref sig .tc := ⟨.hbm, 28, rfl⟩
abbrev main_v19 : Ref sig .tc := ⟨.hbm, 29, rfl⟩
abbrev main_c_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_6 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_8 : Ref sig .tc := ⟨.hbm, 45, rfl⟩
abbrev main_v32 : Ref sig .tc := ⟨.hbm, 46, rfl⟩
abbrev main_v33 : Ref sig .tc := ⟨.hbm, 47, rfl⟩
abbrev main_c_9 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_10 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_c_11 : Ref sig .tc := ⟨.hbm, 60, rfl⟩
abbrev main_v44 : Ref sig .tc := ⟨.hbm, 61, rfl⟩
abbrev main_v45 : Ref sig .tc := ⟨.hbm, 62, rfl⟩
abbrev main_c_12 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_13 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_c_14 : Ref sig .tc := ⟨.hbm, 75, rfl⟩
abbrev main_v56 : Ref sig .tc := ⟨.hbm, 76, rfl⟩
abbrev main_v57 : Ref sig .tc := ⟨.hbm, 77, rfl⟩
abbrev main_c_15 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_16 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_c_17 : Ref sig .tc := ⟨.hbm, 90, rfl⟩
abbrev main_v68 : Ref sig .tc := ⟨.hbm, 91, rfl⟩
abbrev main_v69 : Ref sig .tc := ⟨.hbm, 92, rfl⟩
abbrev main_c_18 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_cst_19 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_cst_20 : Ref sig .tc := ⟨.hbm, 105, rfl⟩
abbrev main_v80 : Ref sig .tc := ⟨.hbm, 106, rfl⟩
abbrev main_v81 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg2_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg1_1 : Ref sig .tc := ⟨.vmem, 39, rfl⟩
abbrev cc6_stg2_0 : Ref sig .tc := ⟨.vmem, 40, rfl⟩
abbrev cc6_stg2_1 : Ref sig .tc := ⟨.vmem, 41, rfl⟩
abbrev cc7_stg0_0 : Ref sig .tc := ⟨.vmem, 42, rfl⟩
abbrev cc7_stg0_1 : Ref sig .tc := ⟨.vmem, 43, rfl⟩
abbrev cc7_stg1_0 : Ref sig .tc := ⟨.vmem, 44, rfl⟩
abbrev cc7_stg1_1 : Ref sig .tc := ⟨.vmem, 45, rfl⟩
abbrev cc7_stg2_0 : Ref sig .tc := ⟨.vmem, 46, rfl⟩
abbrev cc7_stg2_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem2_1 : DmaSem sig := 35
abbrev cc6_sem0_0 : DmaSem sig := 36
abbrev cc6_sem0_1 : DmaSem sig := 37
abbrev cc6_sem1_0 : DmaSem sig := 38
abbrev cc6_sem1_1 : DmaSem sig := 39
abbrev cc6_sem2_0 : DmaSem sig := 40
abbrev cc6_sem2_1 : DmaSem sig := 41
abbrev cc7_sem0_0 : DmaSem sig := 42
abbrev cc7_sem0_1 : DmaSem sig := 43
abbrev cc7_sem1_0 : DmaSem sig := 44
abbrev cc7_sem1_1 : DmaSem sig := 45
abbrev cc7_sem2_0 : DmaSem sig := 46
abbrev cc7_sem2_1 : DmaSem sig := 47

abbrev nD : Nat := 1
abbrev τ : Topo := Topo.v7x

variable {F : FTy → Type} [FloatOps F]

abbrev grid0 : Pipeline.Grid := ⟨1, ![281], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![150], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![281], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8192x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8192x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8192x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![150], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![281], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8192x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8192x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S8192x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![150], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![281], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S8192x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S8192x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S8192x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![150], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S2000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

class Facts₀ : Prop where
  bcast_S_S1000000 : S_.BroadcastsInDim S1000000 (![] : Fin 0 → Fin S1000000.rank)
  concatenates_S1000000_S1000000_S300000_S2300000_d0 : Shape.Concatenates [S1000000, S1000000, S300000] S2300000 0
  bcast_S_S2300000 : S_.BroadcastsInDim S2300000 (![] : Fin 0 → Fin S2300000.rank)
  bcast_S_S300000 : S_.BroadcastsInDim S300000 (![] : Fin 0 → Fin S300000.rank)
  bcast_S2300000_S2300000x1_0 : S2300000.BroadcastsInDim S2300000x1 (![0] : Fin 1 → Fin S2300000x1.rank)
  bcast_S_S1952 : S_.BroadcastsInDim S1952 (![] : Fin 0 → Fin S1952.rank)
  concatenates_S2300000_S1952_S2301952_d0 : Shape.Concatenates [S2300000, S1952] S2301952 0
  shapeCasts_S2301952_S2301952x1 : S2301952.ShapeCasts S2301952x1
  bcast_S_S2301952 : S_.BroadcastsInDim S2301952 (![] : Fin 0 → Fin S2301952.rank)
  bcast_S2301952_S2301952x1_0 : S2301952.BroadcastsInDim S2301952x1 (![0] : Fin 1 → Fin S2301952x1.rank)
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  broadcasts_S8192x1_S8192x64 : S8192x1.Broadcasts S8192x64
  bcast_S_S300000x64 : S_.BroadcastsInDim S300000x64 (![] : Fin 0 → Fin S300000x64.rank)
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  scatter_S300000_S2300000x1_S2300000_n_0_0_1_wf : ScatterDims.WF S300000 S2300000x1 S2300000 [] [0] [0] 1
  gather_S300000_S2300000x1_S2300000_n_0_n_n_0_1_1_wf : GatherDims.WF S300000 S2300000x1 S2300000 [] [0] [] [0] [] 1 ![1]
  gather_S300000x64_S2301952x1_S2301952x64_1_0_n_n_0_1_164_wf : GatherDims.WF S300000x64 S2301952x1 S2301952x64 [1] [0] [] [0] [] 1 ![1, 64]
  scatter_S300000x64_S2301952x1_S2301952x64_1_0_0_1_wf : ScatterDims.WF S300000x64 S2301952x1 S2301952x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S2301952x64.size a
  hwx0_0 : ∀ i : grid0.Coords, EltTy.bits .f32 = 32 ∨ (Rect.block (s := S2301952x64) S8192x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x1.size a ≤ S2301952x1.size a
  hwx0_1 : ∀ i : grid0.Coords, EltTy.bits .f32 = 32 ∨ (Rect.block (s := S2301952x1) S8192x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x64.size a ≤ S2301952x64.size a
  hwx0_2 : ∀ i : grid0.Coords, EltTy.bits .f32 = 32 ∨ (Rect.block (s := S2301952x64) S8192x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S300000x64.size a
  hwx1_0 : ∀ i : grid1.Coords, EltTy.bits .f32 = 32 ∨ (Rect.block (s := S300000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S300000x64.size a
  hwx1_1 : ∀ i : grid1.Coords, EltTy.bits .f32 = 32 ∨ (Rect.block (s := S300000x64) S2000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S300000x64.size a
  hwx1_2 : ∀ i : grid1.Coords, EltTy.bits .f32 = 32 ∨ (Rect.block (s := S300000x64) S2000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8192x64.size a ≤ S2301952x64.size a
  hwx2_0 : ∀ i : grid2.Coords, EltTy.bits .f32 = 32 ∨ (Rect.block (s := S2301952x64) S8192x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8192x1.size a ≤ S2301952x1.size a
  hwx2_1 : ∀ i : grid2.Coords, EltTy.bits .f32 = 32 ∨ (Rect.block (s := S2301952x1) S8192x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8192x64.size a ≤ S2301952x64.size a
  hwx2_2 : ∀ i : grid2.Coords, EltTy.bits .f32 = 32 ∨ (Rect.block (s := S2301952x64) S8192x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S300000x64.size a
  hwx3_0 : ∀ i : grid3.Coords, EltTy.bits .f32 = 32 ∨ (Rect.block (s := S300000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x64.size a ≤ S300000x64.size a
  hwx3_1 : ∀ i : grid3.Coords, EltTy.bits .f32 = 32 ∨ (Rect.block (s := S300000x64) S2000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S300000x64.size a
  hwx3_2 : ∀ i : grid3.Coords, EltTy.bits .f32 = 32 ∨ (Rect.block (s := S300000x64) S2000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8192x64.size a ≤ S2301952x64.size a
  hwx4_0 : ∀ i : grid4.Coords, EltTy.bits .f32 = 32 ∨ (Rect.block (s := S2301952x64) S8192x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8192x1.size a ≤ S2301952x1.size a
  hwx4_1 : ∀ i : grid4.Coords, EltTy.bits .f32 = 32 ∨ (Rect.block (s := S2301952x1) S8192x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8192x64.size a ≤ S2301952x64.size a
  hwx4_2 : ∀ i : grid4.Coords, EltTy.bits .f32 = 32 ∨ (Rect.block (s := S2301952x64) S8192x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x64.size a ≤ S300000x64.size a
  hwx5_0 : ∀ i : grid5.Coords, EltTy.bits .f32 = 32 ∨ (Rect.block (s := S300000x64) S2000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x64.size a ≤ S300000x64.size a
  hwx5_1 : ∀ i : grid5.Coords, EltTy.bits .f32 = 32 ∨ (Rect.block (s := S300000x64) S2000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x64.size a ≤ S300000x64.size a
  hwx5_2 : ∀ i : grid5.Coords, EltTy.bits .f32 = 32 ∨ (Rect.block (s := S300000x64) S2000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S8192x64.size a ≤ S2301952x64.size a
  hwx6_0 : ∀ i : grid6.Coords, EltTy.bits .f32 = 32 ∨ (Rect.block (s := S2301952x64) S8192x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S8192x1.size a ≤ S2301952x1.size a
  hwx6_1 : ∀ i : grid6.Coords, EltTy.bits .f32 = 32 ∨ (Rect.block (s := S2301952x1) S8192x1.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S8192x64.size a ≤ S2301952x64.size a
  hwx6_2 : ∀ i : grid6.Coords, EltTy.bits .f32 = 32 ∨ (Rect.block (s := S2301952x64) S8192x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x64.size a ≤ S300000x64.size a
  hwx7_0 : ∀ i : grid7.Coords, EltTy.bits .f32 = 32 ∨ (Rect.block (s := S300000x64) S2000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x64.size a ≤ S300000x64.size a
  hwx7_1 : ∀ i : grid7.Coords, EltTy.bits .f32 = 32 ∨ (Rect.block (s := S300000x64) S2000x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x64.size a ≤ S300000x64.size a
  hwx7_2 : ∀ i : grid7.Coords, EltTy.bits .f32 = 32 ∨ (Rect.block (s := S300000x64) S2000x64.size (cc7_transform_2 i) (hinb7_2 i)).WholeWords (EltTy.packing .f32)

variable [Facts₀]

def scatter_S300000_S2300000x1_S2300000_n_0_0_1 : ScatterDims S300000 S2300000x1 S2300000 where
  updateWindowDims := []
  insertedWindowDims := [0]
  scatterDimsToOperandDims := [0]
  indexVectorDim := 1
  wf := scatter_S300000_S2300000x1_S2300000_n_0_0_1_wf
def gather_S300000_S2300000x1_S2300000_n_0_n_n_0_1_1 : GatherDims S300000 S2300000x1 S2300000 where
  offsetDims := []
  collapsedSliceDims := [0]
  operandBatchingDims := []
  startIndicesBatchingDims := []
  startIndexMap := [0]
  indexVectorDim := 1
  sliceSizes := ![1]
  wf := gather_S300000_S2300000x1_S2300000_n_0_n_n_0_1_1_wf
def gather_S300000x64_S2301952x1_S2301952x64_1_0_n_n_0_1_164 : GatherDims S300000x64 S2301952x1 S2301952x64 where
  offsetDims := [1]
  collapsedSliceDims := [0]
  operandBatchingDims := []
  startIndicesBatchingDims := []
  startIndexMap := [0]
  indexVectorDim := 1
  sliceSizes := ![1, 64]
  wf := gather_S300000x64_S2301952x1_S2301952x64_1_0_n_n_0_1_164_wf
def scatter_S300000x64_S2301952x1_S2301952x64_1_0_0_1 : ScatterDims S300000x64 S2301952x1 S2301952x64 where
  updateWindowDims := [1]
  insertedWindowDims := [0]
  scatterDimsToOperandDims := [0]
  indexVectorDim := 1
  wf := scatter_S300000x64_S2301952x1_S2301952x64_1_0_0_1_wf

abbrev win0_0 : Pipeline.Window sig grid0 :=
  Pipeline.Window.ofSpec (Memref.whole main_v38) S8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S8192x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v39) S8192x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v43) S2000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v50) S8192x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S8192x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v51) S8192x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v54) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg0) S2000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v55) S2000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v62) S8192x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v31) S8192x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v63) S8192x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v66) S2000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg0) S2000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v67) S2000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v74) S8192x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v31) S8192x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v75) S8192x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v78) S2000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg0) S2000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v79) S2000x64.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

class Facts : Prop extends Facts₀ where

variable [Facts]
-- ==== ReferenceIdeal.lean ====
abbrev S300000x64 : Shape := ⟨2, ![300000, 64]⟩
abbrev S1000000 : Shape := ⟨1, ![1000000]⟩
abbrev S_ : Shape := ⟨0, ![]⟩
abbrev S300000 : Shape := ⟨1, ![300000]⟩
abbrev S2300000 : Shape := ⟨1, ![2300000]⟩
abbrev S2300000x1 : Shape := ⟨2, ![2300000, 1]⟩
abbrev S2300000x64 : Shape := ⟨2, ![2300000, 64]⟩

abbrev nBuf : Space → Nat
  | .hbm => 132
  | .vmem => 0
  | .smem => 0
  | _ => 0

abbrev hbmTy0_0 (i : Nat) : BufTy := match i % 128 with
  | 0 => ⟨S300000x64, .f32⟩
  | 1 => ⟨S1000000, .i32⟩
  | 2 => ⟨S1000000, .i32⟩
  | 3 => ⟨S_, .i32⟩
  | 4 => ⟨S1000000, .i32⟩
  | 5 => ⟨S1000000, .i32⟩
  | 6 => ⟨S300000, .i32⟩
  | 7 => ⟨S2300000, .i32⟩
  | 8 => ⟨S2300000, .i32⟩
  | 9 => ⟨S_, .f32⟩
  | 10 => ⟨S2300000, .f32⟩
  | 11 => ⟨S_, .f32⟩
  | 12 => ⟨S300000, .f32⟩
  | 13 => ⟨S2300000x1, .i32⟩
  | 14 => ⟨S300000, .f32⟩
  | 15 => ⟨S_, .f32⟩
  | 16 => ⟨S300000, .f32⟩
  | 17 => ⟨S300000, .f32⟩
  | 18 => ⟨S_, .i32⟩
  | 19 => ⟨S2300000, .i32⟩
  | 20 => ⟨S2300000, .i1⟩
  | 21 => ⟨S_, .i32⟩
  | 22 => ⟨S2300000, .i32⟩
  | 23 => ⟨S2300000, .i32⟩
  | 24 => ⟨S2300000, .i32⟩
  | 25 => ⟨S2300000x1, .i32⟩
  | 26 => ⟨S2300000, .f32⟩
  | 27 => ⟨S_, .i32⟩
  | 28 => ⟨S2300000, .i32⟩
  | 29 => ⟨S2300000, .i1⟩
  | 30 => ⟨S_, .i32⟩
  | 31 => ⟨S2300000, .i32⟩
  | 32 => ⟨S2300000, .i32⟩
  | 33 => ⟨S2300000, .i32⟩
  | 34 => ⟨S2300000x1, .i32⟩
  | 35 => ⟨S2300000, .f32⟩
  | 36 => ⟨S2300000, .f32⟩
  | 37 => ⟨S_, .i32⟩
  | 38 => ⟨S2300000, .i32⟩
  | 39 => ⟨S2300000, .i1⟩
  | 40 => ⟨S_, .i32⟩
  | 41 => ⟨S2300000, .i32⟩
  | 42 => ⟨S2300000, .i32⟩
  | 43 => ⟨S2300000, .i32⟩
  | 44 => ⟨S2300000x1, .i32⟩
  | 45 => ⟨S2300000x64, .f32⟩
  | 46 => ⟨S2300000x1, .f32⟩
  | 47 => ⟨S2300000x64, .f32⟩
  | 48 => ⟨S2300000x64, .f32⟩
  | 49 => ⟨S_, .f32⟩
  | 50 => ⟨S300000x64, .f32⟩
  | 51 => ⟨S2300000x1, .i32⟩
  | 52 => ⟨S300000x64, .f32⟩
  | 53 => ⟨S_, .f32⟩
  | 54 => ⟨S300000x64, .f32⟩
  | 55 => ⟨S300000x64, .f32⟩
  | 56 => ⟨S_, .f32⟩
  | 57 => ⟨S300000x64, .f32⟩
  | 58 => ⟨S300000x64, .f32⟩
  | 59 => ⟨S300000x64, .f32⟩
  | 60 => ⟨S_, .i32⟩
  | 61 => ⟨S2300000, .i32⟩
  | 62 => ⟨S2300000, .i1⟩
  | 63 => ⟨S_, .i32⟩
  | 64 => ⟨S2300000, .i32⟩
  | 65 => ⟨S2300000, .i32⟩
  | 66 => ⟨S2300000, .i32⟩
  | 67 => ⟨S2300000x1, .i32⟩
  | 68 => ⟨S2300000x64, .f32⟩
  | 69 => ⟨S2300000x1, .f32⟩
  | 70 => ⟨S2300000x64, .f32⟩
  | 71 => ⟨S2300000x64, .f32⟩
  | 72 => ⟨S_, .f32⟩
  | 73 => ⟨S300000x64, .f32⟩
  | 74 => ⟨S2300000x1, .i32⟩
  | 75 => ⟨S300000x64, .f32⟩
  | 76 => ⟨S_, .f32⟩
  | 77 => ⟨S300000x64, .f32⟩
  | 78 => ⟨S300000x64, .f32⟩
  | 79 => ⟨S_, .f32⟩
  | 80 => ⟨S300000x64, .f32⟩
  | 81 => ⟨S300000x64, .f32⟩
  | 82 => ⟨S300000x64, .f32⟩
  | 83 => ⟨S_, .i32⟩
  | 84 => ⟨S2300000, .i32⟩
  | 85 => ⟨S2300000, .i1⟩
  | 86 => ⟨S_, .i32⟩
  | 87 => ⟨S2300000, .i32⟩
  | 88 => ⟨S2300000, .i32⟩
  | 89 => ⟨S2300000, .i32⟩
  | 90 => ⟨S2300000x1, .i32⟩
  | 91 => ⟨S2300000x64, .f32⟩
  | 92 => ⟨S2300000x1, .f32⟩
  | 93 => ⟨S2300000x64, .f32⟩
  | 94 => ⟨S2300000x64, .f32⟩
  | 95 => ⟨S_, .f32⟩
  | 96 => ⟨S300000x64, .f32⟩
  | 97 => ⟨S2300000x1, .i32⟩
  | 98 => ⟨S300000x64, .f32⟩
  | 99 => ⟨S_, .f32⟩
  | 100 => ⟨S300000x64, .f32⟩
  | 101 => ⟨S300000x64, .f32⟩
  | 102 => ⟨S_, .f32⟩
  | 103 => ⟨S300000x64, .f32⟩
  | 104 => ⟨S300000x64, .f32⟩
  | 105 => ⟨S300000x64, .f32⟩
  | 106 => ⟨S_, .i32⟩
  | 107 => ⟨S2300000, .i32⟩
  | 108 => ⟨S2300000, .i1⟩
  | 109 => ⟨S_, .i32⟩
  | 110 => ⟨S2300000, .i32⟩
  | 111 => ⟨S2300000, .i32⟩
  | 112 => ⟨S2300000, .i32⟩
  | 113 => ⟨S2300000x1, .i32⟩
  | 114 => ⟨S2300000x64, .f32⟩
  | 115 => ⟨S2300000x1, .f32⟩
  | 116 => ⟨S2300000x64, .f32⟩
  | 117 => ⟨S2300000x64, .f32⟩
  | 118 => ⟨S_, .f32⟩
  | 119 => ⟨S300000x64, .f32⟩
  | 120 => ⟨S2300000x1, .i32⟩
  | 121 => ⟨S300000x64, .f32⟩
  | 122 => ⟨S_, .f32⟩
  | 123 => ⟨S300000x64, .f32⟩
  | 124 => ⟨S300000x64, .f32⟩
  | 125 => ⟨S_, .f32⟩
  | 126 => ⟨S300000x64, .f32⟩
  | 127 => ⟨S300000x64, .f32⟩
  | _ => ⟨S300000x64, .f32⟩

abbrev hbmTy0_1 (i : Nat) : BufTy := match i % 128 with
  | 0 => ⟨S300000x64, .f32⟩
  | 1 => ⟨S_, .f32⟩
  | 2 => ⟨S300000x64, .f32⟩
  | 3 => ⟨S300000x64, .f32⟩
  | _ => ⟨S300000x64, .f32⟩

abbrev hbmTy (i : Nat) : BufTy := match i / 128 with
  | 0 => hbmTy0_0 i
  | 1 => hbmTy0_1 i
  | _ => ⟨S300000x64, .f32⟩

abbrev bufTy : (tb : Table) → Fin (tcTables nBuf tb) → BufTy
  | .hbm, ⟨i, _⟩ => hbmTy i
  | _, _ => ⟨S300000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_c_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_4 : Ref sig .tc := ⟨.hbm, 27, rfl⟩
abbrev main_v18 : Ref sig .tc := ⟨.hbm, 28, rfl⟩
abbrev main_v19 : Ref sig .tc := ⟨.hbm, 29, rfl⟩
abbrev main_c_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_6 : Ref sig .tc := ⟨.hbm, 37, rfl⟩
abbrev main_v26 : Ref sig .tc := ⟨.hbm, 38, rfl⟩
abbrev main_v27 : Ref sig .tc := ⟨.hbm, 39, rfl⟩
abbrev main_c_7 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_8 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_9 : Ref sig .tc := ⟨.hbm, 53, rfl⟩
abbrev main_v39 : Ref sig .tc := ⟨.hbm, 54, rfl⟩
abbrev main_v40 : Ref sig .tc := ⟨.hbm, 55, rfl⟩
abbrev main_cst_10 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_c_11 : Ref sig .tc := ⟨.hbm, 60, rfl⟩
abbrev main_v44 : Ref sig .tc := ⟨.hbm, 61, rfl⟩
abbrev main_v45 : Ref sig .tc := ⟨.hbm, 62, rfl⟩
abbrev main_c_12 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_13 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_14 : Ref sig .tc := ⟨.hbm, 76, rfl⟩
abbrev main_v57 : Ref sig .tc := ⟨.hbm, 77, rfl⟩
abbrev main_v58 : Ref sig .tc := ⟨.hbm, 78, rfl⟩
abbrev main_cst_15 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_c_16 : Ref sig .tc := ⟨.hbm, 83, rfl⟩
abbrev main_v62 : Ref sig .tc := ⟨.hbm, 84, rfl⟩
abbrev main_v63 : Ref sig .tc := ⟨.hbm, 85, rfl⟩
abbrev main_c_17 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_18 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_19 : Ref sig .tc := ⟨.hbm, 99, rfl⟩
abbrev main_v75 : Ref sig .tc := ⟨.hbm, 100, rfl⟩
abbrev main_v76 : Ref sig .tc := ⟨.hbm, 101, rfl⟩
abbrev main_cst_20 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_c_21 : Ref sig .tc := ⟨.hbm, 106, rfl⟩
abbrev main_v80 : Ref sig .tc := ⟨.hbm, 107, rfl⟩
abbrev main_v81 : Ref sig .tc := ⟨.hbm, 108, rfl⟩
abbrev main_c_22 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_cst_23 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_cst_24 : Ref sig .tc := ⟨.hbm, 122, rfl⟩
abbrev main_v93 : Ref sig .tc := ⟨.hbm, 123, rfl⟩
abbrev main_v94 : Ref sig .tc := ⟨.hbm, 124, rfl⟩
abbrev main_cst_25 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_cst_26 : Ref sig .tc := ⟨.hbm, 129, rfl⟩
abbrev main_v98 : Ref sig .tc := ⟨.hbm, 130, rfl⟩
abbrev main_v99 : Ref sig .tc := ⟨.hbm, 131, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  concatenates_S1000000_S1000000_S300000_S2300000_d0 : Shape.Concatenates [S1000000, S1000000, S300000] S2300000 0
  bcast_S_S2300000 : S_.BroadcastsInDim S2300000 (![] : Fin 0 → Fin S2300000.rank)
  bcast_S_S300000 : S_.BroadcastsInDim S300000 (![] : Fin 0 → Fin S300000.rank)
  bcast_S2300000_S2300000x1_0 : S2300000.BroadcastsInDim S2300000x1 (![0] : Fin 1 → Fin S2300000x1.rank)
  bcast_S2300000x1_S2300000x64_0_1 : S2300000x1.BroadcastsInDim S2300000x64 (![0, 1] : Fin 2 → Fin S2300000x64.rank)
  bcast_S_S300000x64 : S_.BroadcastsInDim S300000x64 (![] : Fin 0 → Fin S300000x64.rank)
  scatter_S300000_S2300000x1_S2300000_n_0_0_1_wf : ScatterDims.WF S300000 S2300000x1 S2300000 [] [0] [0] 1
  gather_S300000_S2300000x1_S2300000_n_0_n_n_0_1_1_wf : GatherDims.WF S300000 S2300000x1 S2300000 [] [0] [] [0] [] 1 ![1]
  gather_S300000x64_S2300000x1_S2300000x64_1_0_n_n_0_1_164_wf : GatherDims.WF S300000x64 S2300000x1 S2300000x64 [1] [0] [] [0] [] 1 ![1, 64]
  scatter_S300000x64_S2300000x1_S2300000x64_1_0_0_1_wf : ScatterDims.WF S300000x64 S2300000x1 S2300000x64 [1] [0] [0] 1

variable [Facts₀]

def scatter_S300000_S2300000x1_S2300000_n_0_0_1 : ScatterDims S300000 S2300000x1 S2300000 where
  updateWindowDims := []
  insertedWindowDims := [0]
  scatterDimsToOperandDims := [0]
  indexVectorDim := 1
  wf := scatter_S300000_S2300000x1_S2300000_n_0_0_1_wf
def gather_S300000_S2300000x1_S2300000_n_0_n_n_0_1_1 : GatherDims S300000 S2300000x1 S2300000 where
  offsetDims := []
  collapsedSliceDims := [0]
  operandBatchingDims := []
  startIndicesBatchingDims := []
  startIndexMap := [0]
  indexVectorDim := 1
  sliceSizes := ![1]
  wf := gather_S300000_S2300000x1_S2300000_n_0_n_n_0_1_1_wf
def gather_S300000x64_S2300000x1_S2300000x64_1_0_n_n_0_1_164 : GatherDims S300000x64 S2300000x1 S2300000x64 where
  offsetDims := [1]
  collapsedSliceDims := [0]
  operandBatchingDims := []
  startIndicesBatchingDims := []
  startIndexMap := [0]
  indexVectorDim := 1
  sliceSizes := ![1, 64]
  wf := gather_S300000x64_S2300000x1_S2300000x64_1_0_n_n_0_1_164_wf
def scatter_S300000x64_S2300000x1_S2300000x64_1_0_0_1 : ScatterDims S300000x64 S2300000x1 S2300000x64 where
  updateWindowDims := [1]
  insertedWindowDims := [0]
  scatterDimsToOperandDims := [0]
  indexVectorDim := 1
  wf := scatter_S300000x64_S2300000x1_S2300000x64_1_0_0_1_wf

class Facts : Prop extends Facts₀ where

variable [Facts]
-- ==== Proof.KernelRunPost.lean ====
/-
  The kernel's program runs to the end and leaves its result array at the last boundary's contents.

  The program is eight regions among nine host stretches. The frame module runs it segment by segment and knows, at the
  end, every unscoped buffer's contents: the fold W17 of the stretches' operations and the regions' write-backs from the
  launch memory. Its frame theorem keeps of that only the three arguments; this one keeps the result buffer main_v81 too.
-/
import proofs.«105508_j38800734552802_2_alg».proof.Proof.FrameKernelIdeal

set_option maxRecDepth 16384

noncomputable section

namespace Cert.KernelIdeal.GenP

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting; the result buffer ends at the last boundary's
    contents and the three argument arrays as launched. -/
theorem run_result : θ_run defs (onTc (τ := τ) (main (F := F))) ⟨m, fun _ => 0, ρ⟩ (fun r => ∀ c : Dev nD,
      r.2.mem ((c.tc : Thread nD τ).loc main_v81) = W17 m ρ c (Proc.devRef .tc main_v81)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c =>
      ⟨h c _ (mem_uc main_v81 (by decide)),
       (h c _ (mem_uc main_arg0 (by decide))).trans (W17_main_arg0 m ρ c),
       (h c _ (mem_uc main_arg1 (by decide))).trans (W17_main_arg1 m ρ c),
       (h c _ (mem_uc main_arg2 (by decide))).trans (W17_main_arg2 m ρ c)⟩)

end Cert.KernelIdeal.GenP

end
-- ==== Proof.KernelKeep.lean ====
/-
  Which buffers each stretch of the kernel's program leaves alone.

  Between its eight regions the program runs short host stretches. The padded index vectors (main_v28, main_v29), the
  padded weight column (main_v31) and the features argument (main_arg0) are written once, before region 0, or never:
  every later host stretch writes other buffers, and a region changes only its output array (an input window's array
  is read, never written back). So each of the four reads at every boundary what it held at region 0's entry (the lemmas at_<buffer>_<boundary>).
-/
import proofs.«105508_j38800734552802_2_alg».proof.Proof.FrameKernelIdeal
import proofs.«105508_j38800734552802_2_alg».proof.Proof.Gen.KernelIdeal.Regions

noncomputable section

namespace Cert.KernelIdeal.RunV

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

theorem at_v28_1 (c : Dev nD) : GenP.W1 m ρ c (Proc.devRef .tc main_v28) = GenP.W1 m ρ c (Proc.devRef .tc main_v28) := rfl
theorem at_v28_2 (c : Dev nD) : GenP.W2 m ρ c (Proc.devRef .tc main_v28) = GenP.W1 m ρ c (Proc.devRef .tc main_v28) :=
  ((GenP.W2_of_ne m ρ c main_v28 (by decide) : GenP.W2 m ρ c (Proc.devRef .tc main_v28) = GenP.W1 m ρ c (Proc.devRef .tc main_v28))).trans (at_v28_1 m ρ c)
theorem at_v28_3 (c : Dev nD) : GenP.W3 m ρ c (Proc.devRef .tc main_v28) = GenP.W1 m ρ c (Proc.devRef .tc main_v28) :=
  ((StableHlo.after_of_writes_sub hostOps1 _ hostOps1_writes (by decide : main_v28 ∉ hostOps1_W) : GenP.W3 m ρ c (Proc.devRef .tc main_v28) = GenP.W2 m ρ c (Proc.devRef .tc main_v28))).trans (at_v28_2 m ρ c)
theorem at_v28_4 (c : Dev nD) : GenP.W4 m ρ c (Proc.devRef .tc main_v28) = GenP.W1 m ρ c (Proc.devRef .tc main_v28) :=
  ((GenP.W4_of_ne m ρ c main_v28 (by decide) : GenP.W4 m ρ c (Proc.devRef .tc main_v28) = GenP.W3 m ρ c (Proc.devRef .tc main_v28))).trans (at_v28_3 m ρ c)
theorem at_v28_5 (c : Dev nD) : GenP.W5 m ρ c (Proc.devRef .tc main_v28) = GenP.W1 m ρ c (Proc.devRef .tc main_v28) :=
  ((StableHlo.after_of_writes_sub hostOps2 _ hostOps2_writes (by decide : main_v28 ∉ hostOps2_W) : GenP.W5 m ρ c (Proc.devRef .tc main_v28) = GenP.W4 m ρ c (Proc.devRef .tc main_v28))).trans (at_v28_4 m ρ c)
theorem at_v28_6 (c : Dev nD) : GenP.W6 m ρ c (Proc.devRef .tc main_v28) = GenP.W1 m ρ c (Proc.devRef .tc main_v28) :=
  ((GenP.W6_of_ne m ρ c main_v28 (by decide) : GenP.W6 m ρ c (Proc.devRef .tc main_v28) = GenP.W5 m ρ c (Proc.devRef .tc main_v28))).trans (at_v28_5 m ρ c)
theorem at_v28_7 (c : Dev nD) : GenP.W7 m ρ c (Proc.devRef .tc main_v28) = GenP.W1 m ρ c (Proc.devRef .tc main_v28) :=
  ((StableHlo.after_of_writes_sub hostOps3 _ hostOps3_writes (by decide : main_v28 ∉ hostOps3_W) : GenP.W7 m ρ c (Proc.devRef .tc main_v28) = GenP.W6 m ρ c (Proc.devRef .tc main_v28))).trans (at_v28_6 m ρ c)
theorem at_v28_8 (c : Dev nD) : GenP.W8 m ρ c (Proc.devRef .tc main_v28) = GenP.W1 m ρ c (Proc.devRef .tc main_v28) :=
  ((GenP.W8_of_ne m ρ c main_v28 (by decide) : GenP.W8 m ρ c (Proc.devRef .tc main_v28) = GenP.W7 m ρ c (Proc.devRef .tc main_v28))).trans (at_v28_7 m ρ c)
theorem at_v28_9 (c : Dev nD) : GenP.W9 m ρ c (Proc.devRef .tc main_v28) = GenP.W1 m ρ c (Proc.devRef .tc main_v28) :=
  ((StableHlo.after_of_writes_sub hostOps4 _ hostOps4_writes (by decide : main_v28 ∉ hostOps4_W) : GenP.W9 m ρ c (Proc.devRef .tc main_v28) = GenP.W8 m ρ c (Proc.devRef .tc main_v28))).trans (at_v28_8 m ρ c)
theorem at_v28_10 (c : Dev nD) : GenP.W10 m ρ c (Proc.devRef .tc main_v28) = GenP.W1 m ρ c (Proc.devRef .tc main_v28) :=
  ((GenP.W10_of_ne m ρ c main_v28 (by decide) : GenP.W10 m ρ c (Proc.devRef .tc main_v28) = GenP.W9 m ρ c (Proc.devRef .tc main_v28))).trans (at_v28_9 m ρ c)
theorem at_v28_11 (c : Dev nD) : GenP.W11 m ρ c (Proc.devRef .tc main_v28) = GenP.W1 m ρ c (Proc.devRef .tc main_v28) :=
  ((StableHlo.after_of_writes_sub hostOps5 _ hostOps5_writes (by decide : main_v28 ∉ hostOps5_W) : GenP.W11 m ρ c (Proc.devRef .tc main_v28) = GenP.W10 m ρ c (Proc.devRef .tc main_v28))).trans (at_v28_10 m ρ c)
theorem at_v28_12 (c : Dev nD) : GenP.W12 m ρ c (Proc.devRef .tc main_v28) = GenP.W1 m ρ c (Proc.devRef .tc main_v28) :=
  ((GenP.W12_of_ne m ρ c main_v28 (by decide) : GenP.W12 m ρ c (Proc.devRef .tc main_v28) = GenP.W11 m ρ c (Proc.devRef .tc main_v28))).trans (at_v28_11 m ρ c)
theorem at_v28_13 (c : Dev nD) : GenP.W13 m ρ c (Proc.devRef .tc main_v28) = GenP.W1 m ρ c (Proc.devRef .tc main_v28) :=
  ((StableHlo.after_of_writes_sub hostOps6 _ hostOps6_writes (by decide : main_v28 ∉ hostOps6_W) : GenP.W13 m ρ c (Proc.devRef .tc main_v28) = GenP.W12 m ρ c (Proc.devRef .tc main_v28))).trans (at_v28_12 m ρ c)
theorem at_v28_14 (c : Dev nD) : GenP.W14 m ρ c (Proc.devRef .tc main_v28) = GenP.W1 m ρ c (Proc.devRef .tc main_v28) :=
  ((GenP.W14_of_ne m ρ c main_v28 (by decide) : GenP.W14 m ρ c (Proc.devRef .tc main_v28) = GenP.W13 m ρ c (Proc.devRef .tc main_v28))).trans (at_v28_13 m ρ c)
theorem at_v28_15 (c : Dev nD) : GenP.W15 m ρ c (Proc.devRef .tc main_v28) = GenP.W1 m ρ c (Proc.devRef .tc main_v28) :=
  ((StableHlo.after_of_writes_sub hostOps7 _ hostOps7_writes (by decide : main_v28 ∉ hostOps7_W) : GenP.W15 m ρ c (Proc.devRef .tc main_v28) = GenP.W14 m ρ c (Proc.devRef .tc main_v28))).trans (at_v28_14 m ρ c)

theorem at_v29_1 (c : Dev nD) : GenP.W1 m ρ c (Proc.devRef .tc main_v29) = GenP.W1 m ρ c (Proc.devRef .tc main_v29) := rfl
theorem at_v29_2 (c : Dev nD) : GenP.W2 m ρ c (Proc.devRef .tc main_v29) = GenP.W1 m ρ c (Proc.devRef .tc main_v29) :=
  ((GenP.W2_of_ne m ρ c main_v29 (by decide) : GenP.W2 m ρ c (Proc.devRef .tc main_v29) = GenP.W1 m ρ c (Proc.devRef .tc main_v29))).trans (at_v29_1 m ρ c)
theorem at_v29_3 (c : Dev nD) : GenP.W3 m ρ c (Proc.devRef .tc main_v29) = GenP.W1 m ρ c (Proc.devRef .tc main_v29) :=
  ((StableHlo.after_of_writes_sub hostOps1 _ hostOps1_writes (by decide : main_v29 ∉ hostOps1_W) : GenP.W3 m ρ c (Proc.devRef .tc main_v29) = GenP.W2 m ρ c (Proc.devRef .tc main_v29))).trans (at_v29_2 m ρ c)
theorem at_v29_4 (c : Dev nD) : GenP.W4 m ρ c (Proc.devRef .tc main_v29) = GenP.W1 m ρ c (Proc.devRef .tc main_v29) :=
  ((GenP.W4_of_ne m ρ c main_v29 (by decide) : GenP.W4 m ρ c (Proc.devRef .tc main_v29) = GenP.W3 m ρ c (Proc.devRef .tc main_v29))).trans (at_v29_3 m ρ c)
theorem at_v29_5 (c : Dev nD) : GenP.W5 m ρ c (Proc.devRef .tc main_v29) = GenP.W1 m ρ c (Proc.devRef .tc main_v29) :=
  ((StableHlo.after_of_writes_sub hostOps2 _ hostOps2_writes (by decide : main_v29 ∉ hostOps2_W) : GenP.W5 m ρ c (Proc.devRef .tc main_v29) = GenP.W4 m ρ c (Proc.devRef .tc main_v29))).trans (at_v29_4 m ρ c)
theorem at_v29_6 (c : Dev nD) : GenP.W6 m ρ c (Proc.devRef .tc main_v29) = GenP.W1 m ρ c (Proc.devRef .tc main_v29) :=
  ((GenP.W6_of_ne m ρ c main_v29 (by decide) : GenP.W6 m ρ c (Proc.devRef .tc main_v29) = GenP.W5 m ρ c (Proc.devRef .tc main_v29))).trans (at_v29_5 m ρ c)
theorem at_v29_7 (c : Dev nD) : GenP.W7 m ρ c (Proc.devRef .tc main_v29) = GenP.W1 m ρ c (Proc.devRef .tc main_v29) :=
  ((StableHlo.after_of_writes_sub hostOps3 _ hostOps3_writes (by decide : main_v29 ∉ hostOps3_W) : GenP.W7 m ρ c (Proc.devRef .tc main_v29) = GenP.W6 m ρ c (Proc.devRef .tc main_v29))).trans (at_v29_6 m ρ c)
theorem at_v29_8 (c : Dev nD) : GenP.W8 m ρ c (Proc.devRef .tc main_v29) = GenP.W1 m ρ c (Proc.devRef .tc main_v29) :=
  ((GenP.W8_of_ne m ρ c main_v29 (by decide) : GenP.W8 m ρ c (Proc.devRef .tc main_v29) = GenP.W7 m ρ c (Proc.devRef .tc main_v29))).trans (at_v29_7 m ρ c)
theorem at_v29_9 (c : Dev nD) : GenP.W9 m ρ c (Proc.devRef .tc main_v29) = GenP.W1 m ρ c (Proc.devRef .tc main_v29) :=
  ((StableHlo.after_of_writes_sub hostOps4 _ hostOps4_writes (by decide : main_v29 ∉ hostOps4_W) : GenP.W9 m ρ c (Proc.devRef .tc main_v29) = GenP.W8 m ρ c (Proc.devRef .tc main_v29))).trans (at_v29_8 m ρ c)
theorem at_v29_10 (c : Dev nD) : GenP.W10 m ρ c (Proc.devRef .tc main_v29) = GenP.W1 m ρ c (Proc.devRef .tc main_v29) :=
  ((GenP.W10_of_ne m ρ c main_v29 (by decide) : GenP.W10 m ρ c (Proc.devRef .tc main_v29) = GenP.W9 m ρ c (Proc.devRef .tc main_v29))).trans (at_v29_9 m ρ c)
theorem at_v29_11 (c : Dev nD) : GenP.W11 m ρ c (Proc.devRef .tc main_v29) = GenP.W1 m ρ c (Proc.devRef .tc main_v29) :=
  ((StableHlo.after_of_writes_sub hostOps5 _ hostOps5_writes (by decide : main_v29 ∉ hostOps5_W) : GenP.W11 m ρ c (Proc.devRef .tc main_v29) = GenP.W10 m ρ c (Proc.devRef .tc main_v29))).trans (at_v29_10 m ρ c)
theorem at_v29_12 (c : Dev nD) : GenP.W12 m ρ c (Proc.devRef .tc main_v29) = GenP.W1 m ρ c (Proc.devRef .tc main_v29) :=
  ((GenP.W12_of_ne m ρ c main_v29 (by decide) : GenP.W12 m ρ c (Proc.devRef .tc main_v29) = GenP.W11 m ρ c (Proc.devRef .tc main_v29))).trans (at_v29_11 m ρ c)
theorem at_v29_13 (c : Dev nD) : GenP.W13 m ρ c (Proc.devRef .tc main_v29) = GenP.W1 m ρ c (Proc.devRef .tc main_v29) :=
  ((StableHlo.after_of_writes_sub hostOps6 _ hostOps6_writes (by decide : main_v29 ∉ hostOps6_W) : GenP.W13 m ρ c (Proc.devRef .tc main_v29) = GenP.W12 m ρ c (Proc.devRef .tc main_v29))).trans (at_v29_12 m ρ c)
theorem at_v29_14 (c : Dev nD) : GenP.W14 m ρ c (Proc.devRef .tc main_v29) = GenP.W1 m ρ c (Proc.devRef .tc main_v29) :=
  ((GenP.W14_of_ne m ρ c main_v29 (by decide) : GenP.W14 m ρ c (Proc.devRef .tc main_v29) = GenP.W13 m ρ c (Proc.devRef .tc main_v29))).trans (at_v29_13 m ρ c)
theorem at_v29_15 (c : Dev nD) : GenP.W15 m ρ c (Proc.devRef .tc main_v29) = GenP.W1 m ρ c (Proc.devRef .tc main_v29) :=
  ((StableHlo.after_of_writes_sub hostOps7 _ hostOps7_writes (by decide : main_v29 ∉ hostOps7_W) : GenP.W15 m ρ c (Proc.devRef .tc main_v29) = GenP.W14 m ρ c (Proc.devRef .tc main_v29))).trans (at_v29_14 m ρ c)

theorem at_v31_1 (c : Dev nD) : GenP.W1 m ρ c (Proc.devRef .tc main_v31) = GenP.W1 m ρ c (Proc.devRef .tc main_v31) := rfl
theorem at_v31_2 (c : Dev nD) : GenP.W2 m ρ c (Proc.devRef .tc main_v31) = GenP.W1 m ρ c (Proc.devRef .tc main_v31) :=
  (((GenP.W2_arr m ρ c 1).trans (((GenP.dat0 (GenP.V1 m ρ) c).arrAt_in 1 rfl _).trans (GenP.A_eq0 (GenP.V1 m ρ) c 1)) : GenP.W2 m ρ c (Proc.devRef .tc main_v31) = GenP.W1 m ρ c (Proc.devRef .tc main_v31))).trans (at_v31_1 m ρ c)
theorem at_v31_3 (c : Dev nD) : GenP.W3 m ρ c (Proc.devRef .tc main_v31) = GenP.W1 m ρ c (Proc.devRef .tc main_v31) :=
  ((StableHlo.after_of_writes_sub hostOps1 _ hostOps1_writes (by decide : main_v31 ∉ hostOps1_W) : GenP.W3 m ρ c (Proc.devRef .tc main_v31) = GenP.W2 m ρ c (Proc.devRef .tc main_v31))).trans (at_v31_2 m ρ c)
theorem at_v31_4 (c : Dev nD) : GenP.W4 m ρ c (Proc.devRef .tc main_v31) = GenP.W1 m ρ c (Proc.devRef .tc main_v31) :=
  ((GenP.W4_of_ne m ρ c main_v31 (by decide) : GenP.W4 m ρ c (Proc.devRef .tc main_v31) = GenP.W3 m ρ c (Proc.devRef .tc main_v31))).trans (at_v31_3 m ρ c)
theorem at_v31_5 (c : Dev nD) : GenP.W5 m ρ c (Proc.devRef .tc main_v31) = GenP.W1 m ρ c (Proc.devRef .tc main_v31) :=
  ((StableHlo.after_of_writes_sub hostOps2 _ hostOps2_writes (by decide : main_v31 ∉ hostOps2_W) : GenP.W5 m ρ c (Proc.devRef .tc main_v31) = GenP.W4 m ρ c (Proc.devRef .tc main_v31))).trans (at_v31_4 m ρ c)
theorem at_v31_6 (c : Dev nD) : GenP.W6 m ρ c (Proc.devRef .tc main_v31) = GenP.W1 m ρ c (Proc.devRef .tc main_v31) :=
  (((GenP.W6_arr m ρ c 1).trans (((GenP.dat2 (GenP.V5 m ρ) c).arrAt_in 1 rfl _).trans (GenP.A_eq2 (GenP.V5 m ρ) c 1)) : GenP.W6 m ρ c (Proc.devRef .tc main_v31) = GenP.W5 m ρ c (Proc.devRef .tc main_v31))).trans (at_v31_5 m ρ c)
theorem at_v31_7 (c : Dev nD) : GenP.W7 m ρ c (Proc.devRef .tc main_v31) = GenP.W1 m ρ c (Proc.devRef .tc main_v31) :=
  ((StableHlo.after_of_writes_sub hostOps3 _ hostOps3_writes (by decide : main_v31 ∉ hostOps3_W) : GenP.W7 m ρ c (Proc.devRef .tc main_v31) = GenP.W6 m ρ c (Proc.devRef .tc main_v31))).trans (at_v31_6 m ρ c)
theorem at_v31_8 (c : Dev nD) : GenP.W8 m ρ c (Proc.devRef .tc main_v31) = GenP.W1 m ρ c (Proc.devRef .tc main_v31) :=
  ((GenP.W8_of_ne m ρ c main_v31 (by decide) : GenP.W8 m ρ c (Proc.devRef .tc main_v31) = GenP.W7 m ρ c (Proc.devRef .tc main_v31))).trans (at_v31_7 m ρ c)
theorem at_v31_9 (c : Dev nD) : GenP.W9 m ρ c (Proc.devRef .tc main_v31) = GenP.W1 m ρ c (Proc.devRef .tc main_v31) :=
  ((StableHlo.after_of_writes_sub hostOps4 _ hostOps4_writes (by decide : main_v31 ∉ hostOps4_W) : GenP.W9 m ρ c (Proc.devRef .tc main_v31) = GenP.W8 m ρ c (Proc.devRef .tc main_v31))).trans (at_v31_8 m ρ c)
theorem at_v31_10 (c : Dev nD) : GenP.W10 m ρ c (Proc.devRef .tc main_v31) = GenP.W1 m ρ c (Proc.devRef .tc main_v31) :=
  (((GenP.W10_arr m ρ c 1).trans (((GenP.dat4 (GenP.V9 m ρ) c).arrAt_in 1 rfl _).trans (GenP.A_eq4 (GenP.V9 m ρ) c 1)) : GenP.W10 m ρ c (Proc.devRef .tc main_v31) = GenP.W9 m ρ c (Proc.devRef .tc main_v31))).trans (at_v31_9 m ρ c)
theorem at_v31_11 (c : Dev nD) : GenP.W11 m ρ c (Proc.devRef .tc main_v31) = GenP.W1 m ρ c (Proc.devRef .tc main_v31) :=
  ((StableHlo.after_of_writes_sub hostOps5 _ hostOps5_writes (by decide : main_v31 ∉ hostOps5_W) : GenP.W11 m ρ c (Proc.devRef .tc main_v31) = GenP.W10 m ρ c (Proc.devRef .tc main_v31))).trans (at_v31_10 m ρ c)
theorem at_v31_12 (c : Dev nD) : GenP.W12 m ρ c (Proc.devRef .tc main_v31) = GenP.W1 m ρ c (Proc.devRef .tc main_v31) :=
  ((GenP.W12_of_ne m ρ c main_v31 (by decide) : GenP.W12 m ρ c (Proc.devRef .tc main_v31) = GenP.W11 m ρ c (Proc.devRef .tc main_v31))).trans (at_v31_11 m ρ c)
theorem at_v31_13 (c : Dev nD) : GenP.W13 m ρ c (Proc.devRef .tc main_v31) = GenP.W1 m ρ c (Proc.devRef .tc main_v31) :=
  ((StableHlo.after_of_writes_sub hostOps6 _ hostOps6_writes (by decide : main_v31 ∉ hostOps6_W) : GenP.W13 m ρ c (Proc.devRef .tc main_v31) = GenP.W12 m ρ c (Proc.devRef .tc main_v31))).trans (at_v31_12 m ρ c)
theorem at_v31_14 (c : Dev nD) : GenP.W14 m ρ c (Proc.devRef .tc main_v31) = GenP.W1 m ρ c (Proc.devRef .tc main_v31) :=
  (((GenP.W14_arr m ρ c 1).trans (((GenP.dat6 (GenP.V13 m ρ) c).arrAt_in 1 rfl _).trans (GenP.A_eq6 (GenP.V13 m ρ) c 1)) : GenP.W14 m ρ c (Proc.devRef .tc main_v31) = GenP.W13 m ρ c (Proc.devRef .tc main_v31))).trans (at_v31_13 m ρ c)
theorem at_v31_15 (c : Dev nD) : GenP.W15 m ρ c (Proc.devRef .tc main_v31) = GenP.W1 m ρ c (Proc.devRef .tc main_v31) :=
  ((StableHlo.after_of_writes_sub hostOps7 _ hostOps7_writes (by decide : main_v31 ∉ hostOps7_W) : GenP.W15 m ρ c (Proc.devRef .tc main_v31) = GenP.W14 m ρ c (Proc.devRef .tc main_v31))).trans (at_v31_14 m ρ c)

theorem at_arg0_1 (c : Dev nD) : GenP.W1 m ρ c (Proc.devRef .tc main_arg0) = GenP.W1 m ρ c (Proc.devRef .tc main_arg0) := rfl
theorem at_arg0_2 (c : Dev nD) : GenP.W2 m ρ c (Proc.devRef .tc main_arg0) = GenP.W1 m ρ c (Proc.devRef .tc main_arg0) :=
  ((GenP.W2_of_ne m ρ c main_arg0 (by decide) : GenP.W2 m ρ c (Proc.devRef .tc main_arg0) = GenP.W1 m ρ c (Proc.devRef .tc main_arg0))).trans (at_arg0_1 m ρ c)
theorem at_arg0_3 (c : Dev nD) : GenP.W3 m ρ c (Proc.devRef .tc main_arg0) = GenP.W1 m ρ c (Proc.devRef .tc main_arg0) :=
  ((StableHlo.after_of_writes_sub hostOps1 _ hostOps1_writes (by decide : main_arg0 ∉ hostOps1_W) : GenP.W3 m ρ c (Proc.devRef .tc main_arg0) = GenP.W2 m ρ c (Proc.devRef .tc main_arg0))).trans (at_arg0_2 m ρ c)
theorem at_arg0_4 (c : Dev nD) : GenP.W4 m ρ c (Proc.devRef .tc main_arg0) = GenP.W1 m ρ c (Proc.devRef .tc main_arg0) :=
  (((GenP.W4_arr m ρ c 1).trans (((GenP.dat1 (GenP.V3 m ρ) c).arrAt_in 1 rfl _).trans (GenP.A_eq1 (GenP.V3 m ρ) c 1)) : GenP.W4 m ρ c (Proc.devRef .tc main_arg0) = GenP.W3 m ρ c (Proc.devRef .tc main_arg0))).trans (at_arg0_3 m ρ c)
theorem at_arg0_5 (c : Dev nD) : GenP.W5 m ρ c (Proc.devRef .tc main_arg0) = GenP.W1 m ρ c (Proc.devRef .tc main_arg0) :=
  ((StableHlo.after_of_writes_sub hostOps2 _ hostOps2_writes (by decide : main_arg0 ∉ hostOps2_W) : GenP.W5 m ρ c (Proc.devRef .tc main_arg0) = GenP.W4 m ρ c (Proc.devRef .tc main_arg0))).trans (at_arg0_4 m ρ c)
theorem at_arg0_6 (c : Dev nD) : GenP.W6 m ρ c (Proc.devRef .tc main_arg0) = GenP.W1 m ρ c (Proc.devRef .tc main_arg0) :=
  ((GenP.W6_of_ne m ρ c main_arg0 (by decide) : GenP.W6 m ρ c (Proc.devRef .tc main_arg0) = GenP.W5 m ρ c (Proc.devRef .tc main_arg0))).trans (at_arg0_5 m ρ c)
theorem at_arg0_7 (c : Dev nD) : GenP.W7 m ρ c (Proc.devRef .tc main_arg0) = GenP.W1 m ρ c (Proc.devRef .tc main_arg0) :=
  ((StableHlo.after_of_writes_sub hostOps3 _ hostOps3_writes (by decide : main_arg0 ∉ hostOps3_W) : GenP.W7 m ρ c (Proc.devRef .tc main_arg0) = GenP.W6 m ρ c (Proc.devRef .tc main_arg0))).trans (at_arg0_6 m ρ c)
theorem at_arg0_8 (c : Dev nD) : GenP.W8 m ρ c (Proc.devRef .tc main_arg0) = GenP.W1 m ρ c (Proc.devRef .tc main_arg0) :=
  (((GenP.W8_arr m ρ c 1).trans (((GenP.dat3 (GenP.V7 m ρ) c).arrAt_in 1 rfl _).trans (GenP.A_eq3 (GenP.V7 m ρ) c 1)) : GenP.W8 m ρ c (Proc.devRef .tc main_arg0) = GenP.W7 m ρ c (Proc.devRef .tc main_arg0))).trans (at_arg0_7 m ρ c)
theorem at_arg0_9 (c : Dev nD) : GenP.W9 m ρ c (Proc.devRef .tc main_arg0) = GenP.W1 m ρ c (Proc.devRef .tc main_arg0) :=
  ((StableHlo.after_of_writes_sub hostOps4 _ hostOps4_writes (by decide : main_arg0 ∉ hostOps4_W) : GenP.W9 m ρ c (Proc.devRef .tc main_arg0) = GenP.W8 m ρ c (Proc.devRef .tc main_arg0))).trans (at_arg0_8 m ρ c)
theorem at_arg0_10 (c : Dev nD) : GenP.W10 m ρ c (Proc.devRef .tc main_arg0) = GenP.W1 m ρ c (Proc.devRef .tc main_arg0) :=
  ((GenP.W10_of_ne m ρ c main_arg0 (by decide) : GenP.W10 m ρ c (Proc.devRef .tc main_arg0) = GenP.W9 m ρ c (Proc.devRef .tc main_arg0))).trans (at_arg0_9 m ρ c)
theorem at_arg0_11 (c : Dev nD) : GenP.W11 m ρ c (Proc.devRef .tc main_arg0) = GenP.W1 m ρ c (Proc.devRef .tc main_arg0) :=
  ((StableHlo.after_of_writes_sub hostOps5 _ hostOps5_writes (by decide : main_arg0 ∉ hostOps5_W) : GenP.W11 m ρ c (Proc.devRef .tc main_arg0) = GenP.W10 m ρ c (Proc.devRef .tc main_arg0))).trans (at_arg0_10 m ρ c)
theorem at_arg0_12 (c : Dev nD) : GenP.W12 m ρ c (Proc.devRef .tc main_arg0) = GenP.W1 m ρ c (Proc.devRef .tc main_arg0) :=
  (((GenP.W12_arr m ρ c 1).trans (((GenP.dat5 (GenP.V11 m ρ) c).arrAt_in 1 rfl _).trans (GenP.A_eq5 (GenP.V11 m ρ) c 1)) : GenP.W12 m ρ c (Proc.devRef .tc main_arg0) = GenP.W11 m ρ c (Proc.devRef .tc main_arg0))).trans (at_arg0_11 m ρ c)
theorem at_arg0_13 (c : Dev nD) : GenP.W13 m ρ c (Proc.devRef .tc main_arg0) = GenP.W1 m ρ c (Proc.devRef .tc main_arg0) :=
  ((StableHlo.after_of_writes_sub hostOps6 _ hostOps6_writes (by decide : main_arg0 ∉ hostOps6_W) : GenP.W13 m ρ c (Proc.devRef .tc main_arg0) = GenP.W12 m ρ c (Proc.devRef .tc main_arg0))).trans (at_arg0_12 m ρ c)
theorem at_arg0_14 (c : Dev nD) : GenP.W14 m ρ c (Proc.devRef .tc main_arg0) = GenP.W1 m ρ c (Proc.devRef .tc main_arg0) :=
  ((GenP.W14_of_ne m ρ c main_arg0 (by decide) : GenP.W14 m ρ c (Proc.devRef .tc main_arg0) = GenP.W13 m ρ c (Proc.devRef .tc main_arg0))).trans (at_arg0_13 m ρ c)
theorem at_arg0_15 (c : Dev nD) : GenP.W15 m ρ c (Proc.devRef .tc main_arg0) = GenP.W1 m ρ c (Proc.devRef .tc main_arg0) :=
  ((StableHlo.after_of_writes_sub hostOps7 _ hostOps7_writes (by decide : main_arg0 ∉ hostOps7_W) : GenP.W15 m ρ c (Proc.devRef .tc main_arg0) = GenP.W14 m ρ c (Proc.devRef .tc main_arg0))).trans (at_arg0_14 m ρ c)

end Cert.KernelIdeal.RunV

end
-- ==== Proof.Steps.lean ====
/-
  The diffusion step each program repeats four times, as one function of the current node features.

  The kernel's program works on an edge list padded from 2300000 to 2301952 entries: the padded index words are 0 and
  the padded edge weights are the zero word. One step gathers a row of the features per edge, scales it by the edge's
  weight, adds the scaled rows into their destination rows, and mixes the result with the initial features.
  The reference does the same over the unpadded edge list.
-/
import proofs.«105508_j38800734552802_2_alg».proof.Proof.Gen.KernelIdeal
import proofs.«105508_j38800734552802_2_alg».proof.Proof.Gen.ReferenceIdeal
import Idealize.ShloMosaic.PureOps.Ideal
import Idealize.ShloMosaic.Lib.ValueIdx

noncomputable section

namespace Cert.Diffuse

open Idealize.ShloMosaic

/-! ## The kernel's program: 2301952 padded edges -/
namespace K

open Cert.KernelIdeal Cert.KernelIdeal.Facts₀

/-- An index vector with numpy's wrap of negative words (add the extent 300000), laid out as a column. -/
def wrapCol (i : IVec S2301952 32) : IVec S2301952x1 32 :=
  broadcastInDim S2301952x1 ![0] bcast_S2301952_S2301952x1_0
    (select (cmpi .slt i (broadcastInDim S2301952 ![] bcast_S_S2301952 (constantI S_ 32 0#32)))
      (addi i (broadcastInDim S2301952 ![] bcast_S_S2301952 (constantI S_ 32 300000#32))) i)

/-- Row e of x scaled by the weight w(e, 0). -/
def scaleRows (x : FVec Ideal S2301952x64 .f32) (w : FVec Ideal S2301952x1 .f32) : FVec Ideal S2301952x64 .f32 :=
  fun j => FloatOps.mulf (x j) (w (ValueIdx.ix2 (⟨(j 0).val, ValueIdx.idx2_lt0 j⟩ : Fin 2301952) (0 : Fin 1)))

/-- a · f32(0.9) + x · f32(0.1), entry by entry. -/
def combineRows (a x : FVec Ideal S300000x64 .f32) : FVec Ideal S300000x64 .f32 :=
  fun j => FloatOps.addf (FloatOps.mulf (a j) (Scalar.ofBits .f32 0x3F666666#32)) (FloatOps.mulf (x j) (Scalar.ofBits .f32 0x3DCCCCCD#32))

/-- The all-zero accumulator the scatter starts from. -/
def zeros : FVec Ideal S300000x64 .f32 := broadcastInDim S300000x64 ![] bcast_S_S300000x64 (constant (F := Ideal) S_ .f32 0x00000000#32)

/-- An index vector padded with 1952 zero words. -/
def padI (v : IVec S2300000 32) : IVec S2301952 32 :=
  concatenate S2301952 0 [⟨S2300000, v⟩, ⟨S1952, broadcastInDim S1952 ![] bcast_S_S1952 (constantI S_ 32 0#32)⟩] concatenates_S2300000_S1952_S2301952_d0

/-- The edge weights padded with 1952 zeros, as a column. -/
def padW (w : FVec Ideal S2300000 .f32) : FVec Ideal S2301952x1 .f32 :=
  shapeCast S2301952x1 (concatenate S2301952 0 [⟨S2300000, w⟩, ⟨S1952, broadcastInDim S1952 ![] bcast_S_S1952 (constant (F := Ideal) S_ .f32 0x00000000#32)⟩] concatenates_S2300000_S1952_S2301952_d0) shapeCasts_S2301952_S2301952x1

/-- One diffusion step of the kernel's program from features h: X the initial features, srcP / dstP the padded source
    and destination index vectors, wP the padded weight column. -/
def step (X : FVec Ideal S300000x64 .f32) (srcP dstP : IVec S2301952 32) (wP : FVec Ideal S2301952x1 .f32)
    (h : FVec Ideal S300000x64 .f32) : FVec Ideal S300000x64 .f32 :=
  combineRows (Host.scatterAdd scatter_S300000x64_S2301952x1_S2301952x64_1_0_0_1 zeros
      (broadcastInDim S2301952x1 ![0] bcast_S2301952_S2301952x1_0 dstP)
      (scaleRows (Host.gather gather_S300000x64_S2301952x1_S2301952x64_1_0_n_n_0_1_164 h (wrapCol srcP)) wP)) X

end K

/-! ## The reference: 2300000 edges -/
namespace R

open Cert.ReferenceIdeal Cert.ReferenceIdeal.Facts₀

/-- An index vector with numpy's wrap of negative words, laid out as a column. -/
def wrapCol (i : IVec S2300000 32) : IVec S2300000x1 32 :=
  broadcastInDim S2300000x1 ![0] bcast_S2300000_S2300000x1_0
    (select (cmpi .slt i (broadcastInDim S2300000 ![] bcast_S_S2300000 (constantI S_ 32 0#32)))
      (addi i (broadcastInDim S2300000 ![] bcast_S_S2300000 (constantI S_ 32 300000#32))) i)

/-- One diffusion step of the reference from features h. -/
def step (X : FVec Ideal S300000x64 .f32) (src dst : IVec S2300000 32) (w : FVec Ideal S2300000 .f32)
    (h : FVec Ideal S300000x64 .f32) : FVec Ideal S300000x64 .f32 :=
  addf (mulf (Host.scatterAdd scatter_S300000x64_S2300000x1_S2300000x64_1_0_0_1
        (broadcastInDim S300000x64 ![] bcast_S_S300000x64 (constant (F := Ideal) S_ .f32 0x00000000#32))
        (broadcastInDim S2300000x1 ![0] bcast_S2300000_S2300000x1_0 dst)
        (mulf (Host.gather gather_S300000x64_S2300000x1_S2300000x64_1_0_n_n_0_1_164 h (wrapCol src))
          (broadcastInDim S2300000x64 ![0, 1] bcast_S2300000x1_S2300000x64_0_1
            (broadcastInDim S2300000x1 ![0] bcast_S2300000_S2300000x1_0 w))))
      (broadcastInDim S300000x64 ![] bcast_S_S300000x64 (constant (F := Ideal) S_ .f32 0x3F666666#32)))
    (mulf X (broadcastInDim S300000x64 ![] bcast_S_S300000x64 (constant (F := Ideal) S_ .f32 0x3DCCCCCD#32)))

end R

end Cert.Diffuse

end
-- ==== Proof.Chain.lean ====
/-
  The edge list and the edge weights both programs compute first, by the same host operations: the bidirected
  user-item edges with one loop per node, each node's in-degree to the power -1/2, and per edge the product of the
  norms of its two ends. Each program's own records spell the same shapes and dimension numbers.
-/
import proofs.«105508_j38800734552802_2_alg».proof.Proof.Steps

noncomputable section

namespace Cert.Diffuse

open Idealize.ShloMosaic

namespace K

open Cert.KernelIdeal Cert.KernelIdeal.Facts₀

/-- The source index of every edge: the users, the items shifted by 200000, then one loop per node. -/
def src (a1 a2 : IVec S1000000 32) : IVec S2300000 32 :=
  concatenate S2300000 0 [⟨S1000000, a1⟩, ⟨S1000000, addi a2 (broadcastInDim S1000000 ![] bcast_S_S1000000 (constantI S_ 32 200000#32))⟩, ⟨S300000, iotaInDim S300000 32 0⟩] concatenates_S1000000_S1000000_S300000_S2300000_d0

/-- The destination index of every edge: the shifted items, the users, then one loop per node. -/
def dst (a1 a2 : IVec S1000000 32) : IVec S2300000 32 :=
  concatenate S2300000 0 [⟨S1000000, addi a2 (broadcastInDim S1000000 ![] bcast_S_S1000000 (constantI S_ 32 200000#32))⟩, ⟨S1000000, a1⟩, ⟨S300000, iotaInDim S300000 32 0⟩] concatenates_S1000000_S1000000_S300000_S2300000_d0

/-- An index vector with numpy's wrap of negative words, laid out as a column (the unpadded length). -/
def wrapEdges (i : IVec S2300000 32) : IVec S2300000x1 32 :=
  broadcastInDim S2300000x1 ![0] bcast_S2300000_S2300000x1_0
    (select (cmpi .slt i (broadcastInDim S2300000 ![] bcast_S_S2300000 (constantI S_ 32 0#32)))
      (addi i (broadcastInDim S2300000 ![] bcast_S_S2300000 (constantI S_ 32 300000#32))) i)

/-- Every node's in-degree to the power -1/2. -/
def norm (a1 a2 : IVec S1000000 32) : FVec Ideal S300000 .f32 :=
  Host.powf (Host.scatterAdd scatter_S300000_S2300000x1_S2300000_n_0_0_1
      (broadcastInDim S300000 ![] bcast_S_S300000 (constant (F := Ideal) S_ .f32 0x00000000#32))
      (broadcastInDim S2300000x1 ![0] bcast_S2300000_S2300000x1_0 (dst a1 a2))
      (broadcastInDim S2300000 ![] bcast_S_S2300000 (constant (F := Ideal) S_ .f32 0x3F800000#32)))
    (broadcastInDim S300000 ![] bcast_S_S300000 (constant (F := Ideal) S_ .f32 0xBF000000#32))

/-- Every edge's weight: the product of its two ends' norms. -/
def wts (a1 a2 : IVec S1000000 32) : FVec Ideal S2300000 .f32 :=
  mulf (Host.gather gather_S300000_S2300000x1_S2300000_n_0_n_n_0_1_1 (norm a1 a2) (wrapEdges (src a1 a2)))
    (Host.gather gather_S300000_S2300000x1_S2300000_n_0_n_n_0_1_1 (norm a1 a2) (wrapEdges (dst a1 a2)))

/-- The final division by the f32 word of 1. -/
def finish (h : FVec Ideal S300000x64 .f32) : FVec Ideal S300000x64 .f32 :=
  Host.divf h (broadcastInDim S300000x64 ![] bcast_S_S300000x64 (constant (F := Ideal) S_ .f32 0x3F800000#32))

end K

namespace R

open Cert.ReferenceIdeal Cert.ReferenceIdeal.Facts₀

/-- The source index of every edge: the users, the items shifted by 200000, then one loop per node. -/
def src (a1 a2 : IVec S1000000 32) : IVec S2300000 32 :=
  concatenate S2300000 0 [⟨S1000000, a1⟩, ⟨S1000000, addi a2 (broadcastInDim S1000000 ![] bcast_S_S1000000 (constantI S_ 32 200000#32))⟩, ⟨S300000, iotaInDim S300000 32 0⟩] concatenates_S1000000_S1000000_S300000_S2300000_d0

/-- The destination index of every edge: the shifted items, the users, then one loop per node. -/
def dst (a1 a2 : IVec S1000000 32) : IVec S2300000 32 :=
  concatenate S2300000 0 [⟨S1000000, addi a2 (broadcastInDim S1000000 ![] bcast_S_S1000000 (constantI S_ 32 200000#32))⟩, ⟨S1000000, a1⟩, ⟨S300000, iotaInDim S300000 32 0⟩] concatenates_S1000000_S1000000_S300000_S2300000_d0

/-- An index vector with numpy's wrap of negative words, laid out as a column (the unpadded length). -/
def wrapEdges (i : IVec S2300000 32) : IVec S2300000x1 32 :=
  broadcastInDim S2300000x1 ![0] bcast_S2300000_S2300000x1_0
    (select (cmpi .slt i (broadcastInDim S2300000 ![] bcast_S_S2300000 (constantI S_ 32 0#32)))
      (addi i (broadcastInDim S2300000 ![] bcast_S_S2300000 (constantI S_ 32 300000#32))) i)

/-- Every node's in-degree to the power -1/2. -/
def norm (a1 a2 : IVec S1000000 32) : FVec Ideal S300000 .f32 :=
  Host.powf (Host.scatterAdd scatter_S300000_S2300000x1_S2300000_n_0_0_1
      (broadcastInDim S300000 ![] bcast_S_S300000 (constant (F := Ideal) S_ .f32 0x00000000#32))
      (broadcastInDim S2300000x1 ![0] bcast_S2300000_S2300000x1_0 (dst a1 a2))
      (broadcastInDim S2300000 ![] bcast_S_S2300000 (constant (F := Ideal) S_ .f32 0x3F800000#32)))
    (broadcastInDim S300000 ![] bcast_S_S300000 (constant (F := Ideal) S_ .f32 0xBF000000#32))

/-- Every edge's weight: the product of its two ends' norms. -/
def wts (a1 a2 : IVec S1000000 32) : FVec Ideal S2300000 .f32 :=
  mulf (Host.gather gather_S300000_S2300000x1_S2300000_n_0_n_n_0_1_1 (norm a1 a2) (wrapEdges (src a1 a2)))
    (Host.gather gather_S300000_S2300000x1_S2300000_n_0_n_n_0_1_1 (norm a1 a2) (wrapEdges (dst a1 a2)))

/-- The final division by the f32 word of 1. -/
def finish (h : FVec Ideal S300000x64 .f32) : FVec Ideal S300000x64 .f32 :=
  Host.divf h (broadcastInDim S300000x64 ![] bcast_S_S300000x64 (constant (F := Ideal) S_ .f32 0x3F800000#32))

end R

/-- The two programs' edge lists and weights are the same functions of the index arguments. -/
theorem src_eq (a1 a2 : IVec Cert.KernelIdeal.S1000000 32) : K.src a1 a2 = R.src a1 a2 := rfl
theorem dst_eq (a1 a2 : IVec Cert.KernelIdeal.S1000000 32) : K.dst a1 a2 = R.dst a1 a2 := rfl
theorem wts_eq (a1 a2 : IVec Cert.KernelIdeal.S1000000 32) : K.wts a1 a2 = R.wts a1 a2 := rfl
theorem finish_eq (h : FVec Ideal Cert.KernelIdeal.S300000x64 .f32) : K.finish h = R.finish h := rfl

end Cert.Diffuse

end
-- ==== Proof.KernelHost.lean ====
/-
  What the host stretches of the kernel's program compute, read off the operation lists.

  Before each scaling region but the first: the gather of the previous step's rows at the wrapped
  source indices. Before each combining region: the sum of the scaled rows into their destination rows, from zero.
  After the last region: the division by the f32 word of 1.
-/
import proofs.«105508_j38800734552802_2_alg».proof.Proof.FrameKernelIdeal
import proofs.«105508_j38800734552802_2_alg».proof.Proof.Chain
import Idealize.ShloMosaic.Lib.StableHlo.Run

noncomputable section

namespace Cert.KernelIdeal.RunV

open Idealize.ShloMosaic Idealize.ShloMosaic.TcCoe Idealize.SL.Sem
open Cert.KernelIdeal Cert.KernelIdeal.Gen Cert.Diffuse

variable (m : (ℓ : Loc nD τ sig) → Buf (Elt Ideal) ℓ) (ρ : Dev nD → PrngReg)

/-! ## The gathers before the later scaling regions -/

theorem gath_5 (c : Dev nD) : (GenP.W5 m ρ c (Proc.devRef .tc main_v50) : FVec Ideal S2301952x64 .f32)
    = Host.gather gather_S300000x64_S2301952x1_S2301952x64_1_0_n_n_0_1_164 (GenP.W4 m ρ c (Proc.devRef .tc main_v43))
        (K.wrapCol (GenP.W4 m ρ c (Proc.devRef .tc main_v28))) := by
  show StableHlo.after hostOps2 _ (Proc.devRef .tc main_v50) = _
  after_results
  rfl

theorem gath_9 (c : Dev nD) : (GenP.W9 m ρ c (Proc.devRef .tc main_v62) : FVec Ideal S2301952x64 .f32)
    = Host.gather gather_S300000x64_S2301952x1_S2301952x64_1_0_n_n_0_1_164 (GenP.W8 m ρ c (Proc.devRef .tc main_v55))
        (K.wrapCol (GenP.W8 m ρ c (Proc.devRef .tc main_v28))) := by
  show StableHlo.after hostOps4 _ (Proc.devRef .tc main_v62) = _
  after_results
  rfl

theorem gath_13 (c : Dev nD) : (GenP.W13 m ρ c (Proc.devRef .tc main_v74) : FVec Ideal S2301952x64 .f32)
    = Host.gather gather_S300000x64_S2301952x1_S2301952x64_1_0_n_n_0_1_164 (GenP.W12 m ρ c (Proc.devRef .tc main_v67))
        (K.wrapCol (GenP.W12 m ρ c (Proc.devRef .tc main_v28))) := by
  show StableHlo.after hostOps6 _ (Proc.devRef .tc main_v74) = _
  after_results
  rfl

/-! ## The sums before the combining regions -/

theorem scat_3 (c : Dev nD) : (GenP.W3 m ρ c (Proc.devRef .tc main_v42) : FVec Ideal S300000x64 .f32)
    = Host.scatterAdd scatter_S300000x64_S2301952x1_S2301952x64_1_0_0_1 K.zeros
        (broadcastInDim S2301952x1 ![0] Facts₀.bcast_S2301952_S2301952x1_0 (GenP.W2 m ρ c (Proc.devRef .tc main_v29)))
        (GenP.W2 m ρ c (Proc.devRef .tc main_v39)) := by
  show StableHlo.after hostOps1 _ (Proc.devRef .tc main_v42) = _
  after_results
  rfl

theorem scat_7 (c : Dev nD) : (GenP.W7 m ρ c (Proc.devRef .tc main_v54) : FVec Ideal S300000x64 .f32)
    = Host.scatterAdd scatter_S300000x64_S2301952x1_S2301952x64_1_0_0_1 K.zeros
        (broadcastInDim S2301952x1 ![0] Facts₀.bcast_S2301952_S2301952x1_0 (GenP.W6 m ρ c (Proc.devRef .tc main_v29)))
        (GenP.W6 m ρ c (Proc.devRef .tc main_v51)) := by
  show StableHlo.after hostOps3 _ (Proc.devRef .tc main_v54) = _
  after_results
  rfl

theorem scat_11 (c : Dev nD) : (GenP.W11 m ρ c (Proc.devRef .tc main_v66) : FVec Ideal S300000x64 .f32)
    = Host.scatterAdd scatter_S300000x64_S2301952x1_S2301952x64_1_0_0_1 K.zeros
        (broadcastInDim S2301952x1 ![0] Facts₀.bcast_S2301952_S2301952x1_0 (GenP.W10 m ρ c (Proc.devRef .tc main_v29)))
        (GenP.W10 m ρ c (Proc.devRef .tc main_v63)) := by
  show StableHlo.after hostOps5 _ (Proc.devRef .tc main_v66) = _
  after_results
  rfl

theorem scat_15 (c : Dev nD) : (GenP.W15 m ρ c (Proc.devRef .tc main_v78) : FVec Ideal S300000x64 .f32)
    = Host.scatterAdd scatter_S300000x64_S2301952x1_S2301952x64_1_0_0_1 K.zeros
        (broadcastInDim S2301952x1 ![0] Facts₀.bcast_S2301952_S2301952x1_0 (GenP.W14 m ρ c (Proc.devRef .tc main_v29)))
        (GenP.W14 m ρ c (Proc.devRef .tc main_v75)) := by
  show StableHlo.after hostOps7 _ (Proc.devRef .tc main_v78) = _
  after_results
  rfl

/-! ## After the last region -/

theorem fin_17 (c : Dev nD) : (GenP.W17 m ρ c (Proc.devRef .tc main_v81) : FVec Ideal S300000x64 .f32)
    = K.finish (GenP.W16 m ρ c (Proc.devRef .tc main_v79)) := by
  show StableHlo.after hostOps8 _ (Proc.devRef .tc main_v81) = _
  after_results
  rfl

end Cert.KernelIdeal.RunV

end
-- ==== Proof.LibHostStages.lean ====
/-
  Two facts about a straight line of host operations, for any topology, buffer signature and element values.

  Running two lists of operations one after the other is running their concatenation (`after_append`): a long program can
  be read back stage by stage, each stage from ANY contents before it.

  An outlined function's intermediate values live in buffers typed through the call's record; a value is stored into
  such a buffer and read back through a change of type along the buffer's type equation, there and back. The round trip
  is the identity (`ofBuf_toBuf`): rewriting with it removes those changes of type in pairs, however deeply the function's
  operations nest them, before two spellings of the function's result are compared.
-/
import Idealize.ShloMosaic.Lib.StableHlo.Run

noncomputable section

namespace Cert.Lib.HostStages

open Idealize.ShloMosaic Idealize.ShloMosaic.StableHlo

variable {τ : Topo} {sig : RefSig} {Val : EltTy → Type}

/-- Running two lists of operations one after the other is running their concatenation. -/
theorem after_append (l₁ l₂ : List (HloOp τ sig Val)) :
    ∀ V : Valuation τ sig Val, after (l₁ ++ l₂) V = after l₂ (after l₁ V) := by
  induction l₁ with
  | nil => intro V; rfl
  | cons op l ih => intro V; exact ih (op.result V)

/-- A value stored in a typed buffer and read back is the value. -/
theorem ofBuf_toBuf {T : BufTy} (x : TRef sig T) (v : T.Contents Val) : x.ofBuf (x.toBuf v) = v := by
  obtain ⟨r, h, _, _⟩ := x
  subst h
  rfl

end Cert.Lib.HostStages

end
-- ==== Proof.KernelEntry.lean ====
/-
  What the first host stretch of the kernel's program leaves at region 0's entry: the padded source and destination
  index vectors, the padded weight column, the first gather of the features argument's rows, and the features argument
  itself, which no operation writes.

  The weight column sits deepest: the edge lists, then the in-degrees and their power -1/2, then per edge the product of
  the two ends' norms, then the padding and the reshape. It is read in three stages of the operation list, each stage
  from arbitrary contents before it.
-/
import proofs.«105508_j38800734552802_2_alg».proof.Proof.FrameKernelIdeal
import proofs.«105508_j38800734552802_2_alg».proof.Proof.Gen.KernelIdeal.Regions
import proofs.«105508_j38800734552802_2_alg».proof.Proof.Chain
import proofs.«105508_j38800734552802_2_alg».proof.Proof.LibHostStages
import Idealize.ShloMosaic.Lib.StableHlo.Run

noncomputable section

namespace Cert.KernelIdeal.RunV

open Idealize.ShloMosaic Idealize.ShloMosaic.TcCoe Idealize.SL.Sem
open Cert.KernelIdeal Cert.KernelIdeal.Gen Cert.Diffuse

/-! ## The first stretch in three stages -/

/-- The edge lists and the norms: the stretch's first 15 operations. -/
abbrev stageA : List (HloOp τ sig (Elt Ideal)) := (hostOps0 (F := Ideal)).take 15
/-- The edge weights: its next 19 operations. -/
abbrev stageB : List (HloOp τ sig (Elt Ideal)) := ((hostOps0 (F := Ideal)).drop 15).take 19
/-- The padding, the reshape and the first gather: its last 17 operations. -/
abbrev stageC : List (HloOp τ sig (Elt Ideal)) := (hostOps0 (F := Ideal)).drop 34

theorem hostOps0_stages : (hostOps0 (F := Ideal)) = stageA ++ (stageB ++ stageC) := by
  show _ = List.take 15 hostOps0 ++ (List.take 19 (List.drop 15 hostOps0) ++ List.drop 34 hostOps0)
  rw [show List.drop 34 (hostOps0 (F := Ideal)) = List.drop 19 (List.drop 15 hostOps0) from by rw [List.drop_drop],
    List.take_append_drop, List.take_append_drop]

theorem after_hostOps0 (V : Valuation τ sig (Elt Ideal)) :
    StableHlo.after (hostOps0 (F := Ideal)) V = StableHlo.after stageC (StableHlo.after stageB (StableHlo.after stageA V)) := by
  rw [hostOps0_stages, Cert.Lib.HostStages.after_append, Cert.Lib.HostStages.after_append]

section Stages
variable (V : Valuation τ sig (Elt Ideal))

theorem stageA_v3 : (StableHlo.after stageA V (Proc.devRef .tc main_v3) : IVec S2300000 32)
    = K.src (V (Proc.devRef .tc main_arg1)) (V (Proc.devRef .tc main_arg2)) := by
  simp only [stageA, hostOps0, List.take_succ_cons, List.take_zero]
  after_results
  rfl
theorem stageA_v4 : (StableHlo.after stageA V (Proc.devRef .tc main_v4) : IVec S2300000 32)
    = K.dst (V (Proc.devRef .tc main_arg1)) (V (Proc.devRef .tc main_arg2)) := by
  simp only [stageA, hostOps0, List.take_succ_cons, List.take_zero]
  after_results
  rfl
theorem stageA_v10 : (StableHlo.after stageA V (Proc.devRef .tc main_v10) : FVec Ideal S300000 .f32)
    = K.norm (V (Proc.devRef .tc main_arg1)) (V (Proc.devRef .tc main_arg2)) := by
  simp only [stageA, hostOps0, List.take_succ_cons, List.take_zero]
  after_results
  rfl
set_option maxHeartbeats 4000000 in
theorem stageB_v25 : (StableHlo.after stageB V (Proc.devRef .tc main_v25) : FVec Ideal S2300000 .f32)
    = (mulf (Host.gather gather_S300000_S2300000x1_S2300000_n_0_n_n_0_1_1 (V (Proc.devRef .tc main_v10) : FVec Ideal S300000 .f32) (K.wrapEdges (V (Proc.devRef .tc main_v3))))
        (Host.gather gather_S300000_S2300000x1_S2300000_n_0_n_n_0_1_1 (V (Proc.devRef .tc main_v10) : FVec Ideal S300000 .f32) (K.wrapEdges (V (Proc.devRef .tc main_v4)))) : FVec Ideal S2300000 .f32) := by
  simp only [stageB, hostOps0, List.drop_succ_cons, List.drop_zero, List.take_succ_cons, List.take_zero]
  after_results_simp
  rfl
theorem stageC_v31 : (StableHlo.after stageC V (Proc.devRef .tc main_v31) : FVec Ideal S2301952x1 .f32)
    = K.padW (V (Proc.devRef .tc main_v25)) := by
  simp only [stageC, hostOps0, List.drop_succ_cons, List.drop_zero]
  after_results
  rfl

end Stages

variable (m : (ℓ : Loc nD τ sig) → Buf (Elt Ideal) ℓ) (ρ : Dev nD → PrngReg)

/-! ## Region 0's entry -/

theorem entry_v31 (c : Dev nD) : (GenP.W1 m ρ c (Proc.devRef .tc main_v31) : FVec Ideal S2301952x1 .f32) = K.padW (K.wts (m ((c.tc : Thread nD τ).loc main_arg1)) (m ((c.tc : Thread nD τ).loc main_arg2))) := by
  show StableHlo.after hostOps0 (GenP.W0 m ρ c) (Proc.devRef .tc main_v31) = _
  rw [after_hostOps0, stageC_v31, stageB_v25, stageA_v3, stageA_v4, stageA_v10]
  rfl

set_option maxHeartbeats 4000000 in
theorem entry_v28 (c : Dev nD) : (GenP.W1 m ρ c (Proc.devRef .tc main_v28) : IVec S2301952 32) = K.padI (K.src (m ((c.tc : Thread nD τ).loc main_arg1)) (m ((c.tc : Thread nD τ).loc main_arg2))) := by
  show StableHlo.after hostOps0 _ (Proc.devRef .tc main_v28) = _
  after_results_simp
  rfl

set_option maxHeartbeats 4000000 in
theorem entry_v29 (c : Dev nD) : (GenP.W1 m ρ c (Proc.devRef .tc main_v29) : IVec S2301952 32) = K.padI (K.dst (m ((c.tc : Thread nD τ).loc main_arg1)) (m ((c.tc : Thread nD τ).loc main_arg2))) := by
  show StableHlo.after hostOps0 _ (Proc.devRef .tc main_v29) = _
  after_results_simp
  rfl

set_option maxHeartbeats 4000000 in
theorem entry_v38 (c : Dev nD) : (GenP.W1 m ρ c (Proc.devRef .tc main_v38) : FVec Ideal S2301952x64 .f32)
    = Host.gather gather_S300000x64_S2301952x1_S2301952x64_1_0_n_n_0_1_164 (m ((c.tc : Thread nD τ).loc main_arg0)) (K.wrapCol (K.padI (K.src (m ((c.tc : Thread nD τ).loc main_arg1)) (m ((c.tc : Thread nD τ).loc main_arg2))))) := by
  show StableHlo.after hostOps0 _ (Proc.devRef .tc main_v38) = _
  after_results_simp
  rfl

theorem entry_arg0 (c : Dev nD) : (GenP.W1 m ρ c (Proc.devRef .tc main_arg0) : FVec Ideal S300000x64 .f32) = (m ((c.tc : Thread nD τ).loc main_arg0)) :=
  (StableHlo.after_of_writes_sub hostOps0 _ hostOps0_writes (by decide : main_arg0 ∉ hostOps0_W)).trans rfl

end Cert.KernelIdeal.RunV

end
-- ==== Proof.RegionScale.lean ====
/-
  The output array of each of the four row-scaling regions (0, 2, 4, 6), as one function of the arrays the region finds.

  A scaling region walks 281 blocks of 8192 rows of a 2301952 x 64 array. At block t it multiplies every row of the
  block by that row's weight (a 8192 x 1 block of the weight column main_v31) and writes the block back. The blocks
  tile the rows, so after the region the whole output array is Diffuse.K.scaleRows of the input array and the weights:
  entry (r, l) is x(r, l) * w(r, 0).
-/
import proofs.«105508_j38800734552802_2_alg».proof.Proof.FrameKernelIdeal
import proofs.«105508_j38800734552802_2_alg».proof.Proof.Steps
import Idealize.ShloMosaic.Lib.Pipeline.Value

noncomputable section

namespace Cert.KernelIdeal.RegionValues

open Cert.KernelIdeal Cert.KernelIdeal.Gen Idealize.ShloMosaic Idealize.ShloMosaic.TcCoe Idealize.SL.Sem
open Idealize.ShloMosaic.Pipeline (Dat)
open Idealize.ShloMosaic.ValueIdx

-- the buffer contents when a region is entered
variable (V : (c : Dev nD) → (b : Ref sig .tc) → Buf (Elt Ideal) ((c : Thread nD τ).loc b))

/-- A block's origin inside its staging buffer is the zero index. -/
private theorem origin_zero : (![0, 0] : Fin 2 → Nat) = fun _ => 0 := funext fun a => by fin_cases a <;> rfl

/-! ## Region 0: the rows of main_v38 scaled by the weights main_v31 -/

-- the arrays the three windows stage: the rows, the weight column, the scaled rows
example : Pipeline.arrRef spec0 0 = main_v38 := rfl
example : Pipeline.arrRef spec0 1 = main_v31 := rfl
example : Pipeline.arrRef spec0 2 = main_v39 := rfl

/-- The body's stored value at row p, lane q of a block: the row's entry times the row's weight. -/
theorem scale_entry0 (x0 : Vec Ideal S8192x64 .f32) (x1 : Vec Ideal S8192x1 .f32) (p : Fin 8192) (q : Fin 64) :
    k0_pay1 x0 x1 (ix2 p q) = FloatOps.mulf (x0 (ix2 p q)) (x1 (ix2 p (0 : Fin 1))) := by
  unfold k0_pay1
  rw [mulf_apply, shapeCast_self, shapeCast_self,
    broadcastTo_apply x1 broadcasts_S8192x1_S8192x64 (ix2 p q) (ix2 p (0 : Fin 1)) (fun a => by
      match a with
      | ⟨0, _⟩ => rfl
      | ⟨1, _⟩ => rfl)]
  rfl

/-- The three windows move together: at grid point t each is on block t of the rows and block 0 of the lanes. -/
theorem windows_on_block0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What grid point t writes back is block t of the scaled rows: row 8192 t + p of the block's first input is row p of
    the rows' block, and its weight is entry p of the weights' block. -/
theorem written_block0 (c : Dev nD) (t : Fin cfg0.N) :
    (GenP.dat0 (F := Ideal) V c).flushed 2 t
      = ((cfg0.win 2).blk t).view.read (Elt Ideal) (Cert.Diffuse.K.scaleRows (V c main_v38) (V c main_v31)) := by
  show (cfg0.win 2).cut (grid0.coords t) ((GenP.dat0 V c).after 2 t) = _
  rw [GenP.after0_2]
  unfold GenP.out0_2
  rw [View.canon_unit_zero origin_zero]
  simp only [View.ld_unit_zero (S := S8192x64) origin_zero, View.ld_unit_zero (S := S8192x1) origin_zero]
  obtain ⟨e00, e01, e10, e11, e20, e21⟩ := windows_on_block0 t
  funext j
  obtain ⟨p, q, rfl⟩ : ∃ (p : Fin 8192) (q : Fin 64), j = ix2 p q := ⟨j 0, j 1, eq_ix2 j⟩
  show k0_pay1 (GenP.iblk0 V c 0 t) (GenP.iblk0 V c 1 t) (ix2 p q)
    = Cert.Diffuse.K.scaleRows (V c main_v38) (V c main_v31) (((cfg0.win 2).blk t).view.emb (ix2 p q))
  refine (scale_entry0 _ _ p q).trans ?_
  show FloatOps.mulf (V c main_v38 (((cfg0.win 0).blk t).view.emb (ix2 p q)))
      (V c main_v31 (((cfg0.win 1).blk t).view.emb (ix2 p (0 : Fin 1))))
    = Cert.Diffuse.K.scaleRows (V c main_v38) (V c main_v31) (((cfg0.win 2).blk t).view.emb (ix2 p q))
  have hx : ((cfg0.win 0).blk t).view.emb (ix2 p q) = ((cfg0.win 2).blk t).view.emb (ix2 p q) := by
    funext a; apply Fin.ext
    match a with
    | ⟨0, _⟩ => show win0_0.index t (0 : Fin 2) * 8192 + 1 * p.val = win0_2.index t (0 : Fin 2) * 8192 + 1 * p.val; omega
    | ⟨1, _⟩ => show win0_0.index t (1 : Fin 2) * 64 + 1 * q.val = win0_2.index t (1 : Fin 2) * 64 + 1 * q.val; omega
  have hw : ((cfg0.win 1).blk t).view.emb (ix2 p (0 : Fin 1))
      = ix2 (⟨((((cfg0.win 2).blk t).view.emb (ix2 p q)) 0).val, idx2_lt0 _⟩ : Fin 2301952) (0 : Fin 1) := by
    funext a; apply Fin.ext
    match a with
    | ⟨0, _⟩ => show win0_1.index t (0 : Fin 2) * 8192 + 1 * p.val = win0_2.index t (0 : Fin 2) * 8192 + 1 * p.val; omega
    | ⟨1, _⟩ => show win0_1.index t (1 : Fin 2) * 1 + 1 * 0 = 0; omega
  rw [hx, hw]
  rfl

/-- An index of the array lies in point t's block iff each coordinate lies in the block's range on its axis. -/
theorem mem_block0 (t : Fin cfg0.N) (i : S2301952x64.Idx) :
    i ∈ ((cfg0.win 2).blk t).view.set ↔ ∀ a : Fin 2, win0_2.index t a * S8192x64.size a ≤ (i a).val
      ∧ (i a).val < win0_2.index t a * S8192x64.size a + S8192x64.size a := by
  show i ∈ ((View.whole main_v39).slice (win0_2.rect t)).set ↔ _
  rw [View.set_slice_whole, Rect.mem_set_unit]
  exact Iff.rfl

/-- The 281 blocks of 8192 rows tile the 2301952 rows: row r lies in block r / 8192. -/
theorem blocks_tile_rows0 (i : S2301952x64.Idx) :
    ∃ t : Fin cfg0.N, (cfg0.win 2).flush t = true ∧ i ∈ ((cfg0.win 2).blk t).view.set := by
  have hi0 : (i 0).val < 2301952 := (i 0).isLt
  have hi1 : (i 1).val < 64 := (i 1).isLt
  obtain ⟨t, ht⟩ : ∃ t : Fin cfg0.N, t.val = (i 0).val / 8192 := ⟨⟨(i 0).val / 8192, by show _ < 281; omega⟩, rfl⟩
  obtain ⟨-, -, -, -, e20, e21⟩ := windows_on_block0 t
  refine ⟨t, flush0_2 t, ?_⟩
  rw [mem_block0]
  intro a
  match a with
  | ⟨0, _⟩ => show win0_2.index t (0 : Fin 2) * 8192 ≤ (i 0).val ∧ (i 0).val < win0_2.index t (0 : Fin 2) * 8192 + 8192; omega
  | ⟨1, _⟩ => show win0_2.index t (1 : Fin 2) * 64 ≤ (i 1).val ∧ (i 1).val < win0_2.index t (1 : Fin 2) * 64 + 64; omega

/-- Region 0's output array after its run: the rows of main_v38, each scaled by its weight. -/
theorem final0 (c : Dev nD) :
    (GenP.dat0 (F := Ideal) V c).arrAt 2 cfg0.N = Cert.Diffuse.K.scaleRows (V c main_v38) (V c main_v31) :=
  (GenP.dat0 V c).arrAt_eq_of_cover 2 _ (fun t _ => written_block0 V c t) blocks_tile_rows0

/-! ## Region 2: the rows of main_v50 scaled by the weights main_v31 -/

-- the arrays the three windows stage: the rows, the weight column, the scaled rows
example : Pipeline.arrRef spec2 0 = main_v50 := rfl
example : Pipeline.arrRef spec2 1 = main_v31 := rfl
example : Pipeline.arrRef spec2 2 = main_v51 := rfl

/-- The body's stored value at row p, lane q of a block: the row's entry times the row's weight. -/
theorem scale_entry2 (x0 : Vec Ideal S8192x64 .f32) (x1 : Vec Ideal S8192x1 .f32) (p : Fin 8192) (q : Fin 64) :
    k2_pay1 x0 x1 (ix2 p q) = FloatOps.mulf (x0 (ix2 p q)) (x1 (ix2 p (0 : Fin 1))) := by
  unfold k2_pay1
  rw [mulf_apply, shapeCast_self, shapeCast_self,
    broadcastTo_apply x1 broadcasts_S8192x1_S8192x64 (ix2 p q) (ix2 p (0 : Fin 1)) (fun a => by
      match a with
      | ⟨0, _⟩ => rfl
      | ⟨1, _⟩ => rfl)]
  rfl

/-- The three windows move together: at grid point t each is on block t of the rows and block 0 of the lanes. -/
theorem windows_on_block2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- What grid point t writes back is block t of the scaled rows: row 8192 t + p of the block's first input is row p of
    the rows' block, and its weight is entry p of the weights' block. -/
theorem written_block2 (c : Dev nD) (t : Fin cfg2.N) :
    (GenP.dat2 (F := Ideal) V c).flushed 2 t
      = ((cfg2.win 2).blk t).view.read (Elt Ideal) (Cert.Diffuse.K.scaleRows (V c main_v50) (V c main_v31)) := by
  show (cfg2.win 2).cut (grid2.coords t) ((GenP.dat2 V c).after 2 t) = _
  rw [GenP.after2_2]
  unfold GenP.out2_2
  rw [View.canon_unit_zero origin_zero]
  simp only [View.ld_unit_zero (S := S8192x64) origin_zero, View.ld_unit_zero (S := S8192x1) origin_zero]
  obtain ⟨e00, e01, e10, e11, e20, e21⟩ := windows_on_block2 t
  funext j
  obtain ⟨p, q, rfl⟩ : ∃ (p : Fin 8192) (q : Fin 64), j = ix2 p q := ⟨j 0, j 1, eq_ix2 j⟩
  show k2_pay1 (GenP.iblk2 V c 0 t) (GenP.iblk2 V c 1 t) (ix2 p q)
    = Cert.Diffuse.K.scaleRows (V c main_v50) (V c main_v31) (((cfg2.win 2).blk t).view.emb (ix2 p q))
  refine (scale_entry2 _ _ p q).trans ?_
  show FloatOps.mulf (V c main_v50 (((cfg2.win 0).blk t).view.emb (ix2 p q)))
      (V c main_v31 (((cfg2.win 1).blk t).view.emb (ix2 p (0 : Fin 1))))
    = Cert.Diffuse.K.scaleRows (V c main_v50) (V c main_v31) (((cfg2.win 2).blk t).view.emb (ix2 p q))
  have hx : ((cfg2.win 0).blk t).view.emb (ix2 p q) = ((cfg2.win 2).blk t).view.emb (ix2 p q) := by
    funext a; apply Fin.ext
    match a with
    | ⟨0, _⟩ => show win2_0.index t (0 : Fin 2) * 8192 + 1 * p.val = win2_2.index t (0 : Fin 2) * 8192 + 1 * p.val; omega
    | ⟨1, _⟩ => show win2_0.index t (1 : Fin 2) * 64 + 1 * q.val = win2_2.index t (1 : Fin 2) * 64 + 1 * q.val; omega
  have hw : ((cfg2.win 1).blk t).view.emb (ix2 p (0 : Fin 1))
      = ix2 (⟨((((cfg2.win 2).blk t).view.emb (ix2 p q)) 0).val, idx2_lt0 _⟩ : Fin 2301952) (0 : Fin 1) := by
    funext a; apply Fin.ext
    match a with
    | ⟨0, _⟩ => show win2_1.index t (0 : Fin 2) * 8192 + 1 * p.val = win2_2.index t (0 : Fin 2) * 8192 + 1 * p.val; omega
    | ⟨1, _⟩ => show win2_1.index t (1 : Fin 2) * 1 + 1 * 0 = 0; omega
  rw [hx, hw]
  rfl

/-- An index of the array lies in point t's block iff each coordinate lies in the block's range on its axis. -/
theorem mem_block2 (t : Fin cfg2.N) (i : S2301952x64.Idx) :
    i ∈ ((cfg2.win 2).blk t).view.set ↔ ∀ a : Fin 2, win2_2.index t a * S8192x64.size a ≤ (i a).val
      ∧ (i a).val < win2_2.index t a * S8192x64.size a + S8192x64.size a := by
  show i ∈ ((View.whole main_v51).slice (win2_2.rect t)).set ↔ _
  rw [View.set_slice_whole, Rect.mem_set_unit]
  exact Iff.rfl

/-- The 281 blocks of 8192 rows tile the 2301952 rows: row r lies in block r / 8192. -/
theorem blocks_tile_rows2 (i : S2301952x64.Idx) :
    ∃ t : Fin cfg2.N, (cfg2.win 2).flush t = true ∧ i ∈ ((cfg2.win 2).blk t).view.set := by
  have hi0 : (i 0).val < 2301952 := (i 0).isLt
  have hi1 : (i 1).val < 64 := (i 1).isLt
  obtain ⟨t, ht⟩ : ∃ t : Fin cfg2.N, t.val = (i 0).val / 8192 := ⟨⟨(i 0).val / 8192, by show _ < 281; omega⟩, rfl⟩
  obtain ⟨-, -, -, -, e20, e21⟩ := windows_on_block2 t
  refine ⟨t, flush2_2 t, ?_⟩
  rw [mem_block2]
  intro a
  match a with
  | ⟨0, _⟩ => show win2_2.index t (0 : Fin 2) * 8192 ≤ (i 0).val ∧ (i 0).val < win2_2.index t (0 : Fin 2) * 8192 + 8192; omega
  | ⟨1, _⟩ => show win2_2.index t (1 : Fin 2) * 64 ≤ (i 1).val ∧ (i 1).val < win2_2.index t (1 : Fin 2) * 64 + 64; omega

/-- Region 2's output array after its run: the rows of main_v50, each scaled by its weight. -/
theorem final2 (c : Dev nD) :
    (GenP.dat2 (F := Ideal) V c).arrAt 2 cfg2.N = Cert.Diffuse.K.scaleRows (V c main_v50) (V c main_v31) :=
  (GenP.dat2 V c).arrAt_eq_of_cover 2 _ (fun t _ => written_block2 V c t) blocks_tile_rows2

/-! ## Region 4: the rows of main_v62 scaled by the weights main_v31 -/

-- the arrays the three windows stage: the rows, the weight column, the scaled rows
example : Pipeline.arrRef spec4 0 = main_v62 := rfl
example : Pipeline.arrRef spec4 1 = main_v31 := rfl
example : Pipeline.arrRef spec4 2 = main_v63 := rfl

/-- The body's stored value at row p, lane q of a block: the row's entry times the row's weight. -/
theorem scale_entry4 (x0 : Vec Ideal S8192x64 .f32) (x1 : Vec Ideal S8192x1 .f32) (p : Fin 8192) (q : Fin 64) :
    k4_pay1 x0 x1 (ix2 p q) = FloatOps.mulf (x0 (ix2 p q)) (x1 (ix2 p (0 : Fin 1))) := by
  unfold k4_pay1
  rw [mulf_apply, shapeCast_self, shapeCast_self,
    broadcastTo_apply x1 broadcasts_S8192x1_S8192x64 (ix2 p q) (ix2 p (0 : Fin 1)) (fun a => by
      match a with
      | ⟨0, _⟩ => rfl
      | ⟨1, _⟩ => rfl)]
  rfl

/-- The three windows move together: at grid point t each is on block t of the rows and block 0 of the lanes. -/
theorem windows_on_block4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- What grid point t writes back is block t of the scaled rows: row 8192 t + p of the block's first input is row p of
    the rows' block, and its weight is entry p of the weights' block. -/
theorem written_block4 (c : Dev nD) (t : Fin cfg4.N) :
    (GenP.dat4 (F := Ideal) V c).flushed 2 t
      = ((cfg4.win 2).blk t).view.read (Elt Ideal) (Cert.Diffuse.K.scaleRows (V c main_v62) (V c main_v31)) := by
  show (cfg4.win 2).cut (grid4.coords t) ((GenP.dat4 V c).after 2 t) = _
  rw [GenP.after4_2]
  unfold GenP.out4_2
  rw [View.canon_unit_zero origin_zero]
  simp only [View.ld_unit_zero (S := S8192x64) origin_zero, View.ld_unit_zero (S := S8192x1) origin_zero]
  obtain ⟨e00, e01, e10, e11, e20, e21⟩ := windows_on_block4 t
  funext j
  obtain ⟨p, q, rfl⟩ : ∃ (p : Fin 8192) (q : Fin 64), j = ix2 p q := ⟨j 0, j 1, eq_ix2 j⟩
  show k4_pay1 (GenP.iblk4 V c 0 t) (GenP.iblk4 V c 1 t) (ix2 p q)
    = Cert.Diffuse.K.scaleRows (V c main_v62) (V c main_v31) (((cfg4.win 2).blk t).view.emb (ix2 p q))
  refine (scale_entry4 _ _ p q).trans ?_
  show FloatOps.mulf (V c main_v62 (((cfg4.win 0).blk t).view.emb (ix2 p q)))
      (V c main_v31 (((cfg4.win 1).blk t).view.emb (ix2 p (0 : Fin 1))))
    = Cert.Diffuse.K.scaleRows (V c main_v62) (V c main_v31) (((cfg4.win 2).blk t).view.emb (ix2 p q))
  have hx : ((cfg4.win 0).blk t).view.emb (ix2 p q) = ((cfg4.win 2).blk t).view.emb (ix2 p q) := by
    funext a; apply Fin.ext
    match a with
    | ⟨0, _⟩ => show win4_0.index t (0 : Fin 2) * 8192 + 1 * p.val = win4_2.index t (0 : Fin 2) * 8192 + 1 * p.val; omega
    | ⟨1, _⟩ => show win4_0.index t (1 : Fin 2) * 64 + 1 * q.val = win4_2.index t (1 : Fin 2) * 64 + 1 * q.val; omega
  have hw : ((cfg4.win 1).blk t).view.emb (ix2 p (0 : Fin 1))
      = ix2 (⟨((((cfg4.win 2).blk t).view.emb (ix2 p q)) 0).val, idx2_lt0 _⟩ : Fin 2301952) (0 : Fin 1) := by
    funext a; apply Fin.ext
    match a with
    | ⟨0, _⟩ => show win4_1.index t (0 : Fin 2) * 8192 + 1 * p.val = win4_2.index t (0 : Fin 2) * 8192 + 1 * p.val; omega
    | ⟨1, _⟩ => show win4_1.index t (1 : Fin 2) * 1 + 1 * 0 = 0; omega
  rw [hx, hw]
  rfl

/-- An index of the array lies in point t's block iff each coordinate lies in the block's range on its axis. -/
theorem mem_block4 (t : Fin cfg4.N) (i : S2301952x64.Idx) :
    i ∈ ((cfg4.win 2).blk t).view.set ↔ ∀ a : Fin 2, win4_2.index t a * S8192x64.size a ≤ (i a).val
      ∧ (i a).val < win4_2.index t a * S8192x64.size a + S8192x64.size a := by
  show i ∈ ((View.whole main_v63).slice (win4_2.rect t)).set ↔ _
  rw [View.set_slice_whole, Rect.mem_set_unit]
  exact Iff.rfl

/-- The 281 blocks of 8192 rows tile the 2301952 rows: row r lies in block r / 8192. -/
theorem blocks_tile_rows4 (i : S2301952x64.Idx) :
    ∃ t : Fin cfg4.N, (cfg4.win 2).flush t = true ∧ i ∈ ((cfg4.win 2).blk t).view.set := by
  have hi0 : (i 0).val < 2301952 := (i 0).isLt
  have hi1 : (i 1).val < 64 := (i 1).isLt
  obtain ⟨t, ht⟩ : ∃ t : Fin cfg4.N, t.val = (i 0).val / 8192 := ⟨⟨(i 0).val / 8192, by show _ < 281; omega⟩, rfl⟩
  obtain ⟨-, -, -, -, e20, e21⟩ := windows_on_block4 t
  refine ⟨t, flush4_2 t, ?_⟩
  rw [mem_block4]
  intro a
  match a with
  | ⟨0, _⟩ => show win4_2.index t (0 : Fin 2) * 8192 ≤ (i 0).val ∧ (i 0).val < win4_2.index t (0 : Fin 2) * 8192 + 8192; omega
  | ⟨1, _⟩ => show win4_2.index t (1 : Fin 2) * 64 ≤ (i 1).val ∧ (i 1).val < win4_2.index t (1 : Fin 2) * 64 + 64; omega

/-- Region 4's output array after its run: the rows of main_v62, each scaled by its weight. -/
theorem final4 (c : Dev nD) :
    (GenP.dat4 (F := Ideal) V c).arrAt 2 cfg4.N = Cert.Diffuse.K.scaleRows (V c main_v62) (V c main_v31) :=
  (GenP.dat4 V c).arrAt_eq_of_cover 2 _ (fun t _ => written_block4 V c t) blocks_tile_rows4

/-! ## Region 6: the rows of main_v74 scaled by the weights main_v31 -/

-- the arrays the three windows stage: the rows, the weight column, the scaled rows
example : Pipeline.arrRef spec6 0 = main_v74 := rfl
example : Pipeline.arrRef spec6 1 = main_v31 := rfl
example : Pipeline.arrRef spec6 2 = main_v75 := rfl

/-- The body's stored value at row p, lane q of a block: the row's entry times the row's weight. -/
theorem scale_entry6 (x0 : Vec Ideal S8192x64 .f32) (x1 : Vec Ideal S8192x1 .f32) (p : Fin 8192) (q : Fin 64) :
    k6_pay1 x0 x1 (ix2 p q) = FloatOps.mulf (x0 (ix2 p q)) (x1 (ix2 p (0 : Fin 1))) := by
  unfold k6_pay1
  rw [mulf_apply, shapeCast_self, shapeCast_self,
    broadcastTo_apply x1 broadcasts_S8192x1_S8192x64 (ix2 p q) (ix2 p (0 : Fin 1)) (fun a => by
      match a with
      | ⟨0, _⟩ => rfl
      | ⟨1, _⟩ => rfl)]
  rfl

/-- The three windows move together: at grid point t each is on block t of the rows and block 0 of the lanes. -/
theorem windows_on_block6 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0 :=
  (by decide +kernel : ∀ t : Fin grid6.N, _)

/-- What grid point t writes back is block t of the scaled rows: row 8192 t + p of the block's first input is row p of
    the rows' block, and its weight is entry p of the weights' block. -/
theorem written_block6 (c : Dev nD) (t : Fin cfg6.N) :
    (GenP.dat6 (F := Ideal) V c).flushed 2 t
      = ((cfg6.win 2).blk t).view.read (Elt Ideal) (Cert.Diffuse.K.scaleRows (V c main_v74) (V c main_v31)) := by
  show (cfg6.win 2).cut (grid6.coords t) ((GenP.dat6 V c).after 2 t) = _
  rw [GenP.after6_2]
  unfold GenP.out6_2
  rw [View.canon_unit_zero origin_zero]
  simp only [View.ld_unit_zero (S := S8192x64) origin_zero, View.ld_unit_zero (S := S8192x1) origin_zero]
  obtain ⟨e00, e01, e10, e11, e20, e21⟩ := windows_on_block6 t
  funext j
  obtain ⟨p, q, rfl⟩ : ∃ (p : Fin 8192) (q : Fin 64), j = ix2 p q := ⟨j 0, j 1, eq_ix2 j⟩
  show k6_pay1 (GenP.iblk6 V c 0 t) (GenP.iblk6 V c 1 t) (ix2 p q)
    = Cert.Diffuse.K.scaleRows (V c main_v74) (V c main_v31) (((cfg6.win 2).blk t).view.emb (ix2 p q))
  refine (scale_entry6 _ _ p q).trans ?_
  show FloatOps.mulf (V c main_v74 (((cfg6.win 0).blk t).view.emb (ix2 p q)))
      (V c main_v31 (((cfg6.win 1).blk t).view.emb (ix2 p (0 : Fin 1))))
    = Cert.Diffuse.K.scaleRows (V c main_v74) (V c main_v31) (((cfg6.win 2).blk t).view.emb (ix2 p q))
  have hx : ((cfg6.win 0).blk t).view.emb (ix2 p q) = ((cfg6.win 2).blk t).view.emb (ix2 p q) := by
    funext a; apply Fin.ext
    match a with
    | ⟨0, _⟩ => show win6_0.index t (0 : Fin 2) * 8192 + 1 * p.val = win6_2.index t (0 : Fin 2) * 8192 + 1 * p.val; omega
    | ⟨1, _⟩ => show win6_0.index t (1 : Fin 2) * 64 + 1 * q.val = win6_2.index t (1 : Fin 2) * 64 + 1 * q.val; omega
  have hw : ((cfg6.win 1).blk t).view.emb (ix2 p (0 : Fin 1))
      = ix2 (⟨((((cfg6.win 2).blk t).view.emb (ix2 p q)) 0).val, idx2_lt0 _⟩ : Fin 2301952) (0 : Fin 1) := by
    funext a; apply Fin.ext
    match a with
    | ⟨0, _⟩ => show win6_1.index t (0 : Fin 2) * 8192 + 1 * p.val = win6_2.index t (0 : Fin 2) * 8192 + 1 * p.val; omega
    | ⟨1, _⟩ => show win6_1.index t (1 : Fin 2) * 1 + 1 * 0 = 0; omega
  rw [hx, hw]
  rfl

/-- An index of the array lies in point t's block iff each coordinate lies in the block's range on its axis. -/
theorem mem_block6 (t : Fin cfg6.N) (i : S2301952x64.Idx) :
    i ∈ ((cfg6.win 2).blk t).view.set ↔ ∀ a : Fin 2, win6_2.index t a * S8192x64.size a ≤ (i a).val
      ∧ (i a).val < win6_2.index t a * S8192x64.size a + S8192x64.size a := by
  show i ∈ ((View.whole main_v75).slice (win6_2.rect t)).set ↔ _
  rw [View.set_slice_whole, Rect.mem_set_unit]
  exact Iff.rfl

/-- The 281 blocks of 8192 rows tile the 2301952 rows: row r lies in block r / 8192. -/
theorem blocks_tile_rows6 (i : S2301952x64.Idx) :
    ∃ t : Fin cfg6.N, (cfg6.win 2).flush t = true ∧ i ∈ ((cfg6.win 2).blk t).view.set := by
  have hi0 : (i 0).val < 2301952 := (i 0).isLt
  have hi1 : (i 1).val < 64 := (i 1).isLt
  obtain ⟨t, ht⟩ : ∃ t : Fin cfg6.N, t.val = (i 0).val / 8192 := ⟨⟨(i 0).val / 8192, by show _ < 281; omega⟩, rfl⟩
  obtain ⟨-, -, -, -, e20, e21⟩ := windows_on_block6 t
  refine ⟨t, flush6_2 t, ?_⟩
  rw [mem_block6]
  intro a
  match a with
  | ⟨0, _⟩ => show win6_2.index t (0 : Fin 2) * 8192 ≤ (i 0).val ∧ (i 0).val < win6_2.index t (0 : Fin 2) * 8192 + 8192; omega
  | ⟨1, _⟩ => show win6_2.index t (1 : Fin 2) * 64 ≤ (i 1).val ∧ (i 1).val < win6_2.index t (1 : Fin 2) * 64 + 64; omega

/-- Region 6's output array after its run: the rows of main_v74, each scaled by its weight. -/
theorem final6 (c : Dev nD) :
    (GenP.dat6 (F := Ideal) V c).arrAt 2 cfg6.N = Cert.Diffuse.K.scaleRows (V c main_v74) (V c main_v31) :=
  (GenP.dat6 V c).arrAt_eq_of_cover 2 _ (fun t _ => written_block6 V c t) blocks_tile_rows6

end Cert.KernelIdeal.RegionValues

end
-- ==== Proof.RegionCombine.lean ====
/-
  The output array of each of the four combining regions (1, 3, 5, 7), as one function of the arrays the region finds.

  A combining region walks 150 blocks of 2000 rows of two 300000 x 64 arrays. At block t it writes back
  a * f32(0.9) + x * f32(0.1), entry by entry, of the two blocks. The blocks tile the rows, so after the region the
  whole output array is Diffuse.K.combineRows of the two input arrays.
-/
import proofs.«105508_j38800734552802_2_alg».proof.Proof.FrameKernelIdeal
import proofs.«105508_j38800734552802_2_alg».proof.Proof.Steps
import Idealize.ShloMosaic.Lib.Pipeline.Value

noncomputable section

namespace Cert.KernelIdeal.RegionValues

open Cert.KernelIdeal Cert.KernelIdeal.Gen Idealize.ShloMosaic Idealize.ShloMosaic.TcCoe Idealize.SL.Sem
open Idealize.ShloMosaic.Pipeline (Dat)
open Idealize.ShloMosaic.ValueIdx

-- the buffer contents when a region is entered
variable (V : (c : Dev nD) → (b : Ref sig .tc) → Buf (Elt Ideal) ((c : Thread nD τ).loc b))

/-- A block's origin inside its staging buffer is the zero index. -/
private theorem origin_zero : (![0, 0] : Fin 2 → Nat) = fun _ => 0 := funext fun a => by fin_cases a <;> rfl

/-! ## Region 1: 0.9 of main_v42 plus 0.1 of main_arg0 -/

-- the arrays the three windows stage: the summed rows, the initial features, the combination
example : Pipeline.arrRef spec1 0 = main_v42 := rfl
example : Pipeline.arrRef spec1 1 = main_arg0 := rfl
example : Pipeline.arrRef spec1 2 = main_v43 := rfl

/-- The body's stored value at an entry of a block: f32(0.9) times the first block's entry plus f32(0.1) times the second's. -/
theorem combine_entry1 (x0 x1 : Vec Ideal S2000x64 .f32) (j : S2000x64.Idx) :
    k1_pay1 x0 x1 j = FloatOps.addf (FloatOps.mulf (x0 j) (Scalar.ofBits .f32 0x3F666666#32))
      (FloatOps.mulf (x1 j) (Scalar.ofBits .f32 0x3DCCCCCD#32)) := by
  unfold k1_pay1
  simp only [shapeCast_self]
  rfl

/-- The three windows move together: at grid point t each is on block t of the rows and block 0 of the lanes. -/
theorem windows_on_block1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What grid point t writes back is block t of the combination of the two input arrays: the three blocks sit at the
    same rows. -/
theorem written_block1 (c : Dev nD) (t : Fin cfg1.N) :
    (GenP.dat1 (F := Ideal) V c).flushed 2 t
      = ((cfg1.win 2).blk t).view.read (Elt Ideal) (Cert.Diffuse.K.combineRows (V c main_v42) (V c main_arg0)) := by
  show (cfg1.win 2).cut (grid1.coords t) ((GenP.dat1 V c).after 2 t) = _
  rw [GenP.after1_2]
  unfold GenP.out1_2
  rw [View.canon_unit_zero origin_zero]
  simp only [View.ld_unit_zero (S := S2000x64) origin_zero]
  obtain ⟨e00, e01, e10, e11, e20, e21⟩ := windows_on_block1 t
  funext j
  obtain ⟨p, q, rfl⟩ : ∃ (p : Fin 2000) (q : Fin 64), j = ix2 p q := ⟨j 0, j 1, eq_ix2 j⟩
  show k1_pay1 (GenP.iblk1 V c 0 t) (GenP.iblk1 V c 1 t) (ix2 p q)
    = Cert.Diffuse.K.combineRows (V c main_v42) (V c main_arg0) (((cfg1.win 2).blk t).view.emb (ix2 p q))
  refine (combine_entry1 _ _ (ix2 p q)).trans ?_
  show FloatOps.addf (FloatOps.mulf (V c main_v42 (((cfg1.win 0).blk t).view.emb (ix2 p q))) (Scalar.ofBits .f32 0x3F666666#32))
      (FloatOps.mulf (V c main_arg0 (((cfg1.win 1).blk t).view.emb (ix2 p q))) (Scalar.ofBits .f32 0x3DCCCCCD#32))
    = Cert.Diffuse.K.combineRows (V c main_v42) (V c main_arg0) (((cfg1.win 2).blk t).view.emb (ix2 p q))
  have ha : ((cfg1.win 0).blk t).view.emb (ix2 p q) = ((cfg1.win 2).blk t).view.emb (ix2 p q) := by
    funext a; apply Fin.ext
    match a with
    | ⟨0, _⟩ => show win1_0.index t (0 : Fin 2) * 2000 + 1 * p.val = win1_2.index t (0 : Fin 2) * 2000 + 1 * p.val; omega
    | ⟨1, _⟩ => show win1_0.index t (1 : Fin 2) * 64 + 1 * q.val = win1_2.index t (1 : Fin 2) * 64 + 1 * q.val; omega
  have hx : ((cfg1.win 1).blk t).view.emb (ix2 p q) = ((cfg1.win 2).blk t).view.emb (ix2 p q) := by
    funext a; apply Fin.ext
    match a with
    | ⟨0, _⟩ => show win1_1.index t (0 : Fin 2) * 2000 + 1 * p.val = win1_2.index t (0 : Fin 2) * 2000 + 1 * p.val; omega
    | ⟨1, _⟩ => show win1_1.index t (1 : Fin 2) * 64 + 1 * q.val = win1_2.index t (1 : Fin 2) * 64 + 1 * q.val; omega
  rw [ha, hx]
  rfl

/-- An index of the array lies in point t's block iff each coordinate lies in the block's range on its axis. -/
theorem mem_block1 (t : Fin cfg1.N) (i : S300000x64.Idx) :
    i ∈ ((cfg1.win 2).blk t).view.set ↔ ∀ a : Fin 2, win1_2.index t a * S2000x64.size a ≤ (i a).val
      ∧ (i a).val < win1_2.index t a * S2000x64.size a + S2000x64.size a := by
  show i ∈ ((View.whole main_v43).slice (win1_2.rect t)).set ↔ _
  rw [View.set_slice_whole, Rect.mem_set_unit]
  exact Iff.rfl

/-- The 150 blocks of 2000 rows tile the 300000 rows: row r lies in block r / 2000. -/
theorem blocks_tile_rows1 (i : S300000x64.Idx) :
    ∃ t : Fin cfg1.N, (cfg1.win 2).flush t = true ∧ i ∈ ((cfg1.win 2).blk t).view.set := by
  have hi0 : (i 0).val < 300000 := (i 0).isLt
  have hi1 : (i 1).val < 64 := (i 1).isLt
  obtain ⟨t, ht⟩ : ∃ t : Fin cfg1.N, t.val = (i 0).val / 2000 := ⟨⟨(i 0).val / 2000, by show _ < 150; omega⟩, rfl⟩
  obtain ⟨-, -, -, -, e20, e21⟩ := windows_on_block1 t
  refine ⟨t, flush1_2 t, ?_⟩
  rw [mem_block1]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 64 ≤ (i 1).val ∧ (i 1).val < win1_2.index t (1 : Fin 2) * 64 + 64; omega

/-- Region 1's output array after its run: f32(0.9) of main_v42 plus f32(0.1) of main_arg0, entry by entry. -/
theorem final1 (c : Dev nD) :
    (GenP.dat1 (F := Ideal) V c).arrAt 2 cfg1.N = Cert.Diffuse.K.combineRows (V c main_v42) (V c main_arg0) :=
  (GenP.dat1 V c).arrAt_eq_of_cover 2 _ (fun t _ => written_block1 V c t) blocks_tile_rows1

/-! ## Region 3: 0.9 of main_v54 plus 0.1 of main_arg0 -/

-- the arrays the three windows stage: the summed rows, the initial features, the combination
example : Pipeline.arrRef spec3 0 = main_v54 := rfl
example : Pipeline.arrRef spec3 1 = main_arg0 := rfl
example : Pipeline.arrRef spec3 2 = main_v55 := rfl

/-- The body's stored value at an entry of a block: f32(0.9) times the first block's entry plus f32(0.1) times the second's. -/
theorem combine_entry3 (x0 x1 : Vec Ideal S2000x64 .f32) (j : S2000x64.Idx) :
    k3_pay1 x0 x1 j = FloatOps.addf (FloatOps.mulf (x0 j) (Scalar.ofBits .f32 0x3F666666#32))
      (FloatOps.mulf (x1 j) (Scalar.ofBits .f32 0x3DCCCCCD#32)) := by
  unfold k3_pay1
  simp only [shapeCast_self]
  rfl

/-- The three windows move together: at grid point t each is on block t of the rows and block 0 of the lanes. -/
theorem windows_on_block3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- What grid point t writes back is block t of the combination of the two input arrays: the three blocks sit at the
    same rows. -/
theorem written_block3 (c : Dev nD) (t : Fin cfg3.N) :
    (GenP.dat3 (F := Ideal) V c).flushed 2 t
      = ((cfg3.win 2).blk t).view.read (Elt Ideal) (Cert.Diffuse.K.combineRows (V c main_v54) (V c main_arg0)) := by
  show (cfg3.win 2).cut (grid3.coords t) ((GenP.dat3 V c).after 2 t) = _
  rw [GenP.after3_2]
  unfold GenP.out3_2
  rw [View.canon_unit_zero origin_zero]
  simp only [View.ld_unit_zero (S := S2000x64) origin_zero]
  obtain ⟨e00, e01, e10, e11, e20, e21⟩ := windows_on_block3 t
  funext j
  obtain ⟨p, q, rfl⟩ : ∃ (p : Fin 2000) (q : Fin 64), j = ix2 p q := ⟨j 0, j 1, eq_ix2 j⟩
  show k3_pay1 (GenP.iblk3 V c 0 t) (GenP.iblk3 V c 1 t) (ix2 p q)
    = Cert.Diffuse.K.combineRows (V c main_v54) (V c main_arg0) (((cfg3.win 2).blk t).view.emb (ix2 p q))
  refine (combine_entry3 _ _ (ix2 p q)).trans ?_
  show FloatOps.addf (FloatOps.mulf (V c main_v54 (((cfg3.win 0).blk t).view.emb (ix2 p q))) (Scalar.ofBits .f32 0x3F666666#32))
      (FloatOps.mulf (V c main_arg0 (((cfg3.win 1).blk t).view.emb (ix2 p q))) (Scalar.ofBits .f32 0x3DCCCCCD#32))
    = Cert.Diffuse.K.combineRows (V c main_v54) (V c main_arg0) (((cfg3.win 2).blk t).view.emb (ix2 p q))
  have ha : ((cfg3.win 0).blk t).view.emb (ix2 p q) = ((cfg3.win 2).blk t).view.emb (ix2 p q) := by
    funext a; apply Fin.ext
    match a with
    | ⟨0, _⟩ => show win3_0.index t (0 : Fin 2) * 2000 + 1 * p.val = win3_2.index t (0 : Fin 2) * 2000 + 1 * p.val; omega
    | ⟨1, _⟩ => show win3_0.index t (1 : Fin 2) * 64 + 1 * q.val = win3_2.index t (1 : Fin 2) * 64 + 1 * q.val; omega
  have hx : ((cfg3.win 1).blk t).view.emb (ix2 p q) = ((cfg3.win 2).blk t).view.emb (ix2 p q) := by
    funext a; apply Fin.ext
    match a with
    | ⟨0, _⟩ => show win3_1.index t (0 : Fin 2) * 2000 + 1 * p.val = win3_2.index t (0 : Fin 2) * 2000 + 1 * p.val; omega
    | ⟨1, _⟩ => show win3_1.index t (1 : Fin 2) * 64 + 1 * q.val = win3_2.index t (1 : Fin 2) * 64 + 1 * q.val; omega
  rw [ha, hx]
  rfl

/-- An index of the array lies in point t's block iff each coordinate lies in the block's range on its axis. -/
theorem mem_block3 (t : Fin cfg3.N) (i : S300000x64.Idx) :
    i ∈ ((cfg3.win 2).blk t).view.set ↔ ∀ a : Fin 2, win3_2.index t a * S2000x64.size a ≤ (i a).val
      ∧ (i a).val < win3_2.index t a * S2000x64.size a + S2000x64.size a := by
  show i ∈ ((View.whole main_v55).slice (win3_2.rect t)).set ↔ _
  rw [View.set_slice_whole, Rect.mem_set_unit]
  exact Iff.rfl

/-- The 150 blocks of 2000 rows tile the 300000 rows: row r lies in block r / 2000. -/
theorem blocks_tile_rows3 (i : S300000x64.Idx) :
    ∃ t : Fin cfg3.N, (cfg3.win 2).flush t = true ∧ i ∈ ((cfg3.win 2).blk t).view.set := by
  have hi0 : (i 0).val < 300000 := (i 0).isLt
  have hi1 : (i 1).val < 64 := (i 1).isLt
  obtain ⟨t, ht⟩ : ∃ t : Fin cfg3.N, t.val = (i 0).val / 2000 := ⟨⟨(i 0).val / 2000, by show _ < 150; omega⟩, rfl⟩
  obtain ⟨-, -, -, -, e20, e21⟩ := windows_on_block3 t
  refine ⟨t, flush3_2 t, ?_⟩
  rw [mem_block3]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 64 ≤ (i 1).val ∧ (i 1).val < win3_2.index t (1 : Fin 2) * 64 + 64; omega

/-- Region 3's output array after its run: f32(0.9) of main_v54 plus f32(0.1) of main_arg0, entry by entry. -/
theorem final3 (c : Dev nD) :
    (GenP.dat3 (F := Ideal) V c).arrAt 2 cfg3.N = Cert.Diffuse.K.combineRows (V c main_v54) (V c main_arg0) :=
  (GenP.dat3 V c).arrAt_eq_of_cover 2 _ (fun t _ => written_block3 V c t) blocks_tile_rows3

/-! ## Region 5: 0.9 of main_v66 plus 0.1 of main_arg0 -/

-- the arrays the three windows stage: the summed rows, the initial features, the combination
example : Pipeline.arrRef spec5 0 = main_v66 := rfl
example : Pipeline.arrRef spec5 1 = main_arg0 := rfl
example : Pipeline.arrRef spec5 2 = main_v67 := rfl

/-- The body's stored value at an entry of a block: f32(0.9) times the first block's entry plus f32(0.1) times the second's. -/
theorem combine_entry5 (x0 x1 : Vec Ideal S2000x64 .f32) (j : S2000x64.Idx) :
    k5_pay1 x0 x1 j = FloatOps.addf (FloatOps.mulf (x0 j) (Scalar.ofBits .f32 0x3F666666#32))
      (FloatOps.mulf (x1 j) (Scalar.ofBits .f32 0x3DCCCCCD#32)) := by
  unfold k5_pay1
  simp only [shapeCast_self]
  rfl

/-- The three windows move together: at grid point t each is on block t of the rows and block 0 of the lanes. -/
theorem windows_on_block5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0 :=
  (by decide +kernel : ∀ t : Fin grid5.N, _)

/-- What grid point t writes back is block t of the combination of the two input arrays: the three blocks sit at the
    same rows. -/
theorem written_block5 (c : Dev nD) (t : Fin cfg5.N) :
    (GenP.dat5 (F := Ideal) V c).flushed 2 t
      = ((cfg5.win 2).blk t).view.read (Elt Ideal) (Cert.Diffuse.K.combineRows (V c main_v66) (V c main_arg0)) := by
  show (cfg5.win 2).cut (grid5.coords t) ((GenP.dat5 V c).after 2 t) = _
  rw [GenP.after5_2]
  unfold GenP.out5_2
  rw [View.canon_unit_zero origin_zero]
  simp only [View.ld_unit_zero (S := S2000x64) origin_zero]
  obtain ⟨e00, e01, e10, e11, e20, e21⟩ := windows_on_block5 t
  funext j
  obtain ⟨p, q, rfl⟩ : ∃ (p : Fin 2000) (q : Fin 64), j = ix2 p q := ⟨j 0, j 1, eq_ix2 j⟩
  show k5_pay1 (GenP.iblk5 V c 0 t) (GenP.iblk5 V c 1 t) (ix2 p q)
    = Cert.Diffuse.K.combineRows (V c main_v66) (V c main_arg0) (((cfg5.win 2).blk t).view.emb (ix2 p q))
  refine (combine_entry5 _ _ (ix2 p q)).trans ?_
  show FloatOps.addf (FloatOps.mulf (V c main_v66 (((cfg5.win 0).blk t).view.emb (ix2 p q))) (Scalar.ofBits .f32 0x3F666666#32))
      (FloatOps.mulf (V c main_arg0 (((cfg5.win 1).blk t).view.emb (ix2 p q))) (Scalar.ofBits .f32 0x3DCCCCCD#32))
    = Cert.Diffuse.K.combineRows (V c main_v66) (V c main_arg0) (((cfg5.win 2).blk t).view.emb (ix2 p q))
  have ha : ((cfg5.win 0).blk t).view.emb (ix2 p q) = ((cfg5.win 2).blk t).view.emb (ix2 p q) := by
    funext a; apply Fin.ext
    match a with
    | ⟨0, _⟩ => show win5_0.index t (0 : Fin 2) * 2000 + 1 * p.val = win5_2.index t (0 : Fin 2) * 2000 + 1 * p.val; omega
    | ⟨1, _⟩ => show win5_0.index t (1 : Fin 2) * 64 + 1 * q.val = win5_2.index t (1 : Fin 2) * 64 + 1 * q.val; omega
  have hx : ((cfg5.win 1).blk t).view.emb (ix2 p q) = ((cfg5.win 2).blk t).view.emb (ix2 p q) := by
    funext a; apply Fin.ext
    match a with
    | ⟨0, _⟩ => show win5_1.index t (0 : Fin 2) * 2000 + 1 * p.val = win5_2.index t (0 : Fin 2) * 2000 + 1 * p.val; omega
    | ⟨1, _⟩ => show win5_1.index t (1 : Fin 2) * 64 + 1 * q.val = win5_2.index t (1 : Fin 2) * 64 + 1 * q.val; omega
  rw [ha, hx]
  rfl

/-- An index of the array lies in point t's block iff each coordinate lies in the block's range on its axis. -/
theorem mem_block5 (t : Fin cfg5.N) (i : S300000x64.Idx) :
    i ∈ ((cfg5.win 2).blk t).view.set ↔ ∀ a : Fin 2, win5_2.index t a * S2000x64.size a ≤ (i a).val
      ∧ (i a).val < win5_2.index t a * S2000x64.size a + S2000x64.size a := by
  show i ∈ ((View.whole main_v67).slice (win5_2.rect t)).set ↔ _
  rw [View.set_slice_whole, Rect.mem_set_unit]
  exact Iff.rfl

/-- The 150 blocks of 2000 rows tile the 300000 rows: row r lies in block r / 2000. -/
theorem blocks_tile_rows5 (i : S300000x64.Idx) :
    ∃ t : Fin cfg5.N, (cfg5.win 2).flush t = true ∧ i ∈ ((cfg5.win 2).blk t).view.set := by
  have hi0 : (i 0).val < 300000 := (i 0).isLt
  have hi1 : (i 1).val < 64 := (i 1).isLt
  obtain ⟨t, ht⟩ : ∃ t : Fin cfg5.N, t.val = (i 0).val / 2000 := ⟨⟨(i 0).val / 2000, by show _ < 150; omega⟩, rfl⟩
  obtain ⟨-, -, -, -, e20, e21⟩ := windows_on_block5 t
  refine ⟨t, flush5_2 t, ?_⟩
  rw [mem_block5]
  intro a
  match a with
  | ⟨0, _⟩ => show win5_2.index t (0 : Fin 2) * 2000 ≤ (i 0).val ∧ (i 0).val < win5_2.index t (0 : Fin 2) * 2000 + 2000; omega
  | ⟨1, _⟩ => show win5_2.index t (1 : Fin 2) * 64 ≤ (i 1).val ∧ (i 1).val < win5_2.index t (1 : Fin 2) * 64 + 64; omega

/-- Region 5's output array after its run: f32(0.9) of main_v66 plus f32(0.1) of main_arg0, entry by entry. -/
theorem final5 (c : Dev nD) :
    (GenP.dat5 (F := Ideal) V c).arrAt 2 cfg5.N = Cert.Diffuse.K.combineRows (V c main_v66) (V c main_arg0) :=
  (GenP.dat5 V c).arrAt_eq_of_cover 2 _ (fun t _ => written_block5 V c t) blocks_tile_rows5

/-! ## Region 7: 0.9 of main_v78 plus 0.1 of main_arg0 -/

-- the arrays the three windows stage: the summed rows, the initial features, the combination
example : Pipeline.arrRef spec7 0 = main_v78 := rfl
example : Pipeline.arrRef spec7 1 = main_arg0 := rfl
example : Pipeline.arrRef spec7 2 = main_v79 := rfl

/-- The body's stored value at an entry of a block: f32(0.9) times the first block's entry plus f32(0.1) times the second's. -/
theorem combine_entry7 (x0 x1 : Vec Ideal S2000x64 .f32) (j : S2000x64.Idx) :
    k7_pay1 x0 x1 j = FloatOps.addf (FloatOps.mulf (x0 j) (Scalar.ofBits .f32 0x3F666666#32))
      (FloatOps.mulf (x1 j) (Scalar.ofBits .f32 0x3DCCCCCD#32)) := by
  unfold k7_pay1
  simp only [shapeCast_self]
  rfl

/-- The three windows move together: at grid point t each is on block t of the rows and block 0 of the lanes. -/
theorem windows_on_block7 : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0 :=
  (by decide +kernel : ∀ t : Fin grid7.N, _)

/-- What grid point t writes back is block t of the combination of the two input arrays: the three blocks sit at the
    same rows. -/
theorem written_block7 (c : Dev nD) (t : Fin cfg7.N) :
    (GenP.dat7 (F := Ideal) V c).flushed 2 t
      = ((cfg7.win 2).blk t).view.read (Elt Ideal) (Cert.Diffuse.K.combineRows (V c main_v78) (V c main_arg0)) := by
  show (cfg7.win 2).cut (grid7.coords t) ((GenP.dat7 V c).after 2 t) = _
  rw [GenP.after7_2]
  unfold GenP.out7_2
  rw [View.canon_unit_zero origin_zero]
  simp only [View.ld_unit_zero (S := S2000x64) origin_zero]
  obtain ⟨e00, e01, e10, e11, e20, e21⟩ := windows_on_block7 t
  funext j
  obtain ⟨p, q, rfl⟩ : ∃ (p : Fin 2000) (q : Fin 64), j = ix2 p q := ⟨j 0, j 1, eq_ix2 j⟩
  show k7_pay1 (GenP.iblk7 V c 0 t) (GenP.iblk7 V c 1 t) (ix2 p q)
    = Cert.Diffuse.K.combineRows (V c main_v78) (V c main_arg0) (((cfg7.win 2).blk t).view.emb (ix2 p q))
  refine (combine_entry7 _ _ (ix2 p q)).trans ?_
  show FloatOps.addf (FloatOps.mulf (V c main_v78 (((cfg7.win 0).blk t).view.emb (ix2 p q))) (Scalar.ofBits .f32 0x3F666666#32))
      (FloatOps.mulf (V c main_arg0 (((cfg7.win 1).blk t).view.emb (ix2 p q))) (Scalar.ofBits .f32 0x3DCCCCCD#32))
    = Cert.Diffuse.K.combineRows (V c main_v78) (V c main_arg0) (((cfg7.win 2).blk t).view.emb (ix2 p q))
  have ha : ((cfg7.win 0).blk t).view.emb (ix2 p q) = ((cfg7.win 2).blk t).view.emb (ix2 p q) := by
    funext a; apply Fin.ext
    match a with
    | ⟨0, _⟩ => show win7_0.index t (0 : Fin 2) * 2000 + 1 * p.val = win7_2.index t (0 : Fin 2) * 2000 + 1 * p.val; omega
    | ⟨1, _⟩ => show win7_0.index t (1 : Fin 2) * 64 + 1 * q.val = win7_2.index t (1 : Fin 2) * 64 + 1 * q.val; omega
  have hx : ((cfg7.win 1).blk t).view.emb (ix2 p q) = ((cfg7.win 2).blk t).view.emb (ix2 p q) := by
    funext a; apply Fin.ext
    match a with
    | ⟨0, _⟩ => show win7_1.index t (0 : Fin 2) * 2000 + 1 * p.val = win7_2.index t (0 : Fin 2) * 2000 + 1 * p.val; omega
    | ⟨1, _⟩ => show win7_1.index t (1 : Fin 2) * 64 + 1 * q.val = win7_2.index t (1 : Fin 2) * 64 + 1 * q.val; omega
  rw [ha, hx]
  rfl

/-- An index of the array lies in point t's block iff each coordinate lies in the block's range on its axis. -/
theorem mem_block7 (t : Fin cfg7.N) (i : S300000x64.Idx) :
    i ∈ ((cfg7.win 2).blk t).view.set ↔ ∀ a : Fin 2, win7_2.index t a * S2000x64.size a ≤ (i a).val
      ∧ (i a).val < win7_2.index t a * S2000x64.size a + S2000x64.size a := by
  show i ∈ ((View.whole main_v79).slice (win7_2.rect t)).set ↔ _
  rw [View.set_slice_whole, Rect.mem_set_unit]
  exact Iff.rfl

/-- The 150 blocks of 2000 rows tile the 300000 rows: row r lies in block r / 2000. -/
theorem blocks_tile_rows7 (i : S300000x64.Idx) :
    ∃ t : Fin cfg7.N, (cfg7.win 2).flush t = true ∧ i ∈ ((cfg7.win 2).blk t).view.set := by
  have hi0 : (i 0).val < 300000 := (i 0).isLt
  have hi1 : (i 1).val < 64 := (i 1).isLt
  obtain ⟨t, ht⟩ : ∃ t : Fin cfg7.N, t.val = (i 0).val / 2000 := ⟨⟨(i 0).val / 2000, by show _ < 150; omega⟩, rfl⟩
  obtain ⟨-, -, -, -, e20, e21⟩ := windows_on_block7 t
  refine ⟨t, flush7_2 t, ?_⟩
  rw [mem_block7]
  intro a
  match a with
  | ⟨0, _⟩ => show win7_2.index t (0 : Fin 2) * 2000 ≤ (i 0).val ∧ (i 0).val < win7_2.index t (0 : Fin 2) * 2000 + 2000; omega
  | ⟨1, _⟩ => show win7_2.index t (1 : Fin 2) * 64 ≤ (i 1).val ∧ (i 1).val < win7_2.index t (1 : Fin 2) * 64 + 64; omega

/-- Region 7's output array after its run: f32(0.9) of main_v78 plus f32(0.1) of main_arg0, entry by entry. -/
theorem final7 (c : Dev nD) :
    (GenP.dat7 (F := Ideal) V c).arrAt 2 cfg7.N = Cert.Diffuse.K.combineRows (V c main_v78) (V c main_arg0) :=
  (GenP.dat7 V c).arrAt_eq_of_cover 2 _ (fun t _ => written_block7 V c t) blocks_tile_rows7

end Cert.KernelIdeal.RegionValues

end
-- ==== Proof.KernelChain.lean ====
/-
  The kernel's program, boundary by boundary, is four diffusion steps from the features argument.

  One step crosses four boundaries: a host gather of the current features' rows at the wrapped source indices, the
  scaling region (each gathered row times its edge's weight), a host sum of the scaled rows into their destination rows
  from zero, and the combining region (0.9 of the sum plus 0.1 of the features argument). The index vectors, the weight
  column and the features argument read the same at every boundary. After the fourth step the result is divided by the
  f32 word of 1.
-/
import proofs.«105508_j38800734552802_2_alg».proof.Proof.KernelKeep
import proofs.«105508_j38800734552802_2_alg».proof.Proof.KernelHost
import proofs.«105508_j38800734552802_2_alg».proof.Proof.KernelEntry
import proofs.«105508_j38800734552802_2_alg».proof.Proof.RegionScale
import proofs.«105508_j38800734552802_2_alg».proof.Proof.RegionCombine

noncomputable section

namespace Cert.KernelIdeal.RunV

open Idealize.ShloMosaic Idealize.ShloMosaic.TcCoe Idealize.SL.Sem
open Cert.KernelIdeal Cert.KernelIdeal.Gen Cert.Diffuse

/-- One step from its four parts: the gather g of h's rows, the scaled rows s, their sum a into the destination rows,
    and the mix r with the features argument, each part read where the program keeps it. -/
theorem step_of (X h h' x' : FVec Ideal S300000x64 .f32) (sP dP s' d' : IVec S2301952 32) (wP w' : FVec Ideal S2301952x1 .f32)
    (g s : FVec Ideal S2301952x64 .f32) (a r : FVec Ideal S300000x64 .f32)
    (hg : g = Host.gather gather_S300000x64_S2301952x1_S2301952x64_1_0_n_n_0_1_164 h' (K.wrapCol s')) (hh : h' = h) (hs' : s' = sP)
    (hs : s = K.scaleRows g w') (hw : w' = wP)
    (ha : a = Host.scatterAdd scatter_S300000x64_S2301952x1_S2301952x64_1_0_0_1 K.zeros
        (broadcastInDim S2301952x1 ![0] Facts₀.bcast_S2301952_S2301952x1_0 d') s) (hd : d' = dP)
    (hr : r = K.combineRows a x') (hx : x' = X) :
    r = K.step X sP dP wP h := by
  subst hg hh hs' hs hw ha hd hr hx
  rfl

variable (m : (ℓ : Loc nD τ sig) → Buf (Elt Ideal) ℓ) (ρ : Dev nD → PrngReg)

/-- After step 1: the combining region's output array at boundary 4. -/
theorem step_1 (c : Dev nD) : ((GenP.W4 m ρ c (Proc.devRef .tc main_v43)) : FVec Ideal S300000x64 .f32) = (K.step (m ((c.tc : Thread nD τ).loc main_arg0)) (K.padI (K.src (m ((c.tc : Thread nD τ).loc main_arg1)) (m ((c.tc : Thread nD τ).loc main_arg2)))) (K.padI (K.dst (m ((c.tc : Thread nD τ).loc main_arg1)) (m ((c.tc : Thread nD τ).loc main_arg2)))) (K.padW (K.wts (m ((c.tc : Thread nD τ).loc main_arg1)) (m ((c.tc : Thread nD τ).loc main_arg2)))) (m ((c.tc : Thread nD τ).loc main_arg0))) :=
  step_of _ _ _ _ _ _ _ _ _ _ (GenP.W1 m ρ c (Proc.devRef .tc main_v38)) (GenP.W2 m ρ c (Proc.devRef .tc main_v39)) (GenP.W3 m ρ c (Proc.devRef .tc main_v42)) _
    (entry_v38 m ρ c) rfl rfl
    ((GenP.W2_arr m ρ c 2).trans (RegionValues.final0 (GenP.V1 m ρ) c)) ((at_v31_1 m ρ c).trans (entry_v31 m ρ c))
    (scat_3 m ρ c) ((at_v29_2 m ρ c).trans (entry_v29 m ρ c))
    ((GenP.W4_arr m ρ c 2).trans (RegionValues.final1 (GenP.V3 m ρ) c)) ((at_arg0_3 m ρ c).trans (entry_arg0 m ρ c))

/-- After step 2: the combining region's output array at boundary 8. -/
theorem step_2 (c : Dev nD) : ((GenP.W8 m ρ c (Proc.devRef .tc main_v55)) : FVec Ideal S300000x64 .f32) = (K.step (m ((c.tc : Thread nD τ).loc main_arg0)) (K.padI (K.src (m ((c.tc : Thread nD τ).loc main_arg1)) (m ((c.tc : Thread nD τ).loc main_arg2)))) (K.padI (K.dst (m ((c.tc : Thread nD τ).loc main_arg1)) (m ((c.tc : Thread nD τ).loc main_arg2)))) (K.padW (K.wts (m ((c.tc : Thread nD τ).loc main_arg1)) (m ((c.tc : Thread nD τ).loc main_arg2)))) (K.step (m ((c.tc : Thread nD τ).loc main_arg0)) (K.padI (K.src (m ((c.tc : Thread nD τ).loc main_arg1)) (m ((c.tc : Thread nD τ).loc main_arg2)))) (K.padI (K.dst (m ((c.tc : Thread nD τ).loc main_arg1)) (m ((c.tc : Thread nD τ).loc main_arg2)))) (K.padW (K.wts (m ((c.tc : Thread nD τ).loc main_arg1)) (m ((c.tc : Thread nD τ).loc main_arg2)))) (m ((c.tc : Thread nD τ).loc main_arg0)))) :=
  step_of _ _ _ _ _ _ _ _ _ _ (GenP.W5 m ρ c (Proc.devRef .tc main_v50)) (GenP.W6 m ρ c (Proc.devRef .tc main_v51)) (GenP.W7 m ρ c (Proc.devRef .tc main_v54)) _
    (gath_5 m ρ c) (step_1 m ρ c) ((at_v28_4 m ρ c).trans (entry_v28 m ρ c))
    ((GenP.W6_arr m ρ c 2).trans (RegionValues.final2 (GenP.V5 m ρ) c)) ((at_v31_5 m ρ c).trans (entry_v31 m ρ c))
    (scat_7 m ρ c) ((at_v29_6 m ρ c).trans (entry_v29 m ρ c))
    ((GenP.W8_arr m ρ c 2).trans (RegionValues.final3 (GenP.V7 m ρ) c)) ((at_arg0_7 m ρ c).trans (entry_arg0 m ρ c))

/-- After step 3: the combining region's output array at boundary 12. -/
theorem step_3 (c : Dev nD) : ((GenP.W12 m ρ c (Proc.devRef .tc main_v67)) : FVec Ideal S300000x64 .f32) = (K.step (m ((c.tc : Thread nD τ).loc main_arg0)) (K.padI (K.src (m ((c.tc : Thread nD τ).loc main_arg1)) (m ((c.tc : Thread nD τ).loc main_arg2)))) (K.padI (K.dst (m ((c.tc : Thread nD τ).loc main_arg1)) (m ((c.tc : Thread nD τ).loc main_arg2)))) (K.padW (K.wts (m ((c.tc : Thread nD τ).loc main_arg1)) (m ((c.tc : Thread nD τ).loc main_arg2)))) (K.step (m ((c.tc : Thread nD τ).loc main_arg0)) (K.padI (K.src (m ((c.tc : Thread nD τ).loc main_arg1)) (m ((c.tc : Thread nD τ).loc main_arg2)))) (K.padI (K.dst (m ((c.tc : Thread nD τ).loc main_arg1)) (m ((c.tc : Thread nD τ).loc main_arg2)))) (K.padW (K.wts (m ((c.tc : Thread nD τ).loc main_arg1)) (m ((c.tc : Thread nD τ).loc main_arg2)))) (K.step (m ((c.tc : Thread nD τ).loc main_arg0)) (K.padI (K.src (m ((c.tc : Thread nD τ).loc main_arg1)) (m ((c.tc : Thread nD τ).loc main_arg2)))) (K.padI (K.dst (m ((c.tc : Thread nD τ).loc main_arg1)) (m ((c.tc : Thread nD τ).loc main_arg2)))) (K.padW (K.wts (m ((c.tc : Thread nD τ).loc main_arg1)) (m ((c.tc : Thread nD τ).loc main_arg2)))) (m ((c.tc : Thread nD τ).loc main_arg0))))) :=
  step_of _ _ _ _ _ _ _ _ _ _ (GenP.W9 m ρ c (Proc.devRef .tc main_v62)) (GenP.W10 m ρ c (Proc.devRef .tc main_v63)) (GenP.W11 m ρ c (Proc.devRef .tc main_v66)) _
    (gath_9 m ρ c) (step_2 m ρ c) ((at_v28_8 m ρ c).trans (entry_v28 m ρ c))
    ((GenP.W10_arr m ρ c 2).trans (RegionValues.final4 (GenP.V9 m ρ) c)) ((at_v31_9 m ρ c).trans (entry_v31 m ρ c))
    (scat_11 m ρ c) ((at_v29_10 m ρ c).trans (entry_v29 m ρ c))
    ((GenP.W12_arr m ρ c 2).trans (RegionValues.final5 (GenP.V11 m ρ) c)) ((at_arg0_11 m ρ c).trans (entry_arg0 m ρ c))

/-- After step 4: the combining region's output array at boundary 16. -/
theorem step_4 (c : Dev nD) : ((GenP.W16 m ρ c (Proc.devRef .tc main_v79)) : FVec Ideal S300000x64 .f32) = (K.step (m ((c.tc : Thread nD τ).loc main_arg0)) (K.padI (K.src (m ((c.tc : Thread nD τ).loc main_arg1)) (m ((c.tc : Thread nD τ).loc main_arg2)))) (K.padI (K.dst (m ((c.tc : Thread nD τ).loc main_arg1)) (m ((c.tc : Thread nD τ).loc main_arg2)))) (K.padW (K.wts (m ((c.tc : Thread nD τ).loc main_arg1)) (m ((c.tc : Thread nD τ).loc main_arg2)))) (K.step (m ((c.tc : Thread nD τ).loc main_arg0)) (K.padI (K.src (m ((c.tc : Thread nD τ).loc main_arg1)) (m ((c.tc : Thread nD τ).loc main_arg2)))) (K.padI (K.dst (m ((c.tc : Thread nD τ).loc main_arg1)) (m ((c.tc : Thread nD τ).loc main_arg2)))) (K.padW (K.wts (m ((c.tc : Thread nD τ).loc main_arg1)) (m ((c.tc : Thread nD τ).loc main_arg2)))) (K.step (m ((c.tc : Thread nD τ).loc main_arg0)) (K.padI (K.src (m ((c.tc : Thread nD τ).loc main_arg1)) (m ((c.tc : Thread nD τ).loc main_arg2)))) (K.padI (K.dst (m ((c.tc : Thread nD τ).loc main_arg1)) (m ((c.tc : Thread nD τ).loc main_arg2)))) (K.padW (K.wts (m ((c.tc : Thread nD τ).loc main_arg1)) (m ((c.tc : Thread nD τ).loc main_arg2)))) (K.step (m ((c.tc : Thread nD τ).loc main_arg0)) (K.padI (K.src (m ((c.tc : Thread nD τ).loc main_arg1)) (m ((c.tc : Thread nD τ).loc main_arg2)))) (K.padI (K.dst (m ((c.tc : Thread nD τ).loc main_arg1)) (m ((c.tc : Thread nD τ).loc main_arg2)))) (K.padW (K.wts (m ((c.tc : Thread nD τ).loc main_arg1)) (m ((c.tc : Thread nD τ).loc main_arg2)))) (m ((c.tc : Thread nD τ).loc main_arg0)))))) :=
  step_of _ _ _ _ _ _ _ _ _ _ (GenP.W13 m ρ c (Proc.devRef .tc main_v74)) (GenP.W14 m ρ c (Proc.devRef .tc main_v75)) (GenP.W15 m ρ c (Proc.devRef .tc main_v78)) _
    (gath_13 m ρ c) (step_3 m ρ c) ((at_v28_12 m ρ c).trans (entry_v28 m ρ c))
    ((GenP.W14_arr m ρ c 2).trans (RegionValues.final6 (GenP.V13 m ρ) c)) ((at_v31_13 m ρ c).trans (entry_v31 m ρ c))
    (scat_15 m ρ c) ((at_v29_14 m ρ c).trans (entry_v29 m ρ c))
    ((GenP.W16_arr m ρ c 2).trans (RegionValues.final7 (GenP.V15 m ρ) c)) ((at_arg0_15 m ρ c).trans (entry_arg0 m ρ c))

/-- The result buffer at the last boundary: four steps from the features argument, then the division by the word of 1. -/
theorem result_17 (c : Dev nD) : (GenP.W17 m ρ c (Proc.devRef .tc main_v81) : FVec Ideal S300000x64 .f32) = K.finish (K.step (m ((c.tc : Thread nD τ).loc main_arg0)) (K.padI (K.src (m ((c.tc : Thread nD τ).loc main_arg1)) (m ((c.tc : Thread nD τ).loc main_arg2)))) (K.padI (K.dst (m ((c.tc : Thread nD τ).loc main_arg1)) (m ((c.tc : Thread nD τ).loc main_arg2)))) (K.padW (K.wts (m ((c.tc : Thread nD τ).loc main_arg1)) (m ((c.tc : Thread nD τ).loc main_arg2)))) (K.step (m ((c.tc : Thread nD τ).loc main_arg0)) (K.padI (K.src (m ((c.tc : Thread nD τ).loc main_arg1)) (m ((c.tc : Thread nD τ).loc main_arg2)))) (K.padI (K.dst (m ((c.tc : Thread nD τ).loc main_arg1)) (m ((c.tc : Thread nD τ).loc main_arg2)))) (K.padW (K.wts (m ((c.tc : Thread nD τ).loc main_arg1)) (m ((c.tc : Thread nD τ).loc main_arg2)))) (K.step (m ((c.tc : Thread nD τ).loc main_arg0)) (K.padI (K.src (m ((c.tc : Thread nD τ).loc main_arg1)) (m ((c.tc : Thread nD τ).loc main_arg2)))) (K.padI (K.dst (m ((c.tc : Thread nD τ).loc main_arg1)) (m ((c.tc : Thread nD τ).loc main_arg2)))) (K.padW (K.wts (m ((c.tc : Thread nD τ).loc main_arg1)) (m ((c.tc : Thread nD τ).loc main_arg2)))) (K.step (m ((c.tc : Thread nD τ).loc main_arg0)) (K.padI (K.src (m ((c.tc : Thread nD τ).loc main_arg1)) (m ((c.tc : Thread nD τ).loc main_arg2)))) (K.padI (K.dst (m ((c.tc : Thread nD τ).loc main_arg1)) (m ((c.tc : Thread nD τ).loc main_arg2)))) (K.padW (K.wts (m ((c.tc : Thread nD τ).loc main_arg1)) (m ((c.tc : Thread nD τ).loc main_arg2)))) (m ((c.tc : Thread nD τ).loc main_arg0)))))) :=
  (fin_17 m ρ c).trans (congrArg K.finish (step_4 m ρ c))

end Cert.KernelIdeal.RunV

end
-- ==== Proof.LibGatherRows.lean ====
/-
  A row gather read at an index.

  `x[idx]` for a matrix `x : [N, C]` and indices `idx : [E]` (as `[E, 1]`): row `e` of the result is the row of `x`
  at the index `idx e`, read as a signed integer and clamped into `[0, N − 1]`; columns go to columns.
-/
import Idealize.ShloMosaic.PureOps.Ideal
import Idealize.ShloMosaic.Lib.ValueIdx

noncomputable section

namespace Idealize.ShloMosaic.GatherRows

open Idealize.ShloMosaic Idealize.ShloMosaic.ValueIdx

variable {α : Type}

/-- The dimension numbers of a row gather. -/
abbrev rowsDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row an index word selects: read signed, clamped into `[0, N − 1]`. -/
def clampRow (N : Nat) (hN : 0 < N) {w : Nat} (v : BitVec w) : Fin N := ⟨min v.toInt.toNat (N - 1), by omega⟩

/-- THE GATHER READ AT `(e, q)`: entry `q` of the row of `x` that index `e` selects. -/
theorem rows_gather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (rowsDims N E C wf) x idx (ix2 e q) = x (ix2 (clampRow N hN (idx (ix2 e 0))) q) := by
  unfold Host.gather
  congr 1
  funext a
  refine Fin.ext ?_
  match a with
  | ⟨0, _⟩ =>
    show (rowsDims N E C wf).start (ix2 e q) idx 0 + (rowsDims N E C wf).batchCoord (ix2 e q) 0
      + (rowsDims N E C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N E C wf).startIndexMap from List.mem_singleton.mpr rfl)]
    have hsi : (rowsDims N E C wf).siIdx (ix2 e q) ⟨List.idxOf (0 : Fin 2) (rowsDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowsDims N E C wf).start (ix2 e q) idx 1 + (rowsDims N E C wf).batchCoord (ix2 e q) 1
      + (rowsDims N E C wf).offCoord (ix2 e q) 1 = q.val
    rw [GatherDims.batchCoord_eq_zero _ _ _ List.not_mem_nil]
    have hs : (rowsDims N E C wf).start (ix2 e q) idx 1 = 0 := by
      unfold GatherDims.start
      rw [dif_neg (fun h => by simp at h)]
    have ho : (rowsDims N E C wf).offCoord (ix2 e q) 1 = q.val := by
      unfold GatherDims.offCoord
      rw [dif_pos ((GatherDims.mem_sKept _ _).mpr ⟨by simp, List.not_mem_nil⟩)]
      rfl
    rw [hs, ho]
    omega

end Idealize.ShloMosaic.GatherRows

end
-- ==== Proof.LibScatterRows.lean ====
/-
  Scatters read at an index.

  A scatter walks the update indices in row-major order; each update lands on one element of the operand (or on
  none, when its start index falls outside) and is combined there with what the element holds. When the
  combination is the addition of a commutative monoid the order of the walk does not matter: every element ends
  at its initial value plus the sum of the updates that land on it.
-/
import Idealize.ShloMosaic.PureOps.Ideal
import Idealize.ShloMosaic.Lib.ValueIdx

noncomputable section

namespace Idealize.ShloMosaic.ScatterRows

open Idealize.ShloMosaic Idealize.ShloMosaic.ValueIdx

variable {α : Type} [AddCommMonoid α]

/-- One step of the walk, started from any contents `r`: after the updates of the list `l`, element `i` holds
    `r i` plus the sum, over the list, of the updates landing on `i`. -/
theorem foldl_scatter_apply {s si u : Shape} {w : Nat} (d : ScatterDims s si u) (idx : IVec si w) (upd : u.Idx → α)
    (l : List (Fin u.numel)) (r : s.Idx → α) (i : s.Idx) :
    (l.foldl (fun r n =>
        match d.resultIdx? (u.rowMajor.symm n) idx with
        | some i0 => fun i' => if i' = i0 then r i0 + upd (u.rowMajor.symm n) else r i'
        | none => r) r) i
      = r i + (l.map fun n => if d.resultIdx? (u.rowMajor.symm n) idx = some i then upd (u.rowMajor.symm n) else 0).sum := by
  induction l generalizing r with
  | nil => simp
  | cons n l ih =>
    rw [List.foldl_cons, ih, List.map_cons, List.sum_cons]
    cases h : d.resultIdx? (u.rowMajor.symm n) idx with
    | none => simp
    | some i0 =>
      by_cases hi : i = i0
      · subst hi
        simp [add_assoc]
      · have hne : ¬ (some i0 = some i) := fun h' => hi (Option.some.inj h').symm
        simp [hi, hne]

/-- A scatter whose combination is the addition of a commutative monoid, read at `i`: the operand's element plus
    the sum of the updates that land on it. -/
theorem scatter_add_apply {s si u : Shape} {w : Nat} (d : ScatterDims s si u) (f : α → α → α) (hf : ∀ a b, f a b = a + b)
    (x : s.Idx → α) (idx : IVec si w) (upd : u.Idx → α) (i : s.Idx) :
    Host.scatter d f x idx upd i = x i + ∑ j : u.Idx, if d.resultIdx? j idx = some i then upd j else 0 := by
  obtain rfl : f = (· + ·) := funext fun a => funext fun b => hf a b
  refine (foldl_scatter_apply d idx upd (List.finRange u.numel) x i).trans ?_
  rw [← Fin.sum_univ_def]
  congr 1
  exact Equiv.sum_comp u.rowMajor.symm (fun j => if d.resultIdx? j idx = some i then upd j else 0)

/-! ## Counting: scalar updates scattered into a flat array

`x.at[idx].add(v)` for a flat array `x : [N]`, indices `idx : [E]` (as `[E, 1]`) and updates `v : [E]`: update `e`
lands on element `idx e`, read as a signed integer, when that is inside `[0, N)`, and is dropped otherwise. -/

section Count

/-- Those dimension numbers. -/
abbrev countDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)

theorem countDims_start (j : (⟨1, ![E]⟩ : Shape).Idx) (idx : IVec ⟨2, ![E, 1]⟩ w) (a : Fin 1) :
    (countDims N E wf).start j idx a = (idx (ix2 (j 0) 0)).toInt := by
  obtain rfl : a = 0 := Subsingleton.elim _ _
  unfold ScatterDims.start
  rw [dif_pos (show (0 : Fin 1) ∈ (countDims N E wf).scatterDimsToOperandDims from List.mem_singleton.mpr rfl)]
  have hsi : (countDims N E wf).siIdx j ⟨List.idxOf (0 : Fin 1) (countDims N E wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

theorem countDims_window (j : (⟨1, ![E]⟩ : Shape).Idx) (a : Fin 1) : (countDims N E wf).window j a = 0 := by
  obtain rfl : a = 0 := Subsingleton.elim _ _
  unfold ScatterDims.window
  rw [dif_neg (fun h => by
    have h' := (List.mem_filter.1 h).2
    simp at h')]

/-- Update `e` lands on element `p` exactly when its index, read signed, is `p`. -/
theorem countDims_resultIdx?_eq_some (j : (⟨1, ![E]⟩ : Shape).Idx) (idx : IVec ⟨2, ![E, 1]⟩ w) (p : Fin N) :
    (countDims N E wf).resultIdx? j idx = some (ix1 p) ↔ (idx (ix2 (j 0) 0)).toInt = (p.val : ℤ) := by
  unfold ScatterDims.resultIdx?
  constructor
  · intro h
    split at h
    · next hc =>
      have hv : ((countDims N E wf).start j idx 0 + (countDims N E wf).window j 0).toNat = p.val :=
        congrArg Fin.val (congrFun (Option.some.inj h) 0)
      have h0 := (hc 0).1
      rw [countDims_start, countDims_window] at hv h0
      omega
    · exact absurd h (by simp)
  · intro h
    have hc : ∀ a, 0 ≤ (countDims N E wf).start j idx a + (countDims N E wf).window j a ∧
        (countDims N E wf).start j idx a + (countDims N E wf).window j a < (⟨1, ![N]⟩ : Shape).size a := by
      intro a
      obtain rfl : a = 0 := Subsingleton.elim _ _
      rw [countDims_start, countDims_window, h]
      have := p.isLt
      constructor
      · omega
      · show (p.val : ℤ) + 0 < (N : ℤ)
        omega
    rw [dif_pos hc]
    congr 1
    funext a
    obtain rfl : a = 0 := Subsingleton.elim _ _
    refine Fin.ext ?_
    show ((countDims N E wf).start j idx 0 + (countDims N E wf).window j 0).toNat = p.val
    rw [countDims_start, countDims_window, h]
    omega

end Count

/-- The flat index set as its one coordinate. -/
def idxEquiv1 {n : Nat} : (⟨1, ![n]⟩ : Shape).Idx ≃ Fin n where
  toFun j := j 0
  invFun e := ix1 e
  left_inv j := (eq_ix1 j).symm
  right_inv _ := rfl

theorem sum_idx1 {M : Type} [AddCommMonoid M] {n : Nat} (f : (⟨1, ![n]⟩ : Shape).Idx → M) :
    ∑ j, f j = ∑ e : Fin n, f (ix1 e) :=
  (Equiv.sum_comp (idxEquiv1 (n := n)).symm f).symm

/-- THE COUNT READ AT `p`: the operand's element plus the sum of the updates whose index, read signed, is `p`. -/
theorem count_scatter_apply {N E w : Nat} (wf : ScatterDims.WF ⟨1, ![N]⟩ ⟨2, ![E, 1]⟩ ⟨1, ![E]⟩ [] [0] [0] 1)
    (f : α → α → α) (hf : ∀ a b, f a b = a + b) (x : (⟨1, ![N]⟩ : Shape).Idx → α) (idx : IVec ⟨2, ![E, 1]⟩ w)
    (upd : (⟨1, ![E]⟩ : Shape).Idx → α) (p : Fin N) :
    Host.scatter (countDims N E wf) f x idx upd (ix1 p)
      = x (ix1 p) + ∑ e : Fin E, if (idx (ix2 e 0)).toInt = (p.val : ℤ) then upd (ix1 e) else 0 := by
  rw [scatter_add_apply _ f hf, sum_idx1]
  congr 1
  refine Finset.sum_congr rfl fun e _ => ?_
  simp only [countDims_resultIdx?_eq_some]
  rfl

/-! ## Rows: row updates scattered into a matrix

`x.at[idx].add(v)` for a matrix `x : [N, C]`, indices `idx : [E]` (as `[E, 1]`) and updates `v : [E, C]`: row `e`
of the updates lands on row `idx e`, read as a signed integer, when that is inside `[0, N)`, and is dropped
otherwise; columns go to columns. -/

section Rows

/-- Those dimension numbers. -/
abbrev rowsDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

theorem rowsDims_start0 (j : (⟨2, ![E, C]⟩ : Shape).Idx) (idx : IVec ⟨2, ![E, 1]⟩ w) :
    (rowsDims N E C wf).start j idx 0 = (idx (ix2 (j 0) 0)).toInt := by
  unfold ScatterDims.start
  rw [dif_pos (show (0 : Fin 2) ∈ (rowsDims N E C wf).scatterDimsToOperandDims from List.mem_singleton.mpr rfl)]
  have hsi : (rowsDims N E C wf).siIdx j ⟨List.idxOf (0 : Fin 2) (rowsDims N E C wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

theorem rowsDims_start1 (j : (⟨2, ![E, C]⟩ : Shape).Idx) (idx : IVec ⟨2, ![E, 1]⟩ w) :
    (rowsDims N E C wf).start j idx 1 = 0 := by
  unfold ScatterDims.start
  rw [dif_neg (fun h => by simp at h)]

theorem rowsDims_window0 (j : (⟨2, ![E, C]⟩ : Shape).Idx) : (rowsDims N E C wf).window j 0 = 0 := by
  unfold ScatterDims.window
  rw [dif_neg (fun h => by
    have h' := (List.mem_filter.1 h).2
    simp at h')]

theorem rowsDims_window1 (j : (⟨2, ![E, C]⟩ : Shape).Idx) : (rowsDims N E C wf).window j 1 = (j 1).val := by
  unfold ScatterDims.window
  rw [dif_pos (show (1 : Fin 2) ∈ (rowsDims N E C wf).sKept from
    List.mem_filter.2 ⟨List.mem_finRange _, by simp⟩)]
  rfl

/-- Entry `(e, c)` of the updates lands on entry `(p, q)` exactly when row `e`'s index, read signed, is `p` and
    `c = q`. -/
theorem rowsDims_resultIdx?_eq_some (j : (⟨2, ![E, C]⟩ : Shape).Idx) (idx : IVec ⟨2, ![E, 1]⟩ w) (p : Fin N) (q : Fin C) :
    (rowsDims N E C wf).resultIdx? j idx = some (ix2 p q)
      ↔ (idx (ix2 (j 0) 0)).toInt = (p.val : ℤ) ∧ (j 1).val = q.val := by
  unfold ScatterDims.resultIdx?
  constructor
  · intro h
    split at h
    · next hc =>
      have hv0 : ((rowsDims N E C wf).start j idx 0 + (rowsDims N E C wf).window j 0).toNat = p.val :=
        congrArg Fin.val (congrFun (Option.some.inj h) 0)
      have hv1 : ((rowsDims N E C wf).start j idx 1 + (rowsDims N E C wf).window j 1).toNat = q.val :=
        congrArg Fin.val (congrFun (Option.some.inj h) 1)
      have h0 := (hc 0).1
      rw [rowsDims_start0, rowsDims_window0] at hv0 h0
      rw [rowsDims_start1, rowsDims_window1] at hv1
      constructor <;> omega
    · exact absurd h (by simp)
  · rintro ⟨h, hq⟩
    have hc : ∀ a, 0 ≤ (rowsDims N E C wf).start j idx a + (rowsDims N E C wf).window j a ∧
        (rowsDims N E C wf).start j idx a + (rowsDims N E C wf).window j a < (⟨2, ![N, C]⟩ : Shape).size a := by
      intro a
      match a with
      | ⟨0, _⟩ =>
        show 0 ≤ (rowsDims N E C wf).start j idx 0 + (rowsDims N E C wf).window j 0 ∧
          (rowsDims N E C wf).start j idx 0 + (rowsDims N E C wf).window j 0 < (N : ℤ)
        rw [rowsDims_start0, rowsDims_window0, h]
        have := p.isLt
        constructor <;> omega
      | ⟨1, _⟩ =>
        show 0 ≤ (rowsDims N E C wf).start j idx 1 + (rowsDims N E C wf).window j 1 ∧
          (rowsDims N E C wf).start j idx 1 + (rowsDims N E C wf).window j 1 < (C : ℤ)
        rw [rowsDims_start1, rowsDims_window1, hq]
        have := q.isLt
        constructor <;> omega
    rw [dif_pos hc]
    congr 1
    funext a
    refine Fin.ext ?_
    match a with
    | ⟨0, _⟩ =>
      show ((rowsDims N E C wf).start j idx 0 + (rowsDims N E C wf).window j 0).toNat = p.val
      rw [rowsDims_start0, rowsDims_window0, h]
      omega
    | ⟨1, _⟩ =>
      show ((rowsDims N E C wf).start j idx 1 + (rowsDims N E C wf).window j 1).toNat = q.val
      rw [rowsDims_start1, rowsDims_window1, hq]
      omega

/-- THE ACCUMULATED ROWS READ AT `(p, q)`, on the extended reals: the operand's entry plus the sum, over the rows
    `e` of the updates whose index is `p`, of the update's entry `(e, q)`. -/
theorem rows_scatterAdd_apply (x : (⟨2, ![N, C]⟩ : Shape).Idx → EReal) (idx : IVec ⟨2, ![E, 1]⟩ w)
    (upd : (⟨2, ![E, C]⟩ : Shape).Idx → EReal) (p : Fin N) (q : Fin C) :
    Ideal.hostScatterAdd (rowsDims N E C wf) x idx upd (ix2 p q)
      = x (ix2 p q) + ∑ e : Fin E, if (idx (ix2 e 0)).toInt = (p.val : ℤ) then upd (ix2 e q) else 0 := by
  unfold Ideal.hostScatterAdd
  congr 1
  rw [Finset.sum_filter, sum_idx2]
  refine Finset.sum_congr rfl fun e _ => ?_
  simp only [rowsDims_resultIdx?_eq_some]
  by_cases he : (idx (ix2 e 0)).toInt = (p.val : ℤ)
  · have : ∀ c : Fin C, ((idx (ix2 ((ix2 e c : (⟨2, ![E, C]⟩ : Shape).Idx) 0) 0)).toInt = (p.val : ℤ)
        ∧ ((ix2 e c : (⟨2, ![E, C]⟩ : Shape).Idx) 1).val = q.val) ↔ c = q := fun c =>
      ⟨fun h => Fin.ext h.2, fun h => ⟨he, congrArg Fin.val h⟩⟩
    simp only [this, Finset.sum_ite_eq', Finset.mem_univ, if_true, he]
  · have : ∀ c : Fin C, ¬ ((idx (ix2 ((ix2 e c : (⟨2, ![E, C]⟩ : Shape).Idx) 0) 0)).toInt = (p.val : ℤ)
        ∧ ((ix2 e c : (⟨2, ![E, C]⟩ : Shape).Idx) 1).val = q.val) := fun c h => he h.1
    simp only [this, if_false, Finset.sum_const_zero, he]

end Rows

end Idealize.ShloMosaic.ScatterRows

end
-- ==== Proof.LibScatterCols.lean ====
/-
  A scatter of columns, read at an index.

  `x.at[:, idx].add(v)` for a matrix `x : [C, N]`, indices `idx : [E]` (as `[E, 1]`) and updates `v : [C, E]`:
  column `e` of the updates lands on column `idx e` of the operand, read as a signed integer, when that is inside
  `[0, N)`, and is dropped otherwise; rows go to rows. This is the transposed layout of the row scatter
  (`[E, C]` rows into `[N, C]`): a per-row `segment_sum` mapped over the `C` rows of a `[C, E]` array.
  On the extended reals every entry ends at its initial value plus the sum of the updates landing on it.
-/
import Idealize.ShloMosaic.PureOps.Ideal
import Idealize.ShloMosaic.Lib.ValueIdx

noncomputable section

namespace Idealize.ShloMosaic.ScatterCols

open Idealize.ShloMosaic Idealize.ShloMosaic.ValueIdx

/-- The dimension numbers of the column scatter: the updates' axis 0 is the window (it goes to the operand's axis 0),
    the operand's axis 1 is the one the indices address. -/
abbrev colsDims (N E C : Nat) (wf : ScatterDims.WF ⟨2, ![C, N]⟩ ⟨2, ![E, 1]⟩ ⟨2, ![C, E]⟩ [0] [1] [1] 1) :
    ScatterDims ⟨2, ![C, N]⟩ ⟨2, ![E, 1]⟩ ⟨2, ![C, E]⟩ where
  updateWindowDims := [0]
  insertedWindowDims := [1]
  scatterDimsToOperandDims := [1]
  indexVectorDim := 1
  wf := wf

variable {N E C w : Nat} (wf : ScatterDims.WF ⟨2, ![C, N]⟩ ⟨2, ![E, 1]⟩ ⟨2, ![C, E]⟩ [0] [1] [1] 1)

/-- On the addressed axis the window starts at the index of the update's column, read signed. -/
theorem colsDims_start1 (j : (⟨2, ![C, E]⟩ : Shape).Idx) (idx : IVec ⟨2, ![E, 1]⟩ w) :
    (colsDims N E C wf).start j idx 1 = (idx (ix2 (j 1) 0)).toInt := by
  unfold ScatterDims.start
  rw [dif_pos (show (1 : Fin 2) ∈ (colsDims N E C wf).scatterDimsToOperandDims from List.mem_singleton.mpr rfl)]
  have hsi : (colsDims N E C wf).siIdx j ⟨List.idxOf (1 : Fin 2) (colsDims N E C wf).scatterDimsToOperandDims,
      List.idxOf_lt_length_iff.2 (List.mem_singleton.mpr rfl)⟩ = ix2 (j 1) 0 := by
    funext b; refine Fin.ext ?_
    match b with
    | ⟨0, _⟩ => rfl
    | ⟨1, _⟩ => rfl
  rw [hsi]
  rfl

/-- On the row axis the window starts at zero. -/
theorem colsDims_start0 (j : (⟨2, ![C, E]⟩ : Shape).Idx) (idx : IVec ⟨2, ![E, 1]⟩ w) :
    (colsDims N E C wf).start j idx 0 = 0 := by
  unfold ScatterDims.start
  rw [dif_neg (fun h => by simp at h)]

/-- The window coordinate on the row axis is the update's row. -/
theorem colsDims_window0 (j : (⟨2, ![C, E]⟩ : Shape).Idx) : (colsDims N E C wf).window j 0 = (j 0).val := by
  unfold ScatterDims.window
  rw [dif_pos (show (0 : Fin 2) ∈ (colsDims N E C wf).sKept from
    List.mem_filter.2 ⟨List.mem_finRange _, by simp⟩)]
  rfl

/-- The addressed axis is inserted: no window coordinate there. -/
theorem colsDims_window1 (j : (⟨2, ![C, E]⟩ : Shape).Idx) : (colsDims N E C wf).window j 1 = 0 := by
  unfold ScatterDims.window
  rw [dif_neg (fun h => by
    have h' := (List.mem_filter.1 h).2
    simp at h')]

/-- Entry `(c, e)` of the updates lands on entry `(q, p)` exactly when `c = q` and column `e`'s index, read signed,
    is `p`. -/
theorem colsDims_resultIdx?_eq_some (j : (⟨2, ![C, E]⟩ : Shape).Idx) (idx : IVec ⟨2, ![E, 1]⟩ w) (q : Fin C) (p : Fin N) :
    (colsDims N E C wf).resultIdx? j idx = some (ix2 q p)
      ↔ (j 0).val = q.val ∧ (idx (ix2 (j 1) 0)).toInt = (p.val : ℤ) := by
  unfold ScatterDims.resultIdx?
  constructor
  · intro h
    split at h
    · next hc =>
      have hv0 : ((colsDims N E C wf).start j idx 0 + (colsDims N E C wf).window j 0).toNat = q.val :=
        congrArg Fin.val (congrFun (Option.some.inj h) 0)
      have hv1 : ((colsDims N E C wf).start j idx 1 + (colsDims N E C wf).window j 1).toNat = p.val :=
        congrArg Fin.val (congrFun (Option.some.inj h) 1)
      have h1 := (hc 1).1
      rw [colsDims_start0, colsDims_window0] at hv0
      rw [colsDims_start1, colsDims_window1] at hv1 h1
      constructor <;> omega
    · exact absurd h (by simp)
  · rintro ⟨hq, h⟩
    have hc : ∀ a, 0 ≤ (colsDims N E C wf).start j idx a + (colsDims N E C wf).window j a ∧
        (colsDims N E C wf).start j idx a + (colsDims N E C wf).window j a < (⟨2, ![C, N]⟩ : Shape).size a := by
      intro a
      match a with
      | ⟨0, _⟩ =>
        show 0 ≤ (colsDims N E C wf).start j idx 0 + (colsDims N E C wf).window j 0 ∧
          (colsDims N E C wf).start j idx 0 + (colsDims N E C wf).window j 0 < (C : ℤ)
        rw [colsDims_start0, colsDims_window0, hq]
        have := q.isLt
        constructor <;> omega
      | ⟨1, _⟩ =>
        show 0 ≤ (colsDims N E C wf).start j idx 1 + (colsDims N E C wf).window j 1 ∧
          (colsDims N E C wf).start j idx 1 + (colsDims N E C wf).window j 1 < (N : ℤ)
        rw [colsDims_start1, colsDims_window1, h]
        have := p.isLt
        constructor <;> omega
    rw [dif_pos hc]
    congr 1
    funext a
    refine Fin.ext ?_
    match a with
    | ⟨0, _⟩ =>
      show ((colsDims N E C wf).start j idx 0 + (colsDims N E C wf).window j 0).toNat = q.val
      rw [colsDims_start0, colsDims_window0, hq]
      omega
    | ⟨1, _⟩ =>
      show ((colsDims N E C wf).start j idx 1 + (colsDims N E C wf).window j 1).toNat = p.val
      rw [colsDims_start1, colsDims_window1, h]
      omega

/-- THE ACCUMULATED COLUMNS READ AT `(q, p)`, on the extended reals: the operand's entry plus the sum, over the
    columns `e` of the updates whose index is `p`, of the update's entry `(q, e)`. -/
theorem cols_scatterAdd_apply (x : (⟨2, ![C, N]⟩ : Shape).Idx → EReal) (idx : IVec ⟨2, ![E, 1]⟩ w)
    (upd : (⟨2, ![C, E]⟩ : Shape).Idx → EReal) (q : Fin C) (p : Fin N) :
    Ideal.hostScatterAdd (colsDims N E C wf) x idx upd (ix2 q p)
      = x (ix2 q p) + ∑ e : Fin E, if (idx (ix2 e 0)).toInt = (p.val : ℤ) then upd (ix2 q e) else 0 := by
  unfold Ideal.hostScatterAdd
  congr 1
  rw [Finset.sum_filter, sum_idx2, Finset.sum_comm]
  refine Finset.sum_congr rfl fun e _ => ?_
  simp only [colsDims_resultIdx?_eq_some]
  by_cases he : (idx (ix2 e 0)).toInt = (p.val : ℤ)
  · have : ∀ c : Fin C, (((ix2 c e : (⟨2, ![C, E]⟩ : Shape).Idx) 0).val = q.val
        ∧ (idx (ix2 ((ix2 c e : (⟨2, ![C, E]⟩ : Shape).Idx) 1) 0)).toInt = (p.val : ℤ)) ↔ c = q := fun c =>
      ⟨fun h => Fin.ext h.1, fun h => ⟨congrArg Fin.val h, he⟩⟩
    simp only [this, Finset.sum_ite_eq', Finset.mem_univ, if_true, he]
  · have : ∀ c : Fin C, ¬ (((ix2 c e : (⟨2, ![C, E]⟩ : Shape).Idx) 0).val = q.val
        ∧ (idx (ix2 ((ix2 c e : (⟨2, ![C, E]⟩ : Shape).Idx) 1) 0)).toInt = (p.val : ℤ)) := fun c h => he h.2
    simp only [this, if_false, Finset.sum_const_zero, he]

end Idealize.ShloMosaic.ScatterCols

end
-- ==== Proof.LibScatterHost.lean ====
/-
  The host's accumulating scatter, read at an index, for the two layouts of a segment sum.

  `Host.scatterAdd` read at the extended reals is the exact sum (`Ideal.hostScatterAdd`); these two lemmas state the
  row form (`[E, C]` rows into `[N, C]`) and the column form (`[C, E]` columns into `[C, N]`) directly of the host
  operation, for any extents: the two layouts of one segment sum, read at transposed entries, are the same sum.
-/
import proofs.«105508_j38800734552802_2_alg».proof.Proof.LibScatterRows
import proofs.«105508_j38800734552802_2_alg».proof.Proof.LibScatterCols

noncomputable section

namespace Idealize.ShloMosaic.ScatterHost

open Idealize.ShloMosaic Idealize.ShloMosaic.ValueIdx

variable {N E C w : Nat}

/-- The host's row scatter at `(p, q)`: the operand's entry plus the sum, over the rows `e` of the updates whose index
    is `p`, of the update's entry `(e, q)`. -/
theorem rows_apply (wf : ScatterDims.WF ⟨2, ![N, C]⟩ ⟨2, ![E, 1]⟩ ⟨2, ![E, C]⟩ [1] [0] [0] 1)
    (x : FVec Ideal ⟨2, ![N, C]⟩ .f32) (idx : IVec ⟨2, ![E, 1]⟩ w) (upd : FVec Ideal ⟨2, ![E, C]⟩ .f32) (p : Fin N) (q : Fin C) :
    Host.scatterAdd (ScatterRows.rowsDims N E C wf) x idx upd (ix2 p q)
      = x (ix2 p q) + ∑ e : Fin E, if (idx (ix2 e 0)).toInt = (p.val : ℤ) then upd (ix2 e q) else 0 :=
  ScatterRows.rows_scatterAdd_apply wf x idx upd p q

/-- The host's column scatter at `(q, p)`: the operand's entry plus the sum, over the columns `e` of the updates whose
    index is `p`, of the update's entry `(q, e)`. -/
theorem cols_apply (wf : ScatterDims.WF ⟨2, ![C, N]⟩ ⟨2, ![E, 1]⟩ ⟨2, ![C, E]⟩ [0] [1] [1] 1)
    (x : FVec Ideal ⟨2, ![C, N]⟩ .f32) (idx : IVec ⟨2, ![E, 1]⟩ w) (upd : FVec Ideal ⟨2, ![C, E]⟩ .f32) (q : Fin C) (p : Fin N) :
    Host.scatterAdd (ScatterCols.colsDims N E C wf) x idx upd (ix2 q p)
      = x (ix2 q p) + ∑ e : Fin E, if (idx (ix2 e 0)).toInt = (p.val : ℤ) then upd (ix2 q e) else 0 :=
  ScatterCols.cols_scatterAdd_apply wf x idx upd q p

end Idealize.ShloMosaic.ScatterHost

end
-- ==== Proof.LibSumPad.lean ====
/-
  A finite sum whose trailing terms vanish.

  A sum over `n + m` indices whose last `m` terms are zero is the sum of its first `n` terms. Stated over any additive
  commutative monoid, so no finiteness of the terms is asked for.
-/
import Mathlib.Algebra.BigOperators.Fin

namespace Cert.Diffuse

/-- If `f` agrees with `g` on the first `n` indices and is zero on the last `m`, the two sums agree. -/
theorem sum_pad {M : Type*} [AddCommMonoid M] (n m : Nat) (f : Fin (n + m) → M) (g : Fin n → M)
    (hl : ∀ i : Fin n, f (Fin.castAdd m i) = g i) (hr : ∀ i : Fin m, f (Fin.natAdd n i) = 0) :
    ∑ e, f e = ∑ e, g e := by
  rw [Fin.sum_univ_add, Finset.sum_congr rfl (fun i _ => hl i), Finset.sum_congr rfl (fun i _ => hr i),
    Finset.sum_const_zero, add_zero]

end Cert.Diffuse
-- ==== Proof.LibColumnReads.lean ====
/-
  Column layouts read at an index.

  A vector `[a]` laid out as a column `[a, 1]` reads its element `p` at `(p, 0)`; a column `[a, 1]` repeated across
  `[a, b]` reads its row `p` at `(p, q)`.
-/
import Idealize.ShloMosaic.PureOps.Ideal
import Idealize.ShloMosaic.Lib.ValueIdx

namespace Idealize.ShloMosaic.ColumnReads

open Idealize.ShloMosaic Idealize.ShloMosaic.ValueIdx

variable {α : Type}

/-- A vector laid out as a column, read at `(p, z)`, is its element `p`. -/
theorem col_apply {a : Nat} (h : (⟨1, ![a]⟩ : Shape).BroadcastsInDim ⟨2, ![a, 1]⟩ ![0])
    (x : (⟨1, ![a]⟩ : Shape).Idx → α) (p : Fin a) (z : Fin 1) :
    broadcastInDim ⟨2, ![a, 1]⟩ ![0] h x (ix2 p z) = x (ix1 p) := by
  unfold broadcastInDim
  refine congrArg x (funext fun b => Fin.ext ?_)
  match b with
  | ⟨0, _⟩ =>
    by_cases h1 : (⟨1, ![a]⟩ : Shape).size ⟨0, by omega⟩ = 1
    · rw [dif_pos h1]
      have ha : a = 1 := h1
      have hp := p.isLt
      show 0 = p.val
      omega
    · rw [dif_neg h1]; rfl

/-- A column repeated across the columns of a matrix, read at `(p, q)`, is its row `p`. -/
theorem rep_apply {a b : Nat} (h : (⟨2, ![a, 1]⟩ : Shape).BroadcastsInDim ⟨2, ![a, b]⟩ ![0, 1])
    (x : (⟨2, ![a, 1]⟩ : Shape).Idx → α) (p : Fin a) (q : Fin b) :
    broadcastInDim ⟨2, ![a, b]⟩ ![0, 1] h x (ix2 p q) = x (ix2 p 0) := by
  unfold broadcastInDim
  refine congrArg x (funext fun c => Fin.ext ?_)
  match c with
  | ⟨0, _⟩ =>
    by_cases h1 : (⟨2, ![a, 1]⟩ : Shape).size ⟨0, by omega⟩ = 1
    · rw [dif_pos h1]
      have ha : a = 1 := h1
      have hp := p.isLt
      show 0 = p.val
      omega
    · rw [dif_neg h1]; rfl
  | ⟨1, _⟩ =>
    rw [dif_pos (show (⟨2, ![a, 1]⟩ : Shape).size ⟨1, by omega⟩ = 1 from rfl)]
    rfl

end Idealize.ShloMosaic.ColumnReads
-- ==== Proof.StepBridge.lean ====
/-
  The two diffusion steps agree.

  Read at a node `p` and a feature `q`, one step of either program is

      (0 + ∑ over the edges e whose destination word is p of h(row(src e), q) · w(e)) · f32(0.9) + X(p, q) · f32(0.1),

  where row(v) is the index word v with 300000 added when negative, read signed and clamped into [0, 299999].
  The kernel's program sums over 2301952 edges, the reference over 2300000. On the first 2300000 edges the padded index
  and weight vectors read their unpadded values; on the last 1952 the padded weight is zero, so the term is
  h(…) · 0 = 0 whatever row it lands in. A sum whose trailing terms vanish is the sum of its leading terms.
-/
import proofs.«105508_j38800734552802_2_alg».proof.Proof.Steps
import proofs.«105508_j38800734552802_2_alg».proof.Proof.LibGatherRows
import proofs.«105508_j38800734552802_2_alg».proof.Proof.LibScatterHost
import proofs.«105508_j38800734552802_2_alg».proof.Proof.LibSumPad
import proofs.«105508_j38800734552802_2_alg».proof.Proof.LibColumnReads
import Idealize.ShloMosaic.Lib.Pipeline.Value
import Idealize.ShloMosaic.PureOps.Ideal.Laws

noncomputable section

namespace Cert.Diffuse

open Idealize.ShloMosaic Idealize.ShloMosaic.ValueIdx
open Cert.KernelIdeal (S_ S1952 S300000x64 S2300000 S2300000x1 S2301952 S2301952x1 S2301952x64)

/-! ## One step at an entry, from per-edge data -/

/-- The wrap of one index word: a negative word has the extent 300000 added. -/
def wrapWord (v : BitVec 32) : BitVec 32 :=
  Scalar.select (IntOp.cmpi .slt v 0#32) (IntOp.addi v 300000#32) v

/-- The row of the features an index word selects: wrapped, read signed, clamped into [0, 299999]. -/
def rowOf (v : BitVec 32) : Fin 300000 := GatherRows.clampRow 300000 (by omega) (wrapWord v)

/-- One step at `(p, q)` over `E` edges given by their source words, destination words and weights. -/
def stepAt {E : Nat} (X h : FVec Ideal S300000x64 .f32) (srcAt dstAt : Fin E → BitVec 32) (wAt : Fin E → EReal)
    (p : Fin 300000) (q : Fin 64) : EReal :=
  (Ideal.ofBits .f32 0x00000000#32
      + ∑ e : Fin E, if (dstAt e).toInt = (p.val : ℤ) then h (ix2 (rowOf (srcAt e)) q) * wAt e else 0)
    * Ideal.ofBits .f32 0x3F666666#32 + X (ix2 p q) * Ideal.ofBits .f32 0x3DCCCCCD#32

/-! ## The printed dimension records are the row forms -/

theorem K.scatter_eq : Cert.KernelIdeal.scatter_S300000x64_S2301952x1_S2301952x64_1_0_0_1
    = ScatterRows.rowsDims 300000 2301952 64 Cert.KernelIdeal.Facts₀.scatter_S300000x64_S2301952x1_S2301952x64_1_0_0_1_wf := rfl

theorem K.gather_eq : Cert.KernelIdeal.gather_S300000x64_S2301952x1_S2301952x64_1_0_n_n_0_1_164
    = GatherRows.rowsDims 300000 2301952 64 Cert.KernelIdeal.Facts₀.gather_S300000x64_S2301952x1_S2301952x64_1_0_n_n_0_1_164_wf := rfl

theorem R.scatter_eq : Cert.ReferenceIdeal.scatter_S300000x64_S2300000x1_S2300000x64_1_0_0_1
    = ScatterRows.rowsDims 300000 2300000 64 Cert.ReferenceIdeal.Facts₀.scatter_S300000x64_S2300000x1_S2300000x64_1_0_0_1_wf := rfl

theorem R.gather_eq : Cert.ReferenceIdeal.gather_S300000x64_S2300000x1_S2300000x64_1_0_n_n_0_1_164
    = GatherRows.rowsDims 300000 2300000 64 Cert.ReferenceIdeal.Facts₀.gather_S300000x64_S2300000x1_S2300000x64_1_0_n_n_0_1_164_wf := rfl

/-! ## The kernel's step at an entry -/

/-- The wrapped index column at row `e` is the wrap of word `e`. -/
theorem K.wrapCol_apply (i : IVec S2301952 32) (e : Fin 2301952) (z : Fin 1) :
    K.wrapCol i (ix2 e z) = wrapWord (i (ix1 e)) := by
  unfold K.wrapCol
  rw [ColumnReads.col_apply]
  rfl

/-- The scaled rows at `(e, q)`. -/
theorem K.scaleRows_apply (x : FVec Ideal S2301952x64 .f32) (w : FVec Ideal S2301952x1 .f32) (e : Fin 2301952) (q : Fin 64) :
    K.scaleRows x w (ix2 e q) = x (ix2 e q) * w (ix2 e 0) := rfl

/-- The mix at an entry. -/
theorem K.combineRows_apply (a x : FVec Ideal S300000x64 .f32) (j : S300000x64.Idx) :
    K.combineRows a x j = a j * Ideal.ofBits .f32 0x3F666666#32 + x j * Ideal.ofBits .f32 0x3DCCCCCD#32 := rfl

/-- The accumulator the scatter starts from, at an entry. -/
theorem K.zeros_apply (j : S300000x64.Idx) : K.zeros j = Ideal.ofBits .f32 0x00000000#32 := rfl

/-- THE KERNEL'S STEP AT `(p, q)`. -/
theorem K.step_apply (X h : FVec Ideal S300000x64 .f32) (srcP dstP : IVec S2301952 32) (wP : FVec Ideal S2301952x1 .f32)
    (p : Fin 300000) (q : Fin 64) :
    K.step X srcP dstP wP h (ix2 p q)
      = stepAt X h (fun e => srcP (ix1 e)) (fun e => dstP (ix1 e)) (fun e => wP (ix2 e 0)) p q := by
  unfold K.step stepAt
  rw [K.combineRows_apply, K.scatter_eq, ScatterHost.rows_apply, K.zeros_apply]
  have hterm : ∀ e : Fin 2301952,
      (if (broadcastInDim S2301952x1 ![0] Cert.KernelIdeal.Facts₀.bcast_S2301952_S2301952x1_0 dstP (ix2 e 0)).toInt = (p.val : ℤ)
        then K.scaleRows (Host.gather Cert.KernelIdeal.gather_S300000x64_S2301952x1_S2301952x64_1_0_n_n_0_1_164 h (K.wrapCol srcP)) wP (ix2 e q)
        else 0)
      = (if (dstP (ix1 e)).toInt = (p.val : ℤ) then h (ix2 (rowOf (srcP (ix1 e))) q) * wP (ix2 e 0) else 0) := by
    intro e
    rw [ColumnReads.col_apply, K.scaleRows_apply, K.gather_eq, GatherRows.rows_gather_apply (hN := by omega), K.wrapCol_apply]
    rfl
  rw [Finset.sum_congr rfl (fun e _ => hterm e)]

/-! ## The reference's step at an entry -/

/-- The wrapped index column at row `e` is the wrap of word `e`. -/
theorem R.wrapCol_apply (i : IVec S2300000 32) (e : Fin 2300000) (z : Fin 1) :
    R.wrapCol i (ix2 e z) = wrapWord (i (ix1 e)) := by
  unfold R.wrapCol
  rw [ColumnReads.col_apply]
  rfl

/-- THE REFERENCE'S STEP AT `(p, q)`. -/
theorem R.step_apply (X h : FVec Ideal S300000x64 .f32) (src dst : IVec S2300000 32) (w : FVec Ideal S2300000 .f32)
    (p : Fin 300000) (q : Fin 64) :
    R.step X src dst w h (ix2 p q)
      = stepAt X h (fun e => src (ix1 e)) (fun e => dst (ix1 e)) (fun e => w (ix1 e)) p q := by
  unfold R.step stepAt
  rw [addf_apply, mulf_apply, mulf_apply, R.scatter_eq, ScatterHost.rows_apply]
  have hterm : ∀ e : Fin 2300000,
      (if (broadcastInDim Cert.ReferenceIdeal.S2300000x1 ![0] Cert.ReferenceIdeal.Facts₀.bcast_S2300000_S2300000x1_0 dst (ix2 e 0)).toInt = (p.val : ℤ)
        then mulf (Host.gather Cert.ReferenceIdeal.gather_S300000x64_S2300000x1_S2300000x64_1_0_n_n_0_1_164 h (R.wrapCol src))
            (broadcastInDim Cert.ReferenceIdeal.S2300000x64 ![0, 1] Cert.ReferenceIdeal.Facts₀.bcast_S2300000x1_S2300000x64_0_1
              (broadcastInDim Cert.ReferenceIdeal.S2300000x1 ![0] Cert.ReferenceIdeal.Facts₀.bcast_S2300000_S2300000x1_0 w)) (ix2 e q)
        else 0)
      = (if (dst (ix1 e)).toInt = (p.val : ℤ) then h (ix2 (rowOf (src (ix1 e))) q) * w (ix1 e) else 0) := by
    intro e
    rw [ColumnReads.col_apply, mulf_apply, R.gather_eq, GatherRows.rows_gather_apply (hN := by omega), R.wrapCol_apply,
      ColumnReads.rep_apply, ColumnReads.col_apply]
    rfl
  rw [Finset.sum_congr rfl (fun e _ => hterm e)]
  rfl

/-! ## The padded vectors, entry by entry -/

/-- A padded index vector reads its unpadded word at an entry below 2300000. -/
theorem K.padI_left (v : IVec S2300000 32) (e : Fin 2301952) (e' : Fin 2300000) (he : e'.val = e.val) :
    K.padI v (ix1 e) = v (ix1 e') := by
  unfold K.padI
  exact concatenate_pair_apply_left (0 : Fin S2301952.rank) v _ _ (ix1 e) rfl (ix1 e')
    (fun b => match b with | ⟨0, _⟩ => he)

/-- The padded weight column at row `e` is the padded weight vector at `e`: the same row-major position. -/
theorem K.padW_eq (w : FVec Ideal S2300000 .f32) (e : Fin 2301952) :
    K.padW w (ix2 e 0)
      = concatenate S2301952 0 [⟨S2300000, w⟩, ⟨S1952, broadcastInDim S1952 ![] Cert.KernelIdeal.Facts₀.bcast_S_S1952
          (constant (F := Ideal) S_ .f32 0x00000000#32)⟩] Cert.KernelIdeal.Facts₀.concatenates_S2300000_S1952_S2301952_d0 (ix1 e) := by
  unfold K.padW
  refine shapeCast_apply _ _ (ix2 e 0) (ix1 e) ?_
  rw [Shape.rowMajor_val_one, Shape.rowMajor_val_two]
  show e.val = e.val * 1 + 0
  omega

/-- The padded weight column reads the unpadded weight at a row below 2300000. -/
theorem K.padW_left (w : FVec Ideal S2300000 .f32) (e : Fin 2301952) (e' : Fin 2300000) (he : e'.val = e.val) :
    K.padW w (ix2 e 0) = w (ix1 e') := by
  rw [K.padW_eq]
  exact concatenate_pair_apply_left (0 : Fin S2301952.rank) w _ _ (ix1 e) rfl (ix1 e')
    (fun b => match b with | ⟨0, _⟩ => he)

/-- The padded weight column is zero at a row from 2300000 on. -/
theorem K.padW_right (w : FVec Ideal S2300000 .f32) (e : Fin 2301952) (he : 2300000 ≤ e.val) :
    K.padW w (ix2 e 0) = 0 := by
  rw [K.padW_eq]
  have hlt := e.isLt
  rw [concatenate_pair_apply_right (t := S2301952) (s₁ := S2300000) (s₂ := S1952) (0 : Fin S2301952.rank) w _ _ (ix1 e) rfl rfl
    (ix1 (⟨e.val - 2300000, by omega⟩ : Fin 1952))
    (fun b => match b with | ⟨0, _⟩ => fun hb => absurd rfl hb)
    (by show e.val - 2300000 + 2300000 = e.val; omega)]
  exact Ideal.ofBits_zero_f32

/-! ## The two steps agree -/

/-- The padded edge list gives the same entry: the last 1952 terms are `h(…) · 0 = 0`. -/
theorem stepAt_pad (X h : FVec Ideal S300000x64 .f32) (src dst : IVec S2300000 32) (w : FVec Ideal S2300000 .f32)
    (p : Fin 300000) (q : Fin 64) :
    stepAt X h (fun e : Fin 2301952 => K.padI src (ix1 e)) (fun e => K.padI dst (ix1 e)) (fun e => K.padW w (ix2 e 0)) p q
      = stepAt X h (fun e : Fin 2300000 => src (ix1 e)) (fun e => dst (ix1 e)) (fun e => w (ix1 e)) p q := by
  have key : (∑ e : Fin 2301952, if (K.padI dst (ix1 e)).toInt = (p.val : ℤ)
        then h (ix2 (rowOf (K.padI src (ix1 e))) q) * K.padW w (ix2 e 0) else 0)
      = ∑ e : Fin 2300000, if (dst (ix1 e)).toInt = (p.val : ℤ) then h (ix2 (rowOf (src (ix1 e))) q) * w (ix1 e) else 0 :=
    sum_pad 2300000 1952
      (fun e : Fin 2301952 => if (K.padI dst (ix1 e)).toInt = (p.val : ℤ)
        then h (ix2 (rowOf (K.padI src (ix1 e))) q) * K.padW w (ix2 e 0) else 0)
      (fun e : Fin 2300000 => if (dst (ix1 e)).toInt = (p.val : ℤ) then h (ix2 (rowOf (src (ix1 e))) q) * w (ix1 e) else 0)
      (fun i => by
        show (if (K.padI dst (ix1 (Fin.castAdd 1952 i))).toInt = (p.val : ℤ)
          then h (ix2 (rowOf (K.padI src (ix1 (Fin.castAdd 1952 i)))) q) * K.padW w (ix2 (Fin.castAdd 1952 i) 0) else 0) = _
        rw [K.padI_left dst _ i rfl, K.padI_left src _ i rfl, K.padW_left w _ i rfl])
      (fun i => by
        show (if (K.padI dst (ix1 (Fin.natAdd 2300000 i))).toInt = (p.val : ℤ)
          then h (ix2 (rowOf (K.padI src (ix1 (Fin.natAdd 2300000 i)))) q) * K.padW w (ix2 (Fin.natAdd 2300000 i) 0) else 0) = 0
        rw [K.padW_right w _ (Nat.le_add_right 2300000 i.val), mul_zero, ite_self])
  unfold stepAt
  rw [key]

/-- THE TWO STEPS AGREE: the kernel's step over the padded edge list is the reference's step. -/
theorem step_eq (X h : FVec Ideal Cert.KernelIdeal.S300000x64 .f32) (src dst : IVec Cert.KernelIdeal.S2300000 32)
    (w : FVec Ideal Cert.KernelIdeal.S2300000 .f32) :
    K.step X (K.padI src) (K.padI dst) (K.padW w) h = R.step X src dst w h := by
  funext j
  obtain ⟨p, q, rfl⟩ : ∃ (p : Fin 300000) (q : Fin 64), j = ix2 p q := ⟨j 0, j 1, eq_ix2 j⟩
  rw [K.step_apply, R.step_apply, stepAt_pad]

end Cert.Diffuse

end
-- ==== Proof.RefValue.lean ====
/-
  What the reference returns: four diffusion steps from the features argument over the program's edge list and edge
  weights, then the division by the f32 word of 1. The program's run gives the result as one composed term of the
  arguments; that term is this composition, the same operations in the same order.
-/
import proofs.«105508_j38800734552802_2_alg».proof.Proof.Gen.ReferenceIdeal.Run
import proofs.«105508_j38800734552802_2_alg».proof.Proof.Chain

noncomputable section

namespace Cert.ReferenceIdeal.RefValue

open Idealize.ShloMosaic Idealize.ShloMosaic.TcCoe Idealize.SL.Sem
open Cert.ReferenceIdeal Cert.Diffuse

/-- The reference's result as a function of its three argument arrays. -/
def result (x : FVec Ideal S300000x64 .f32) (a1 a2 : IVec S1000000 32) : FVec Ideal S300000x64 .f32 :=
  R.finish (R.step x (R.src a1 a2) (R.dst a1 a2) (R.wts a1 a2) (R.step x (R.src a1 a2) (R.dst a1 a2) (R.wts a1 a2)
    (R.step x (R.src a1 a2) (R.dst a1 a2) (R.wts a1 a2) (R.step x (R.src a1 a2) (R.dst a1 a2) (R.wts a1 a2) x))))

set_option maxRecDepth 16384 in
/-- The run's composed term is `result` of the argument arrays. -/
theorem res_eq (m : (ℓ : Loc nD τ sig) → Buf (Elt Ideal) ℓ) (c : Dev nD) :
    Cert.ReferenceIdeal.Value.res_main_v99 (F := Ideal) m c
      = result (m ((c.tc : Thread nD τ).loc main_arg0)) (m ((c.tc : Thread nD τ).loc main_arg1)) (m ((c.tc : Thread nD τ).loc main_arg2)) := by
  unfold Cert.ReferenceIdeal.Value.res_main_v99
  rfl

end Cert.ReferenceIdeal.RefValue

end
-- ==== Proof.Final.lean ====
/-
  The two programs return the same array of the same arguments.

  The kernel's program returns four diffusion steps over the padded edge list from the features argument, divided by the
  f32 word of 1; the reference returns four steps over the unpadded list, divided by the same word. A padded step and an
  unpadded step agree on every features array (the padded edges carry weight zero and add zero to whatever row they land
  on), and both programs build the edge list and the weights by the same operations; so the four-fold compositions agree.
-/
import proofs.«105508_j38800734552802_2_alg».proof.Proof.StepBridge
import proofs.«105508_j38800734552802_2_alg».proof.Proof.RefValue

noncomputable section

namespace Cert.Diffuse

open Idealize.ShloMosaic

/-- The kernel's program's result as a function of its three argument arrays. -/
def K.result (x : FVec Ideal Cert.KernelIdeal.S300000x64 .f32) (a1 a2 : IVec Cert.KernelIdeal.S1000000 32) : FVec Ideal Cert.KernelIdeal.S300000x64 .f32 :=
  K.finish (K.step x (K.padI (K.src a1 a2)) (K.padI (K.dst a1 a2)) (K.padW (K.wts a1 a2))
    (K.step x (K.padI (K.src a1 a2)) (K.padI (K.dst a1 a2)) (K.padW (K.wts a1 a2))
      (K.step x (K.padI (K.src a1 a2)) (K.padI (K.dst a1 a2)) (K.padW (K.wts a1 a2))
        (K.step x (K.padI (K.src a1 a2)) (K.padI (K.dst a1 a2)) (K.padW (K.wts a1 a2)) x))))

/-- Four padded steps and the division are four unpadded steps and the division. -/
theorem result_eq (x : FVec Ideal Cert.KernelIdeal.S300000x64 .f32) (a1 a2 : IVec Cert.KernelIdeal.S1000000 32) :
    K.result x a1 a2 = Cert.ReferenceIdeal.RefValue.result x a1 a2 := by
  unfold K.result
  rw [step_eq, step_eq, step_eq, step_eq]
  rfl

end Cert.Diffuse

end
-- ==== Proof.lean ====
/-
  The certificate of a four-step normalized graph diffusion: the kernel's program (row gathers and segment sums on the
  host around two Pallas kernels per step: one scales each gathered row by its edge weight, one mixes the summed rows
  with the initial features) against a plain jnp reference.

  Frames. The kernel's two printed programs are each eight regions among nine host stretches; their frames are the frame
  modules' theorems. The reference is a host program; its frame is its run with the result dropped.
  Preserves. The ideal pass rewrote nothing: the conjunct is True.
  Algebraic. At the extended reals the kernel's program ends with its result buffer at four diffusion steps over an edge
  list padded with 1952 weight-zero edges, divided by the f32 word of 1 (the frame module's boundary contents read stage
  by stage); the reference ends at four steps over the unpadded list, divided by the same word (its run's composed
  term). A zero-weight edge adds x * 0 = 0 to the row it lands on, for every extended real x, so a padded step is an
  unpadded step; no finiteness of the inputs is used.
-/
import proofs.«105508_j38800734552802_2_alg».proof.Defs
import proofs.«105508_j38800734552802_2_alg».proof.Proof.Gen.Kernel
import proofs.«105508_j38800734552802_2_alg».proof.Proof.Gen.KernelIdeal
import proofs.«105508_j38800734552802_2_alg».proof.Proof.Gen.ReferenceIdeal
import proofs.«105508_j38800734552802_2_alg».proof.Proof.Gen.Pre_finite_inputs
import proofs.«105508_j38800734552802_2_alg».proof.Proof.FrameKernel
import proofs.«105508_j38800734552802_2_alg».proof.Proof.KernelRunPost
import proofs.«105508_j38800734552802_2_alg».proof.Proof.KernelChain
import proofs.«105508_j38800734552802_2_alg».proof.Proof.Final
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.GenP.frame m ρ

theorem frame_kernelIdeal : Cert.frame_KernelIdeal := fun m ρ _ => Cert.KernelIdeal.GenP.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the kernel's program's function of the arguments in their result buffers. -/
theorem algebraic : Cert.algebraic_KernelIdeal_ReferenceIdeal := by
  intro m ρ m' ρ' _ hagree
  refine ⟨fun c => Cert.Diffuse.K.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.RunV.result_17 m ρ c), (h c).2⟩)
      (Cert.KernelIdeal.GenP.run_result m ρ)
  · refine (θ_run Cert.ReferenceIdeal.defs _ _).mono (fun r h c => ⟨(h c).1.trans ?_, (h c).2⟩)
      (Cert.ReferenceIdeal.Value.run (F := Ideal) m' ρ')
    rw [Cert.ReferenceIdeal.RefValue.res_eq, (hagree c).1, (hagree c).2.1, (hagree c).2.2]
    exact (Cert.Diffuse.result_eq _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
